-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v34_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v34_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128 : Shape := ⟨1, ![128]⟩
abbrev S128x256 : Shape := ⟨2, ![128, 256]⟩
abbrev S256 : Shape := ⟨1, ![256]⟩
abbrev S128x64 : Shape := ⟨2, ![128, 64]⟩
abbrev S64 : Shape := ⟨1, ![64]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v38 : IVec S_ 1) (main_v50 : IVec S_ 1) : IVec S_ 1 :=
  let main_v51 : IVec S_ 1 := andi main_v38 main_v50
  main_v51

def fn_part2 {F : FTy → Type} [FloatOps F] (main_arg1 : FVec F S8192x8192 .f32) (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_cst_14 : FVec F S_ .f32 := constant S_ .f32 0x3727C5AC#32
  let main_v39 : FVec F S8192x8192 .f32 := broadcastInDim S8192x8192 ![] bcast_S_S8192x8192 main_cst_14
  let main_v40 : FVec F S8192x8192 .f32 := mulf main_arg1 main_v39
  let main_v41 : FVec F S8192x8192 .f32 := Host.ceil main_v40
  let main_cst_15 : FVec F S_ .f32 := constant S_ .f32 0x00000000#32
  let main_v42 : FVec F S8192x8192 .f32 := broadcastInDim S8192x8192 ![] bcast_S_S8192x8192 main_cst_15
  let main_v43 : IVec S8192x8192 1 := cmpf .oeq main_v41 main_v42
  let main_cst_16 : FVec F S_ .f32 := constant S_ .f32 0x3727C5AC#32
  let main_v44 : FVec F S8192x8192 .f32 := broadcastInDim S8192x8192 ![] bcast_S_S8192x8192 main_cst_16
  let main_v45 : FVec F S8192x8192 .f32 := mulf main_arg1 main_v44
  let main_v46 : FVec F S8192x8192 .f32 := Host.ceil main_v45
  let main_cst_17 : FVec F S_ .f32 := constant S_ .f32 0x3F800000#32
  let main_v47 : FVec F S8192x8192 .f32 := broadcastInDim S8192x8192 ![] bcast_S_S8192x8192 main_cst_17
  let main_v48 : IVec S8192x8192 1 := cmpf .oeq main_v46 main_v47
  let main_v49 : IVec S8192x8192 1 := ori main_v43 main_v48
  let main_c_18 : IVec S_ 1 := constantI S_ 1 1#1
  let main_v50 : IVec S_ 1 := (fun x v => Host.reduce IntOp.andi x v reducesTo_S8192x8192_S_d0_1 h_S_) main_v49 main_c_18
  fn_part3 (F := F) main_v38 main_v50

def fn_part1 {F : FTy → Type} [FloatOps F] (main_arg1 : FVec F S8192x8192 .f32) (main_arg4 : FVec F S128x256 .f32) (main_arg5 : FVec F S256 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg1 main_arg7 main_v33

def fn {F : FTy → Type} [FloatOps F] (main_arg0 : FVec F S8192x128 .f32) (main_arg1 : FVec F S8192x8192 .f32) (main_arg2 : FVec F S128 .f32) (main_arg3 : FVec F S128 .f32) (main_arg4 : FVec F S128x256 .f32) (main_arg5 : FVec F S256 .f32) (main_arg6 : FVec F S128x64 .f32) (main_arg7 : FVec F S64 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg4 main_arg5 main_arg6 main_arg7 main_v13 main_v16
-- ==== Kernel.lean ====
abbrev S8192x128 : Shape := ⟨2, ![8192, 128]⟩
abbrev S8192x8192 : Shape := ⟨2, ![8192, 8192]⟩
abbrev S128 : Shape := ⟨1, ![128]⟩
abbrev S128x256 : Shape := ⟨2, ![128, 256]⟩
abbrev S256 : Shape := ⟨1, ![256]⟩
abbrev S128x64 : Shape := ⟨2, ![128, 64]⟩
abbrev S64 : Shape := ⟨1, ![64]⟩
abbrev S_ : Shape := ⟨0, ![]⟩
abbrev S1x128 : Shape := ⟨2, ![1, 128]⟩
abbrev S8192x256 : Shape := ⟨2, ![8192, 256]⟩
abbrev S1x256 : Shape := ⟨2, ![1, 256]⟩
abbrev S8192x64 : Shape := ⟨2, ![8192, 64]⟩
abbrev S1x64 : Shape := ⟨2, ![1, 64]⟩
abbrev S8192x1 : Shape := ⟨2, ![8192, 1]⟩
abbrev S1024x256 : Shape := ⟨2, ![1024, 256]⟩
abbrev S1024x1024 : Shape := ⟨2, ![1024, 1024]⟩
abbrev S1024x1 : Shape := ⟨2, ![1024, 1]⟩
abbrev S256x1024 : Shape := ⟨2, ![256, 1024]⟩
abbrev S1024 : Shape := ⟨1, ![1024]⟩
abbrev S2048x1024 : Shape := ⟨2, ![2048, 1024]⟩
abbrev S2048x1 : Shape := ⟨2, ![2048, 1]⟩
abbrev S1024x64 : Shape := ⟨2, ![1024, 64]⟩
abbrev S2048x64 : Shape := ⟨2, ![2048, 64]⟩

abbrev nBuf : Space → Nat
  | .hbm => 53
  | .vmem => 20
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S128x64, .f32⟩
  | .hbm, ⟨7, _⟩ => ⟨S64, .f32⟩
  | .hbm, ⟨8, _⟩ => ⟨S_, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S1x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S_, .f32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S1x128, .f32⟩
  | .hbm, ⟨23, _⟩ => ⟨S8192x128, .f32⟩
  | .hbm, ⟨24, _⟩ => ⟨S8192x128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S1x128, .f32⟩
  | .hbm, ⟨30, _⟩ => ⟨S8192x128, .f32⟩
  | .hbm, ⟨31, _⟩ => ⟨S8192x128, .f32⟩
  | .hbm, ⟨32, _⟩ => ⟨S1x128, .f32⟩
  | .hbm, ⟨33, _⟩ => ⟨S8192x128, .f32⟩
  | .hbm, ⟨34, _⟩ => ⟨S8192x128, .f32⟩
  | .hbm, ⟨35, _⟩ => ⟨S1x128, .f32⟩
  | .hbm, ⟨36, _⟩ => ⟨S8192x128, .f32⟩
  | .hbm, ⟨37, _⟩ => ⟨S8192x128, .f32⟩
  | .hbm, ⟨38, _⟩ => ⟨S8192x256, .f32⟩
  | .hbm, ⟨39, _⟩ => ⟨S1x256, .f32⟩
  | .hbm, ⟨40, _⟩ => ⟨S8192x256, .f32⟩
  | .hbm, ⟨41, _⟩ => ⟨S8192x256, .f32⟩
  | .hbm, ⟨42, _⟩ => ⟨S8192x64, .f32⟩
  | .hbm, ⟨43, _⟩ => ⟨S1x64, .f32⟩
  | .hbm, ⟨44, _⟩ => ⟨S8192x64, .f32⟩
  | .hbm, ⟨45, _⟩ => ⟨S8192x64, .f32⟩
  | .hbm, ⟨46, _⟩ => ⟨S8192x256, .bf16⟩
  | .hbm, ⟨47, _⟩ => ⟨S8192x8192, .f32⟩
  | .hbm, ⟨48, _⟩ => ⟨S8192x1, .f32⟩
  | .hbm, ⟨49, _⟩ => ⟨S8192x64, .f32⟩
  | .hbm, ⟨50, _⟩ => ⟨S8192x64, .f32⟩
  | .hbm, ⟨51, _⟩ => ⟨S8192x64, .bf16⟩
  | .hbm, ⟨52, _⟩ => ⟨S8192x64, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S2048x1024, .f32⟩
  | .local _ .vmem, ⟨12, _⟩ => ⟨S2048x1024, .f32⟩
  | .local _ .vmem, ⟨13, _⟩ => ⟨S2048x1, .f32⟩
  | .local _ .vmem, ⟨14, _⟩ => ⟨S2048x1, .f32⟩
  | .local _ .vmem, ⟨15, _⟩ => ⟨S1024x64, .bf16⟩
  | .local _ .vmem, ⟨16, _⟩ => ⟨S1024x64, .bf16⟩
  | .local _ .vmem, ⟨17, _⟩ => ⟨S2048x64, .f32⟩
  | .local _ .vmem, ⟨18, _⟩ => ⟨S2048x64, .f32⟩
  | .local _ .vmem, ⟨19, _⟩ => ⟨S2048x64, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34_0 : Ref sig .tc := ⟨.hbm, 47, rfl⟩
abbrev main_v34_1 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v37 : BitVec 1 := Scalar.cmpi .eq arg1 c7_i32
  let v38 : BitVec 32 := Scalar.extui v37
  let c0_i32_16 : BitVec 32 := 0#32
  let v39 : BitVec 1 := Scalar.cmpi .ne v38 c0_i32_16
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  reducesTo_S8192x128_S128_d0 : S8192x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  inb_S1024x1024_S1024x1024_0_0 : ∀ a, (![0, 0] : Fin 2 → Nat) a + S1024x1024.size a ≤ S1024x1024.size a
  h_S1024x1024 : 0 < S1024x1024.numel
  iota_S1024x1024_d0_w32 : S1024x1024.Iotas .tc 32 [0]
  iota_S1024x1024_d1_w32 : S1024x1024.Iotas .tc 32 [1]
  natLt_1_32 : 1 < 32
  reduces_S1024x1024_S1024 : S1024x1024.Reduces [1] S1024
  shapeCasts_S1024_S1024x1 : S1024.ShapeCasts S1024x1
  bcast_S8192x1_S8192x64_0_1 : S8192x1.BroadcastsInDim S8192x64 (![0, 1] : Fin 2 → Fin S8192x64.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x64 : S2048x1.Broadcasts S2048x64
  dot_S8192x128_S128x256_S8192x256_1_0_0_1_n_n_wf : DotDims.WF S8192x128 S128x256 S8192x256 [1] [0] [0] [1] [] []
  dot_S8192x128_S128x64_S8192x64_1_0_0_1_n_n_wf : DotDims.WF S8192x128 S128x64 S8192x64 [1] [0] [0] [1] [] []
  dot_S1024x256_S256x1024_S1024x1024_1_0_0_1_n_n_wf : DotDims.WF S1024x256 S256x1024 S1024x1024 [1] [0] [0] [1] [] []
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .f32 = 32 ∨ (Rect.block (s := S8192x8192) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .f32 = 32 ∨ (Rect.block (s := S8192x8192) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S8192x1.size a
  hwx1_1 : ∀ i : grid1.Coords, EltTy.bits .f32 = 32 ∨ (Rect.block (s := S8192x1) S2048x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S8192x64.size a
  hwx1_2 : ∀ i : grid1.Coords, EltTy.bits .bf16 = 32 ∨ (Rect.block (s := S8192x64) S1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S8192x64.size a
  hwx1_3 : ∀ i : grid1.Coords, EltTy.bits .f32 = 32 ∨ (Rect.block (s := S8192x64) S2048x64.size (cc1_transform_3 i) (hinb1_3 i)).WholeWords (EltTy.packing .f32)

variable [Facts₀]

def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_v33) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v34_1) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v34_0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34_1) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128 : Shape := ⟨1, ![128]⟩
abbrev S128x256 : Shape := ⟨2, ![128, 256]⟩
abbrev S256 : Shape := ⟨1, ![256]⟩
abbrev S128x64 : Shape := ⟨2, ![128, 64]⟩
abbrev S64 : Shape := ⟨1, ![64]⟩
abbrev S_ : Shape := ⟨0, ![]⟩
abbrev S1x128 : Shape := ⟨2, ![1, 128]⟩
abbrev S8192x256 : Shape := ⟨2, ![8192, 256]⟩
abbrev S1x256 : Shape := ⟨2, ![1, 256]⟩
abbrev S256x8192 : Shape := ⟨2, ![256, 8192]⟩
abbrev S8192 : Shape := ⟨1, ![8192]⟩
abbrev S8192x1 : Shape := ⟨2, ![8192, 1]⟩
abbrev S1x8192 : Shape := ⟨2, ![1, 8192]⟩
abbrev S8192x64 : Shape := ⟨2, ![8192, 64]⟩
abbrev S1x64 : Shape := ⟨2, ![1, 64]⟩

abbrev nBuf : Space → Nat
  | .hbm => 91
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S128x64, .f32⟩
  | .hbm, ⟨7, _⟩ => ⟨S64, .f32⟩
  | .hbm, ⟨8, _⟩ => ⟨S_, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S1x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S_, .f32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S1x128, .f32⟩
  | .hbm, ⟨23, _⟩ => ⟨S8192x128, .f32⟩
  | .hbm, ⟨24, _⟩ => ⟨S8192x128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S1x128, .f32⟩
  | .hbm, ⟨30, _⟩ => ⟨S8192x128, .f32⟩
  | .hbm, ⟨31, _⟩ => ⟨S8192x128, .f32⟩
  | .hbm, ⟨32, _⟩ => ⟨S1x128, .f32⟩
  | .hbm, ⟨33, _⟩ => ⟨S8192x128, .f32⟩
  | .hbm, ⟨34, _⟩ => ⟨S8192x128, .f32⟩
  | .hbm, ⟨35, _⟩ => ⟨S1x128, .f32⟩
  | .hbm, ⟨36, _⟩ => ⟨S8192x128, .f32⟩
  | .hbm, ⟨37, _⟩ => ⟨S8192x128, .f32⟩
  | .hbm, ⟨38, _⟩ => ⟨S8192x256, .f32⟩
  | .hbm, ⟨39, _⟩ => ⟨S1x256, .f32⟩
  | .hbm, ⟨40, _⟩ => ⟨S8192x256, .f32⟩
  | .hbm, ⟨41, _⟩ => ⟨S8192x256, .f32⟩
  | .hbm, ⟨42, _⟩ => ⟨S256x8192, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192x8192, .f32⟩
  | .hbm, ⟨54, _⟩ => ⟨S8192x8192, .f32⟩
  | .hbm, ⟨55, _⟩ => ⟨S8192x8192, .f32⟩
  | .hbm, ⟨56, _⟩ => ⟨S_, .f32⟩
  | .hbm, ⟨57, _⟩ => ⟨S8192x8192, .f32⟩
  | .hbm, ⟨58, _⟩ => ⟨S8192x8192, .f32⟩
  | .hbm, ⟨59, _⟩ => ⟨S8192x8192, .f32⟩
  | .hbm, ⟨60, _⟩ => ⟨S8192x8192, .i32⟩
  | .hbm, ⟨61, _⟩ => ⟨S8192x8192, .i32⟩
  | .hbm, ⟨62, _⟩ => ⟨S_, .i32⟩
  | .hbm, ⟨63, _⟩ => ⟨S8192x8192, .i32⟩
  | .hbm, ⟨64, _⟩ => ⟨S8192x8192, .i32⟩
  | .hbm, ⟨65, _⟩ => ⟨S8192x8192, .i1⟩
  | .hbm, ⟨66, _⟩ => ⟨S8192x8192, .f32⟩
  | .hbm, ⟨67, _⟩ => ⟨S8192x8192, .f32⟩
  | .hbm, ⟨68, _⟩ => ⟨S_, .f32⟩
  | .hbm, ⟨69, _⟩ => ⟨S8192, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S8192x1, .f32⟩
  | .hbm, ⟨74, _⟩ => ⟨S8192x8192, .f32⟩
  | .hbm, ⟨75, _⟩ => ⟨S8192x8192, .f32⟩
  | .hbm, ⟨76, _⟩ => ⟨S1x8192, .f32⟩
  | .hbm, ⟨77, _⟩ => ⟨S8192x8192, .f32⟩
  | .hbm, ⟨78, _⟩ => ⟨S8192x8192, .f32⟩
  | .hbm, ⟨79, _⟩ => ⟨S8192x64, .f32⟩
  | .hbm, ⟨80, _⟩ => ⟨S1x64, .f32⟩
  | .hbm, ⟨81, _⟩ => ⟨S8192x64, .f32⟩
  | .hbm, ⟨82, _⟩ => ⟨S8192x64, .f32⟩
  | .hbm, ⟨83, _⟩ => ⟨S8192x64, .f32⟩
  | .hbm, ⟨84, _⟩ => ⟨S_, .f32⟩
  | .hbm, ⟨85, _⟩ => ⟨S8192x64, .f32⟩
  | .hbm, ⟨86, _⟩ => ⟨S8192x64, .i1⟩
  | .hbm, ⟨87, _⟩ => ⟨S_, .f32⟩
  | .hbm, ⟨88, _⟩ => ⟨S8192x64, .f32⟩
  | .hbm, ⟨89, _⟩ => ⟨S8192x64, .f32⟩
  | .hbm, ⟨90, _⟩ => ⟨S8192x64, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_10 : Ref sig .tc := ⟨.hbm, 84, rfl⟩
abbrev main_v64 : Ref sig .tc := ⟨.hbm, 85, rfl⟩
abbrev main_v65 : Ref sig .tc := ⟨.hbm, 86, rfl⟩
abbrev main_cst_11 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩

abbrev nD : Nat := 1
abbrev τ : Topo := Topo.v7x

variable {F : FTy → Type} [FloatOps F]

class Facts₀ : Prop where
  reducesTo_S8192x128_S128_d0 : S8192x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  dot_S8192x128_S128x256_S8192x256_1_0_0_1_n_n_wf : DotDims.WF S8192x128 S128x256 S8192x256 [1] [0] [0] [1] [] []
  dot_S8192x256_S256x8192_S8192x8192_1_0_0_1_n_n_wf : DotDims.WF S8192x256 S256x8192 S8192x8192 [1] [0] [0] [1] [] []
  dot_S8192x128_S128x64_S8192x64_1_0_0_1_n_n_wf : DotDims.WF S8192x128 S128x64 S8192x64 [1] [0] [0] [1] [] []
  dot_S8192x8192_S8192x64_S8192x64_1_0_0_1_n_n_wf : DotDims.WF S8192x8192 S8192x64 S8192x64 [1] [0] [0] [1] [] []

variable [Facts₀]

def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.Runs1.lean ====
/-
  The second kernel's body at one grid point (i, j), j the column-block counter: it clears its accumulator when
  j = 0, adds the product of the adjacency block with the scaled-feature block to it, and when j = 7 scales the
  accumulated rows by the degree factors, applies the leaky rectifier and stores the output block. Here: the two
  conditions decided over the grid, where the output window is idle, and the body run in each of the three cases
  the grid meets, each stated with the buffers' contents before and after as plain values.
-/
import proofs.«175017_j25469156065919_2_alg».proof.Proof.Gen.KernelIdeal.Launch
import proofs.«175017_j25469156065919_2_alg».proof.Proof.Gen.KernelIdeal.Skeleton
import proofs.«175017_j25469156065919_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block rectangle of rank 2, however spelt. -/
theorem hz2 : (![0, 0] : Fin 2 → Nat) = fun _ => 0 := by
  funext a; fin_cases a <;> rfl

/-! ## The conditions, over the grid -/

/-- "j = 0": the accumulator is cleared. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "j = 7": the output block is finished and stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output window is idle, and not written back, exactly where j ≠ 7. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The body, case by case -/

section Runs
variable (c : Dev nD) (i : grid1.Coords)
  (M0 : Memref sig .tc .vmem S2048x1024 .f32) (h0 : M0.IsWhole) (M1 : Memref sig .tc .vmem S2048x1 .f32) (h1 : M1.IsWhole)
  (M2 : Memref sig .tc .vmem S1024x64 .bf16) (h2 : M2.IsWhole) (M3 : Memref sig .tc .vmem S2048x64 .f32) (h3 : M3.IsWhole)
  (M4 : Memref sig .tc .vmem S2048x64 .f32) (h4 : M4.IsWhole)
  (x0 : Vec F S2048x1024 .f32) (x1 : Vec F S2048x1 .f32) (x2 : Vec F S1024x64 .bf16)

set_option maxHeartbeats 4000000 in
/-- j = 0: the accumulator, whatever it held, ends at the first block's product added to zero. -/
theorem run1_first (hc0 : cond1_0 i) (hc1 : ¬cond1_1 i) (y3 : Vec F S2048x64 .f32) (E : Set ℕ) (K : PUnit → sProp 𝕄) :
    iprop(owns (c : Thread nD τ) M0 fullShare x0 ∗ owns (c : Thread nD τ) M1 fullShare x1 ∗ owns (c : Thread nD τ) M2 fullShare x2
        ∗ owns (c : Thread nD τ) M3 fullShare y3 ∗ (∃ d, owns (c : Thread nD τ) M4 fullShare d)
        ∗ (iprop(owns (c : Thread nD τ) M0 fullShare x0 ∗ owns (c : Thread nD τ) M1 fullShare x1 ∗ owns (c : Thread nD τ) M2 fullShare x2
            ∗ owns (c : Thread nD τ) M3 fullShare y3 ∗ owns (c : Thread nD τ) M4 fullShare (k1_pay2 x0 x2 (k1_pay1 (F := F)))) -∗ K ⟨⟩))
      ⊢ wp frame (wpE (defs₀ (F := F)) Variants.none c none) E (cc1__out_kernel i M0 h0 M1 h1 M2 h2 M3 h3 M4 h4) K := by
  simp only [cc1__out_kernel_eq_skeleton]; unfold cc1__out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := h0.eq_unread hf0; obtain rfl := h2.eq_unread hf2
  sl_exec (disch := first | exact hc0 | exact hc1)
  sl_step
  iapply Hk
  isplitl [H0]
  · iexists _; isplitr; · ipureintro; exact h0.read_unread _
    iexact H0
  isplitl [H1]
  · iexists _; isplitr; · ipureintro; exact hf1
    iexact H1
  isplitl [H2]
  · iexists _; isplitr; · ipureintro; exact h2.read_unread _
    iexact H2
  isplitl [H3]
  · iexists _; isplitr; · ipureintro; exact hf3
    iexact H3
  iexists _; isplitr; swap; · iexact H4
  ipureintro
  sl_unfold_words
  rw [View.read_writes_eq_canon _ _ _ (fun y => ⟨_, List.mem_cons_self, View.mem_set_unit_zero hz2 inb_S2048x64_S2048x64_0_0 y⟩)]
  rw [View.canon_cons_unit_zero hz2]
  simp only [View.readAt_eq_ld, h0.read_unread, h2.read_unread, h4.read_unread, View.ld_unit_zero (S := S2048x1024) hz2, View.ld_unit_zero (S := S1024x64) hz2, View.ld_unit_zero (S := S2048x64) hz2]
  try (congr 1; exact View.readCov_unit_zero (S := S2048x64) M4.view hz2 _ _)

set_option maxHeartbeats 4000000 in
/-- 0 < j < 7: the accumulator gains this block's product. -/
theorem run1_mid (hc0 : ¬cond1_0 i) (hc1 : ¬cond1_1 i) (y3 : Vec F S2048x64 .f32) (xs : Vec F S2048x64 .f32) (E : Set ℕ) (K : PUnit → sProp 𝕄) :
    iprop(owns (c : Thread nD τ) M0 fullShare x0 ∗ owns (c : Thread nD τ) M1 fullShare x1 ∗ owns (c : Thread nD τ) M2 fullShare x2
        ∗ owns (c : Thread nD τ) M3 fullShare y3 ∗ owns (c : Thread nD τ) M4 fullShare xs
        ∗ (iprop(owns (c : Thread nD τ) M0 fullShare x0 ∗ owns (c : Thread nD τ) M1 fullShare x1 ∗ owns (c : Thread nD τ) M2 fullShare x2
            ∗ owns (c : Thread nD τ) M3 fullShare y3 ∗ owns (c : Thread nD τ) M4 fullShare (k1_pay2 x0 x2 xs)) -∗ K ⟨⟩))
      ⊢ wp frame (wpE (defs₀ (F := F)) Variants.none c none) E (cc1__out_kernel i M0 h0 M1 h1 M2 h2 M3 h3 M4 h4) K := by
  simp only [cc1__out_kernel_eq_skeleton]; unfold cc1__out_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h0.eq_unread hf0; obtain rfl := h2.eq_unread hf2; obtain rfl := h4.eq_unread hf4
  sl_exec (disch := first | exact hc0 | exact hc1)
  sl_step
  iapply Hk
  isplitl [H0]
  · iexists _; isplitr; · ipureintro; exact h0.read_unread _
    iexact H0
  isplitl [H1]
  · iexists _; isplitr; · ipureintro; exact hf1
    iexact H1
  isplitl [H2]
  · iexists _; isplitr; · ipureintro; exact h2.read_unread _
    iexact H2
  isplitl [H3]
  · iexists _; isplitr; · ipureintro; exact hf3
    iexact H3
  iexists _; isplitr; swap; · iexact H4
  ipureintro
  sl_unfold_words
  rw [View.read_writes_eq_canon _ _ _ (fun y => ⟨_, List.mem_cons_self, View.mem_set_unit_zero hz2 inb_S2048x64_S2048x64_0_0 y⟩)]
  rw [View.canon_cons_unit_zero hz2]
  simp only [View.readAt_eq_ld, h0.read_unread, h2.read_unread, h4.read_unread, View.ld_unit_zero (S := S2048x1024) hz2, View.ld_unit_zero (S := S1024x64) hz2, View.ld_unit_zero (S := S2048x64) hz2]
  try (congr 1; exact View.readCov_unit_zero (S := S2048x64) M4.view hz2 _ _)

set_option maxHeartbeats 4000000 in
/-- j = 7: the accumulator gains the last block's product, and the output block is the accumulated rows scaled by
    the degree factors and passed through the leaky rectifier. -/
theorem run1_last (hc0 : ¬cond1_0 i) (hc1 : cond1_1 i) (xs : Vec F S2048x64 .f32) (E : Set ℕ) (K : PUnit → sProp 𝕄) :
    iprop(owns (c : Thread nD τ) M0 fullShare x0 ∗ owns (c : Thread nD τ) M1 fullShare x1 ∗ owns (c : Thread nD τ) M2 fullShare x2
        ∗ (∃ d, owns (c : Thread nD τ) M3 fullShare d) ∗ owns (c : Thread nD τ) M4 fullShare xs
        ∗ (iprop(owns (c : Thread nD τ) M0 fullShare x0 ∗ owns (c : Thread nD τ) M1 fullShare x1 ∗ owns (c : Thread nD τ) M2 fullShare x2
            ∗ owns (c : Thread nD τ) M3 fullShare (k1_pay3 x1 (k1_pay2 x0 x2 xs)) ∗ owns (c : Thread nD τ) M4 fullShare (k1_pay2 x0 x2 xs)) -∗ K ⟨⟩))
      ⊢ wp frame (wpE (defs₀ (F := F)) Variants.none c none) E (cc1__out_kernel i M0 h0 M1 h1 M2 h2 M3 h3 M4 h4) K := by
  simp only [cc1__out_kernel_eq_skeleton]; unfold cc1__out_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := h0.eq_unread hf0; obtain rfl := h1.eq_unread hf1; obtain rfl := h2.eq_unread hf2; obtain rfl := h4.eq_unread hf4
  sl_exec (disch := first | exact hc0 | exact hc1)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; swap; · iexact H3
    ipureintro
    sl_unfold_words
    rw [View.read_writes_eq_canon _ _ _ (fun y => ⟨_, List.mem_cons_self, View.mem_set_unit_zero hz2 inb_S2048x64_S2048x64_0_0 y⟩)]
    rw [View.canon_cons_unit_zero hz2]
    simp only [View.readAt_eq_ld, h0.read_unread, h1.read_unread, h2.read_unread, h4.read_unread, View.ld_unit_zero (S := S2048x1024) hz2, View.ld_unit_zero (S := S1024x64) hz2, View.ld_unit_zero (S := S2048x64) hz2, View.ld_unit_zero (S := S2048x1) hz2]
    try (congr 1; exact View.readCov_unit_zero (S := S2048x64) M4.view hz2 _ _)
  try rw [View.readCov_unit_zero (S := S2048x64) M4.view hz2]
  iexists _; isplitr; swap; · iexact H4
  ipureintro
  sl_unfold_words
  rw [View.read_writes_eq_canon _ _ _ (fun y => ⟨_, List.mem_cons_self, View.mem_set_unit_zero hz2 inb_S2048x64_S2048x64_0_0 y⟩)]
  rw [View.canon_cons_unit_zero hz2]
  simp only [View.readAt_eq_ld, h0.read_unread, h2.read_unread, h4.read_unread, View.ld_unit_zero (S := S2048x1024) hz2, View.ld_unit_zero (S := S1024x64) hz2, View.ld_unit_zero (S := S2048x64) hz2]
  try (congr 1; exact View.readCov_unit_zero (S := S2048x64) M4.view hz2 _ _)

end Runs

end Cert.KernelIdeal.Hand

end
-- ==== Proof.Runs0.lean ====
/-
  The first kernel's body at one grid point (i, j), j the column-block counter: it clears its row-sum accumulator
  when j = 0, forms the adjacency block from the two feature blocks and the block of A and stores it, adds the
  block's row sums to the accumulator, and when j = 7 stores the reciprocal square roots of the accumulated row
  sums as the degree factors. Here: the two conditions decided over the grid, where the degree-factor window is
  idle, and the body run in each of the three cases the grid meets, each stated with the buffers' contents before
  and after as plain values.
-/
import proofs.«175017_j25469156065919_2_alg».proof.Proof.Runs1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions, over the grid -/

/-- "j = 0": the accumulator is cleared. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "j = 7": the degree factors are finished and stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- The degree-factor window is idle, and not written back, exactly where j ≠ 7. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The body, case by case -/

section Runs
variable (c : Dev nD) (i : grid0.Coords)
  (M0 : Memref sig .tc .vmem S1024x256 .bf16) (h0 : M0.IsWhole) (M1 : Memref sig .tc .vmem S1024x256 .bf16) (h1 : M1.IsWhole)
  (M2 : Memref sig .tc .vmem S1024x1024 .f32) (h2 : M2.IsWhole) (M3 : Memref sig .tc .vmem S1024x1024 .f32) (h3 : M3.IsWhole)
  (M4 : Memref sig .tc .vmem S1024x1 .f32) (h4 : M4.IsWhole) (M5 : Memref sig .tc .vmem S1024x1 .f32) (h5 : M5.IsWhole)
  (x0 : Vec F S1024x256 .bf16) (x1 : Vec F S1024x256 .bf16) (x2 : Vec F S1024x1024 .f32)

set_option maxHeartbeats 4000000 in
/-- j = 0: the accumulator, whatever it held, ends at the first block's row sums added to zero; the adjacency block
    is stored; the degree factors are left as they were. -/
theorem run0_first (hc0 : cond0_0 i) (hc1 : ¬cond0_1 i) (y4 : Vec F S1024x1 .f32) (E : Set ℕ) (K : PUnit → sProp 𝕄) :
    iprop(owns (c : Thread nD τ) M0 fullShare x0 ∗ owns (c : Thread nD τ) M1 fullShare x1 ∗ owns (c : Thread nD τ) M2 fullShare x2
        ∗ (∃ d, owns (c : Thread nD τ) M3 fullShare d) ∗ owns (c : Thread nD τ) M4 fullShare y4 ∗ (∃ d, owns (c : Thread nD τ) M5 fullShare d)
        ∗ (iprop(owns (c : Thread nD τ) M0 fullShare x0 ∗ owns (c : Thread nD τ) M1 fullShare x1 ∗ owns (c : Thread nD τ) M2 fullShare x2
            ∗ owns (c : Thread nD τ) M3 fullShare (k0_pay4 i x0 x1 x2) ∗ owns (c : Thread nD τ) M4 fullShare y4 ∗ owns (c : Thread nD τ) M5 fullShare (k0_pay1 (k0_pay5 i x0 x1 x2 (k0_pay3 (F := F))))) -∗ K ⟨⟩))
      ⊢ wp frame (wpE (defs₀ (F := F)) Variants.none c none) E (cc0__a1_kernel i M0 h0 M1 h1 M2 h2 M3 h3 M4 h4 M5 h5) K := by
  simp only [cc0__a1_kernel_eq_skeleton]; unfold cc0__a1_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%f4, %hf4, H4⟩, ⟨%d5, %f5, -, H5⟩, Hk⟩
  obtain rfl := h0.eq_unread hf0; obtain rfl := h1.eq_unread hf1; obtain rfl := h2.eq_unread hf2
  sl_exec (disch := first | exact hc0 | exact hc1)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; swap; · iexact H3
    ipureintro
    sl_unfold_words
    rw [View.read_writes_eq_canon _ _ _ (fun y => ⟨_, List.mem_cons_self, View.mem_set_unit_zero hz2 inb_S1024x1024_S1024x1024_0_0 y⟩)]
    sl_unfold_words
    rw [View.canon_cons_unit_zero hz2]
    simp only [View.readAt_eq_ld, h0.read_unread, h1.read_unread, h2.read_unread, h5.read_unread, View.ld_unit_zero (S := S1024x256) hz2, View.ld_unit_zero (S := S1024x1024) hz2, View.ld_unit_zero (S := S1024x1) hz2, View.readCov_unit_zero (S := S1024x1) _ hz2]
  isplitl [H4]
  · iexists _; isplitr; · ipureintro; exact hf4
    iexact H4
  iexists _; isplitr; swap; · iexact H5
  ipureintro
  sl_unfold_words
  rw [View.read_writes_eq_canon _ _ _ (fun y => ⟨_, List.mem_cons_self, View.mem_set_unit_zero hz2 inb_S1024x1_S1024x1_0_0 y⟩)]
  sl_unfold_words
  rw [View.canon_cons_unit_zero hz2]
  simp only [View.readAt_eq_ld, h0.read_unread, h1.read_unread, h2.read_unread, h5.read_unread, View.ld_unit_zero (S := S1024x256) hz2, View.ld_unit_zero (S := S1024x1024) hz2, View.ld_unit_zero (S := S1024x1) hz2, View.readCov_unit_zero (S := S1024x1) _ hz2]

set_option maxHeartbeats 4000000 in
/-- 0 < j < 7: the adjacency block is stored and the accumulator gains its row sums. -/
theorem run0_mid (hc0 : ¬cond0_0 i) (hc1 : ¬cond0_1 i) (y4 : Vec F S1024x1 .f32) (xs : Vec F S1024x1 .f32) (E : Set ℕ) (K : PUnit → sProp 𝕄) :
    iprop(owns (c : Thread nD τ) M0 fullShare x0 ∗ owns (c : Thread nD τ) M1 fullShare x1 ∗ owns (c : Thread nD τ) M2 fullShare x2
        ∗ (∃ d, owns (c : Thread nD τ) M3 fullShare d) ∗ owns (c : Thread nD τ) M4 fullShare y4 ∗ owns (c : Thread nD τ) M5 fullShare xs
        ∗ (iprop(owns (c : Thread nD τ) M0 fullShare x0 ∗ owns (c : Thread nD τ) M1 fullShare x1 ∗ owns (c : Thread nD τ) M2 fullShare x2
            ∗ owns (c : Thread nD τ) M3 fullShare (k0_pay4 i x0 x1 x2) ∗ owns (c : Thread nD τ) M4 fullShare y4 ∗ owns (c : Thread nD τ) M5 fullShare (k0_pay1 (k0_pay5 i x0 x1 x2 xs))) -∗ K ⟨⟩))
      ⊢ wp frame (wpE (defs₀ (F := F)) Variants.none c none) E (cc0__a1_kernel i M0 h0 M1 h1 M2 h2 M3 h3 M4 h4 M5 h5) K := by
  simp only [cc0__a1_kernel_eq_skeleton]; unfold cc0__a1_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := h0.eq_unread hf0; obtain rfl := h1.eq_unread hf1; obtain rfl := h2.eq_unread hf2; obtain rfl := h5.eq_unread hf5
  sl_exec (disch := first | exact hc0 | exact hc1)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; swap; · iexact H3
    ipureintro
    sl_unfold_words
    rw [View.read_writes_eq_canon _ _ _ (fun y => ⟨_, List.mem_cons_self, View.mem_set_unit_zero hz2 inb_S1024x1024_S1024x1024_0_0 y⟩)]
    sl_unfold_words
    rw [View.canon_cons_unit_zero hz2]
    simp only [View.readAt_eq_ld, h0.read_unread, h1.read_unread, h2.read_unread, h5.read_unread, View.ld_unit_zero (S := S1024x256) hz2, View.ld_unit_zero (S := S1024x1024) hz2, View.ld_unit_zero (S := S1024x1) hz2, View.readCov_unit_zero (S := S1024x1) _ hz2]
  isplitl [H4]
  · iexists _; isplitr; · ipureintro; exact hf4
    iexact H4
  iexists _; isplitr; swap; · iexact H5
  ipureintro
  sl_unfold_words
  rw [View.read_writes_eq_canon _ _ _ (fun y => ⟨_, List.mem_cons_self, View.mem_set_unit_zero hz2 inb_S1024x1_S1024x1_0_0 y⟩)]
  sl_unfold_words
  rw [View.canon_cons_unit_zero hz2]
  simp only [View.readAt_eq_ld, h0.read_unread, h1.read_unread, h2.read_unread, h5.read_unread, View.ld_unit_zero (S := S1024x256) hz2, View.ld_unit_zero (S := S1024x1024) hz2, View.ld_unit_zero (S := S1024x1) hz2, View.readCov_unit_zero (S := S1024x1) _ hz2]

set_option maxHeartbeats 4000000 in
/-- j = 7: the adjacency block is stored, the accumulator gains the last block's row sums, and the degree factors
    are the reciprocal square roots of the accumulated row sums. -/
theorem run0_last (hc0 : ¬cond0_0 i) (hc1 : cond0_1 i) (xs : Vec F S1024x1 .f32) (E : Set ℕ) (K : PUnit → sProp 𝕄) :
    iprop(owns (c : Thread nD τ) M0 fullShare x0 ∗ owns (c : Thread nD τ) M1 fullShare x1 ∗ owns (c : Thread nD τ) M2 fullShare x2
        ∗ (∃ d, owns (c : Thread nD τ) M3 fullShare d) ∗ (∃ d, owns (c : Thread nD τ) M4 fullShare d) ∗ owns (c : Thread nD τ) M5 fullShare xs
        ∗ (iprop(owns (c : Thread nD τ) M0 fullShare x0 ∗ owns (c : Thread nD τ) M1 fullShare x1 ∗ owns (c : Thread nD τ) M2 fullShare x2
            ∗ owns (c : Thread nD τ) M3 fullShare (k0_pay4 i x0 x1 x2) ∗ owns (c : Thread nD τ) M4 fullShare (k0_pay2 (k0_pay1 (k0_pay5 i x0 x1 x2 xs))) ∗ owns (c : Thread nD τ) M5 fullShare (k0_pay1 (k0_pay5 i x0 x1 x2 xs))) -∗ K ⟨⟩))
      ⊢ wp frame (wpE (defs₀ (F := F)) Variants.none c none) E (cc0__a1_kernel i M0 h0 M1 h1 M2 h2 M3 h3 M4 h4 M5 h5) K := by
  simp only [cc0__a1_kernel_eq_skeleton]; unfold cc0__a1_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, Hk⟩
  obtain rfl := h0.eq_unread hf0; obtain rfl := h1.eq_unread hf1; obtain rfl := h2.eq_unread hf2; obtain rfl := h5.eq_unread hf5
  sl_exec (disch := first | exact hc0 | exact hc1)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; swap; · iexact H3
    ipureintro
    sl_unfold_words
    rw [View.read_writes_eq_canon _ _ _ (fun y => ⟨_, List.mem_cons_self, View.mem_set_unit_zero hz2 inb_S1024x1024_S1024x1024_0_0 y⟩)]
    sl_unfold_words
    rw [View.canon_cons_unit_zero hz2]
    simp only [View.readAt_eq_ld, h0.read_unread, h1.read_unread, h2.read_unread, h5.read_unread, View.ld_unit_zero (S := S1024x256) hz2, View.ld_unit_zero (S := S1024x1024) hz2, View.ld_unit_zero (S := S1024x1) hz2, View.readCov_unit_zero (S := S1024x1) _ hz2]
  isplitl [H4]
  · iexists _; isplitr; swap; · iexact H4
    ipureintro
    sl_unfold_words
    rw [View.read_writes_eq_canon _ _ _ (fun y => ⟨_, List.mem_cons_self, View.mem_set_unit_zero hz2 inb_S1024x1_S1024x1_0_0 y⟩)]
    sl_unfold_words
    rw [View.canon_cons_unit_zero hz2]
    simp only [View.readAt_eq_ld, h0.read_unread, h1.read_unread, h2.read_unread, h5.read_unread, View.ld_unit_zero (S := S1024x256) hz2, View.ld_unit_zero (S := S1024x1024) hz2, View.ld_unit_zero (S := S1024x1) hz2, View.readCov_unit_zero (S := S1024x1) _ hz2]
  iexists _; isplitr; swap; · iexact H5
  ipureintro
  sl_unfold_words
  rw [View.read_writes_eq_canon _ _ _ (fun y => ⟨_, List.mem_cons_self, View.mem_set_unit_zero hz2 inb_S1024x1_S1024x1_0_0 y⟩)]
  sl_unfold_words
  rw [View.canon_cons_unit_zero hz2]
  simp only [View.readAt_eq_ld, h0.read_unread, h1.read_unread, h2.read_unread, h5.read_unread, View.ld_unit_zero (S := S1024x256) hz2, View.ld_unit_zero (S := S1024x1024) hz2, View.ld_unit_zero (S := S1024x1) hz2, View.readCov_unit_zero (S := S1024x1) _ hz2]

end Runs

end Cert.KernelIdeal.Hand

end
-- ==== Proof.Data0.lean ====
/-
  The first kernel's region as a pipeline: what each window's staging buffer and the row-sum accumulator hold at
  every grid point, as values. Point t = 8·i + j handles row block i and column block j. The three input windows
  hold their blocks of the features (rows i), the features (rows j) and A; the adjacency window after point t holds
  the adjacency block formed from them; the accumulator after point t is the sum, over the column blocks 0..j of row
  block i, of the adjacency blocks' row sums, started from zero at j = 0; the degree-factor window at j = 7 holds the
  reciprocal square roots of the accumulated row sums. The body obligation at every point follows from the three
  case runs.
-/
import proofs.«175017_j25469156065919_2_alg».proof.Proof.Runs0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The row-sum accumulator: a whole scoped buffer of the kernel's own. -/
abbrev scM0 : Memref sig .tc .vmem S1024x1 .f32 := Memref.whole cc0_scratch0

/-- THE ACCUMULATION: what the accumulator holds after point n — this point's row sums added to zero where the
    column block is the first of its row (n ≡ 0 mod 8), to what the point before left otherwise. -/
def acc0 (c : Dev nD) : (n : ℕ) → n < cfg0.N → Vec F S1024x1 .f32
  | 0, hn => k0_pay1 (k0_pay5 (grid0.coords ⟨0, hn⟩) (iblk0 V c 0 ⟨0, hn⟩) (iblk0 V c 1 ⟨0, hn⟩) (iblk0 V c 2 ⟨0, hn⟩) (k0_pay3 (F := F)))
  | n + 1, hn =>
    if (n + 1) % 8 = 0 then k0_pay1 (k0_pay5 (grid0.coords ⟨n + 1, hn⟩) (iblk0 V c 0 ⟨n + 1, hn⟩) (iblk0 V c 1 ⟨n + 1, hn⟩) (iblk0 V c 2 ⟨n + 1, hn⟩) (k0_pay3 (F := F)))
    else k0_pay1 (k0_pay5 (grid0.coords ⟨n + 1, hn⟩) (iblk0 V c 0 ⟨n + 1, hn⟩) (iblk0 V c 1 ⟨n + 1, hn⟩) (iblk0 V c 2 ⟨n + 1, hn⟩) (acc0 c n (Nat.lt_of_succ_lt hn)))

theorem acc0_first (c : Dev nD) (t : Fin cfg0.N) (h0 : t.val % 8 = 0) :
    acc0 V c t.val t.isLt = k0_pay1 (k0_pay5 (grid0.coords t) (iblk0 V c 0 t) (iblk0 V c 1 t) (iblk0 V c 2 t) (k0_pay3 (F := F))) := by
  obtain ⟨n, hn⟩ := t
  cases n with
  | zero => rfl
  | succ n => exact if_pos h0

theorem acc0_next (c : Dev nD) (t : Fin cfg0.N) (h0 : ¬t.val % 8 = 0) :
    acc0 V c t.val t.isLt = k0_pay1 (k0_pay5 (grid0.coords t) (iblk0 V c 0 t) (iblk0 V c 1 t) (iblk0 V c 2 t) (acc0 V c (t.val - 1) (Nat.lt_of_le_of_lt (Nat.sub_le _ _) t.isLt))) := by
  obtain ⟨n, hn⟩ := t
  cases n with
  | zero => exact absurd (Nat.zero_mod _) h0
  | succ n => exact if_neg h0

/-- The scoped buffers other than the accumulator, each whole at some contents: what the body never touches. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f))

/-- The scoped rest of the region is the accumulator at some contents and those buffers. -/
theorem rest0_split (c : Dev nD) :
    (Pipeline.scopedRest (Ix := Unit) (Name := ℕ) (U := UR sig nD τ) (Lvl := ℕ) (Val := Elt F) spec0 c : sProp 𝕄)
      ⊢ iprop(others0 (F := F) c ∗ ∃ d, owns (c : Thread nD τ) scM0 fullShare d) := by
  rw [scopedRest0_eq]; unfold others0
  iintro ⟨⟨%f, HS⟩, G0, G1, G2, G3, G4, G5, G6, G7, G8⟩
  isplitl [G0 G1 G2 G3 G4 G5 G6 G7 G8]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    iexact G8
  iexists f; rw [owns_whole]; iexact HS

theorem rest0_join (c : Dev nD) :
    iprop(others0 (F := F) c ∗ ∃ d, owns (c : Thread nD τ) scM0 fullShare d)
      ⊢ (Pipeline.scopedRest (Ix := Unit) (Name := ℕ) (U := UR sig nD τ) (Lvl := ℕ) (Val := Elt F) spec0 c : sProp 𝕄) := by
  rw [scopedRest0_eq]; unfold others0
  simp only [scM0, owns_whole]
  iintro ⟨⟨G0, G1, G2, G3, G4, G5, G6, G7, G8⟩, ⟨%d, HS⟩⟩
  isplitl [HS]; · iexists d; iexact HS
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  iexact G8

/-- The region's invariant before position n: the untouched scoped buffers, and the accumulator at anything before
    the first point, at what the point before left afterwards. -/
def PhiS0 (c : Dev nD) : (n : ℕ) → n ≤ cfg0.N → sProp 𝕄
  | 0, _ => iprop(others0 (F := F) c ∗ ∃ d, owns (c : Thread nD τ) scM0 fullShare d)
  | n + 1, hn => iprop(others0 (F := F) c ∗ owns (c : Thread nD τ) scM0 fullShare (acc0 V c n hn))

theorem PhiS0_succ (c : Dev nD) (n : ℕ) (hn : n < cfg0.N) :
    PhiS0 V c (n + 1) hn = iprop(others0 (F := F) c ∗ owns (c : Thread nD τ) scM0 fullShare (acc0 V c n hn)) := rfl

theorem PhiS0_pos (c : Dev nD) (n : ℕ) (h : n ≤ cfg0.N) (hz : n ≠ 0) :
    PhiS0 V c n h = iprop(others0 (F := F) c ∗ owns (c : Thread nD τ) scM0 fullShare (acc0 V c (n - 1) (by omega))) := by
  cases n with
  | zero => exact absurd rfl hz
  | succ n => rfl

/-- At any position the accumulator is held at SOME contents. -/
theorem PhiS0_weak (c : Dev nD) (n : ℕ) (h : n ≤ cfg0.N) :
    PhiS0 V c n h ⊢ iprop(others0 (F := F) c ∗ ∃ d, owns (c : Thread nD τ) scM0 fullShare d) := by
  cases n with
  | zero => exact .rfl
  | succ n =>
    rw [PhiS0_succ]
    iintro ⟨Ho, HS⟩
    isplitl [Ho]; · iexact Ho
    iexists _; iexact HS

/-- The region's proof data on core c, from the entry contents V. The two feature windows read one array, each at
    half of the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay4 (grid0.coords t) (iblk0 V c 0 t) (iblk0 V c 1 t) (iblk0 V c 2 t)
    | ⟨4, _⟩ => k0_pay2 (acc0 V c t.val t.isLt)
  Φ t := PhiS0 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay4 (grid0.coords t) (iblk0 V c 0 t) (iblk0 V c 1 t) (iblk0 V c 2 t) := by dsimp only [dat0]
theorem after0_4 (c : Dev nD) (t : Fin cfg0.N) : (dat0 V c).after 4 t = k0_pay2 (acc0 V c t.val t.isLt) := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' buffers hold their blocks; the point's residue mod 8 says which case it is;
    the invariant hands over the accumulator (at anything where it is about to be cleared) and takes it back at this
    point's sum; the adjacency window is left at this point's block; the degree-factor window is handed back
    untouched unless this is the last column block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  have hN : t.val < 64 := lt_of_lt_of_eq t.isLt (show cfg0.N = 64 from N_0)
  rw [PhiS0_castSucc V c t]
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 t hc1) (noFlush0_4 t hc1)]
    rw [acc0_first V c t h0]
    iintro ⟨HΦ, Ho, ⟨%d0, H0⟩, ⟨%d1, H1⟩, ⟨%d2, H2⟩, ⟨%d3, H3⟩, ⟨%d4, H4⟩⟩
    ihave HΦ' := (PhiS0_weak V c _ _) $$ HΦ
    icases HΦ' with ⟨Hoth, HS⟩
    iapply (run0_first c (grid0.coords t) _ _ _ _ _ _ _ _ _ _ _ _ (iblk0 V c 0 t) (iblk0 V c 1 t) (iblk0 V c 2 t) hc0 hc1 _ Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [Hoth HS]
    · isplitl [Hoth]; · iexact Hoth
      iexact HS
    isplitl [Ho]; · iexact Ho
    isplitl [H0]; · iexact H0
    isplitl [H1]; · iexact H1
    isplitl [H2]; · iexact H2
    isplitl [H3]; · iexact H3
    iexists _; iexact H4
  · have hz : t.val ≠ 0 := fun e => h0 (by rw [e])
    have hc0 : ¬cond0_0 (grid0.coords t) := fun h => h0 ((hcond0_0 t).mp h)
    rw [PhiS0_pos V c _ _ hz, acc0_next V c t h0]
    by_cases h1 : t.val % 8 = 7
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4, acc0_next V c t h0]
      iintro ⟨⟨Hoth, HS⟩, Ho, ⟨%d0, H0⟩, ⟨%d1, H1⟩, ⟨%d2, H2⟩, ⟨%d3, H3⟩, ⟨%d4, H4⟩⟩
      iapply (run0_last c (grid0.coords t) _ _ _ _ _ _ _ _ _ _ _ _ (iblk0 V c 0 t) (iblk0 V c 1 t) (iblk0 V c 2 t) hc0 hc1 _ Set.univ _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, H3, H4, HS⟩
      isplitl [Hoth HS]
      · isplitl [Hoth]; · iexact Hoth
        iexact HS
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => h1 ((hcond0_1 t).mp h)
      rw [Dat.leavesExact_idle (dat0 V c) 4 t (idleAt0_4 t hc1) (noFlush0_4 t hc1)]
      iintro ⟨⟨Hoth, HS⟩, Ho, ⟨%d0, H0⟩, ⟨%d1, H1⟩, ⟨%d2, H2⟩, ⟨%d3, H3⟩, ⟨%d4, H4⟩⟩
      iapply (run0_mid c (grid0.coords t) _ _ _ _ _ _ _ _ _ _ _ _ (iblk0 V c 0 t) (iblk0 V c 1 t) (iblk0 V c 2 t) hc0 hc1 _ _ Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [Hoth HS]
      · isplitl [Hoth]; · iexact Hoth
        iexact HS
      isplitl [Ho]; · iexact Ho
      isplitl [H0]; · iexact H0
      isplitl [H1]; · iexact H1
      isplitl [H2]; · iexact H2
      isplitl [H3]; · iexact H3
      iexists _; iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) :
    (Pipeline.scopedRest (Ix := Unit) (Name := ℕ) (U := UR sig nD τ) (Lvl := ℕ) (Val := Elt F) spec0 c : sProp 𝕄) ⊢ (dat0 V c).Φ 0 :=
  rest0_split c

/-- and after the last point the invariant gives it back, the accumulator's contents forgotten. -/
theorem hout0 (c : Dev nD) :
    (dat0 V c).Φ (Fin.last cfg0.N) ⊢ (Pipeline.scopedRest (Ix := Unit) (Name := ℕ) (U := UR sig nD τ) (Lvl := ℕ) (Val := Elt F) spec0 c : sProp 𝕄) := by
  rw [show (dat0 V c).Φ (Fin.last cfg0.N) = PhiS0 V c (Fin.last cfg0.N).val (Nat.le_of_lt_succ (Fin.last cfg0.N).isLt) from rfl]
  exact (PhiS0_weak V c _ _).trans (rest0_join c)

end Cert.KernelIdeal.Hand

end
-- ==== Proof.Data1.lean ====
/-
  The second kernel's region as a pipeline: what each window's staging buffer and the accumulator hold at every
  grid point, as values. Point t = 8·i + j handles row block i and column block j. The three input windows hold
  their blocks of the adjacency, the degree factors and the scaled features; the accumulator after point t is the
  sum, over the column blocks 0..j of row block i, of the products adjacency-block × scaled-feature-block, started
  from zero at j = 0; the output window at j = 7 is the accumulated rows scaled by the degree factors and passed
  through the leaky rectifier. The body obligation at every point follows from the three case runs.
-/
import proofs.«175017_j25469156065919_2_alg».proof.Proof.Runs1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array at the region's entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S2048x64 .f32 := Memref.whole cc1_scratch0

/-- THE ACCUMULATION: what the accumulator holds after point n — this point's product added to zero where the
    column block is the first of its row (n ≡ 0 mod 8), to what the point before left otherwise. -/
def acc1 (c : Dev nD) : (n : ℕ) → n < cfg1.N → Vec F S2048x64 .f32
  | 0, hn => k1_pay2 (iblk1 V c 0 ⟨0, hn⟩) (iblk1 V c 2 ⟨0, hn⟩) (k1_pay1 (F := F))
  | n + 1, hn =>
    if (n + 1) % 8 = 0 then k1_pay2 (iblk1 V c 0 ⟨n + 1, hn⟩) (iblk1 V c 2 ⟨n + 1, hn⟩) (k1_pay1 (F := F))
    else k1_pay2 (iblk1 V c 0 ⟨n + 1, hn⟩) (iblk1 V c 2 ⟨n + 1, hn⟩) (acc1 c n (Nat.lt_of_succ_lt hn))

theorem acc1_first (c : Dev nD) (t : Fin cfg1.N) (h0 : t.val % 8 = 0) :
    acc1 V c t.val t.isLt = k1_pay2 (iblk1 V c 0 t) (iblk1 V c 2 t) (k1_pay1 (F := F)) := by
  obtain ⟨n, hn⟩ := t
  cases n with
  | zero => rfl
  | succ n => exact if_pos h0

theorem acc1_next (c : Dev nD) (t : Fin cfg1.N) (h0 : ¬t.val % 8 = 0) :
    acc1 V c t.val t.isLt = k1_pay2 (iblk1 V c 0 t) (iblk1 V c 2 t) (acc1 V c (t.val - 1) (Nat.lt_of_le_of_lt (Nat.sub_le _ _) t.isLt)) := by
  obtain ⟨n, hn⟩ := t
  cases n with
  | zero => exact absurd (Nat.zero_mod _) h0
  | succ n => exact if_neg h0

/-- The scoped buffers other than the accumulator, each whole at some contents: what the body never touches. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_scratch0), ((c : Thread nD τ).loc cc0_scratch0) ↦{fullShare} f))

/-- The scoped rest of the region is those buffers and the accumulator at some contents. -/
theorem rest1_split (c : Dev nD) :
    (Pipeline.scopedRest (Ix := Unit) (Name := ℕ) (U := UR sig nD τ) (Lvl := ℕ) (Val := Elt F) spec1 c : sProp 𝕄)
      ⊢ iprop(others1 (F := F) c ∗ ∃ d, owns (c : Thread nD τ) scM1 fullShare d) := by
  rw [scopedRest1_eq]; unfold others1
  iintro ⟨G0, G1, G2, G3, G4, G5, G6, G7, G8, G9, G10, ⟨%f, HS⟩⟩
  isplitl [G0 G1 G2 G3 G4 G5 G6 G7 G8 G9 G10]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    iexact G10
  iexists f; rw [owns_whole]; iexact HS

theorem rest1_join (c : Dev nD) :
    iprop(others1 (F := F) c ∗ ∃ d, owns (c : Thread nD τ) scM1 fullShare d)
      ⊢ (Pipeline.scopedRest (Ix := Unit) (Name := ℕ) (U := UR sig nD τ) (Lvl := ℕ) (Val := Elt F) spec1 c : sProp 𝕄) := by
  rw [scopedRest1_eq]; unfold others1; simp only [scM1, owns_whole]
  iintro ⟨⟨G0, G1, G2, G3, G4, G5, G6, G7, G8, G9, G10⟩, ⟨%d, HS⟩⟩
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  iexists d; iexact HS

/-- The region's invariant before position n: the untouched scoped buffers, and the accumulator at anything before
    the first point, at what the point before left afterwards. -/
def PhiS1 (c : Dev nD) : (n : ℕ) → n ≤ cfg1.N → sProp 𝕄
  | 0, _ => iprop(others1 (F := F) c ∗ ∃ d, owns (c : Thread nD τ) scM1 fullShare d)
  | n + 1, hn => iprop(others1 (F := F) c ∗ owns (c : Thread nD τ) scM1 fullShare (acc1 V c n hn))

theorem PhiS1_succ (c : Dev nD) (n : ℕ) (hn : n < cfg1.N) :
    PhiS1 V c (n + 1) hn = iprop(others1 (F := F) c ∗ owns (c : Thread nD τ) scM1 fullShare (acc1 V c n hn)) := rfl

theorem PhiS1_pos (c : Dev nD) (n : ℕ) (h : n ≤ cfg1.N) (hz : n ≠ 0) :
    PhiS1 V c n h = iprop(others1 (F := F) c ∗ owns (c : Thread nD τ) scM1 fullShare (acc1 V c (n - 1) (by omega))) := by
  cases n with
  | zero => exact absurd rfl hz
  | succ n => rfl

/-- At any position the accumulator is held at SOME contents. -/
theorem PhiS1_weak (c : Dev nD) (n : ℕ) (h : n ≤ cfg1.N) :
    PhiS1 V c n h ⊢ iprop(others1 (F := F) c ∗ ∃ d, owns (c : Thread nD τ) scM1 fullShare d) := by
  cases n with
  | zero => exact .rfl
  | succ n =>
    rw [PhiS1_succ]
    iintro ⟨Ho, HS⟩
    isplitl [Ho]; · iexact Ho
    iexists _; iexact HS

/-- The region's proof data on core c, from the entry contents V. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (iblk1 V c 1 t) (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (iblk1 V c 1 t) (acc1 V c t.val t.isLt) := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the point's residue mod 8 says which case it is;
    the invariant hands over the accumulator (at anything where it is about to be cleared) and takes it back at this
    point's sum; the output window is handed back untouched unless this is the last column block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 32 := lt_of_lt_of_eq t.isLt (show cfg1.N = 32 from N_1)
  rw [PhiS1_castSucc V c t]
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [acc1_first V c t h0]
    iintro ⟨HΦ, Ho, ⟨%d0, H0⟩, ⟨%d1, H1⟩, ⟨%d2, H2⟩, ⟨%d3, H3⟩⟩
    ihave HΦ' := (PhiS1_weak V c _ _) $$ HΦ
    icases HΦ' with ⟨Hoth, HS⟩
    iapply (run1_first c (grid1.coords t) _ _ _ _ _ _ _ _ _ _ (iblk1 V c 0 t) (iblk1 V c 1 t) (iblk1 V c 2 t) hc0 hc1 _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [Hoth HS]
    · isplitl [Hoth]; · iexact Hoth
      iexact HS
    isplitl [Ho]; · iexact Ho
    isplitl [H0]; · iexact H0
    isplitl [H1]; · iexact H1
    isplitl [H2]; · iexact H2
    iexists _; iexact H3
  · have hz : t.val ≠ 0 := fun e => h0 (by rw [e])
    have hc0 : ¬cond1_0 (grid1.coords t) := fun h => h0 ((hcond1_0 t).mp h)
    rw [PhiS1_pos V c _ _ hz, acc1_next V c t h0]
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3, acc1_next V c t h0]
      iintro ⟨⟨Hoth, HS⟩, Ho, ⟨%d0, H0⟩, ⟨%d1, H1⟩, ⟨%d2, H2⟩, ⟨%d3, H3⟩⟩
      iapply (run1_last c (grid1.coords t) _ _ _ _ _ _ _ _ _ _ (iblk1 V c 0 t) (iblk1 V c 1 t) (iblk1 V c 2 t) hc0 hc1 _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hoth HS]
      · isplitl [Hoth]; · iexact Hoth
        iexact HS
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      iintro ⟨⟨Hoth, HS⟩, Ho, ⟨%d0, H0⟩, ⟨%d1, H1⟩, ⟨%d2, H2⟩, ⟨%d3, H3⟩⟩
      iapply (run1_mid c (grid1.coords t) _ _ _ _ _ _ _ _ _ _ (iblk1 V c 0 t) (iblk1 V c 1 t) (iblk1 V c 2 t) hc0 hc1 _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Hoth HS]
      · isplitl [Hoth]; · iexact Hoth
        iexact HS
      isplitl [Ho]; · iexact Ho
      isplitl [H0]; · iexact H0
      isplitl [H1]; · iexact H1
      isplitl [H2]; · iexact H2
      iexists _; iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) :
    (Pipeline.scopedRest (Ix := Unit) (Name := ℕ) (U := UR sig nD τ) (Lvl := ℕ) (Val := Elt F) spec1 c : sProp 𝕄) ⊢ (dat1 V c).Φ 0 :=
  rest1_split c

/-- and after the last point the invariant gives it back, the accumulator's contents forgotten. -/
theorem hout1 (c : Dev nD) :
    (dat1 V c).Φ (Fin.last cfg1.N) ⊢ (Pipeline.scopedRest (Ix := Unit) (Name := ℕ) (U := UR sig nD τ) (Lvl := ℕ) (Val := Elt F) spec1 c : sProp 𝕄) := by
  rw [show (dat1 V c).Φ (Fin.last cfg1.N) = PhiS1 V c (Fin.last cfg1.N).val (Nat.le_of_lt_succ (Fin.last cfg1.N).isLt) from rfl]
  exact (PhiS1_weak V c _ _).trans (rest1_join c)

end Cert.KernelIdeal.Hand

end
-- ==== Proof.Share0.lean ====
/-
  The first kernel's region reads ONE array — the bf16 features — through two windows (the row block and the column
  block). At the region's entry the core's unscoped buffers are dealt to the five windows: the features' buffer to
  the two readers at the two halves of the full share, the adjacency input and the two results whole. At its exit
  they are put back, the two halves joined, the results at what the write-backs left.
-/
import proofs.«175017_j25469156065919_2_alg».proof.Proof.Gen.KernelIdeal.Launch
import Idealize.ShloMosaic.Lib.Pipeline.Regions
import Idealize.ShloMosaic.Lib.Pipeline.RegionsLoop
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four distinct buffers behind the five windows. -/
theorem img0 : Finset.univ.image (Pipeline.arrRef spec0) = ({main_v33, main_arg1, main_v34_0, main_v34_1} : Finset (Ref sig .tc)) := by
  decide

section
variable (c : Dev nD) (dat : Dat τ (Elt F) Unit ℕ (UR sig nD τ) ℕ cfg0 c)
  (V : (b : Ref sig .tc) → Buf (Elt F) ((c : Thread nD τ).loc b))

set_option maxHeartbeats 8000000 in
theorem entry0_of (hq0 : dat.q 0 = fullShare.left) (hq1 : dat.q 1 = fullShare.right) (hq2 : dat.q 2 = fullShare)
    (hA : ∀ w, dat.A w = V (Pipeline.arrRef spec0 w)) :
    (unscopedBufs c V : sProp 𝕄) ⊢ iprop(dat.arrays (dat.arrAt · 0) ∗ Pipeline.unscopedRest spec0 c V) := by
  rw [Pipeline.unscopedBufs_split₀ cfgs 0 winFacts₀0.arr_unscoped c V]
  refine sep_mono ?_ .rfl
  unfold Pipeline.arrBufs Dat.arrays
  rw [show Finset.image (Pipeline.arrRef (cfgs 0).spec) Finset.univ = ({main_v33, main_arg1, main_v34_0, main_v34_1} : Finset (Ref sig .tc)) from img0, bigSep_W0]
  rw [BI.bigSep_insert (by decide), BI.bigSep_insert (by decide), BI.bigSep_insert (by decide), BI.bigSep_singleton]
  have e0 : ((cfg0.win 0).arr.view.loc (c : Thread nD τ) ↦[(cfg0.win 0).arr.view.set]{dat.share 0} dat.arrAt 0 0 : sProp 𝕄)
      = (((c : Thread nD τ).loc main_v33) ↦{fullShare.left} V main_v33) := by
    rw [(arr_whole0 0).set_eq_univ]; unfold Dat.share; rw [if_neg (by decide), hq0]
    show (_ ↦{_} dat.A 0 : sProp 𝕄) = _; rw [hA 0]
  have e1 : ((cfg0.win 1).arr.view.loc (c : Thread nD τ) ↦[(cfg0.win 1).arr.view.set]{dat.share 1} dat.arrAt 1 0 : sProp 𝕄)
      = (((c : Thread nD τ).loc main_v33) ↦{fullShare.right} V main_v33) := by
    rw [(arr_whole0 1).set_eq_univ]; unfold Dat.share; rw [if_neg (by decide), hq1]
    show (_ ↦{_} dat.A 1 : sProp 𝕄) = _; rw [hA 1]
  have e2 : ((cfg0.win 2).arr.view.loc (c : Thread nD τ) ↦[(cfg0.win 2).arr.view.set]{dat.share 2} dat.arrAt 2 0 : sProp 𝕄)
      = (((c : Thread nD τ).loc main_arg1) ↦{fullShare} V main_arg1) := by
    rw [(arr_whole0 2).set_eq_univ]; unfold Dat.share; rw [if_neg (by decide), hq2]
    show (_ ↦{_} dat.A 2 : sProp 𝕄) = _; rw [hA 2]
  have e3 : ((cfg0.win 3).arr.view.loc (c : Thread nD τ) ↦[(cfg0.win 3).arr.view.set]{dat.share 3} dat.arrAt 3 0 : sProp 𝕄)
      = (((c : Thread nD τ).loc main_v34_0) ↦{fullShare} V main_v34_0) := by
    rw [(arr_whole0 3).set_eq_univ]; unfold Dat.share; rw [if_pos (by decide)]
    show (_ ↦{_} dat.A 3 : sProp 𝕄) = _; rw [hA 3]
  have e4 : ((cfg0.win 4).arr.view.loc (c : Thread nD τ) ↦[(cfg0.win 4).arr.view.set]{dat.share 4} dat.arrAt 4 0 : sProp 𝕄)
      = (((c : Thread nD τ).loc main_v34_1) ↦{fullShare} V main_v34_1) := by
    rw [(arr_whole0 4).set_eq_univ]; unfold Dat.share; rw [if_pos (by decide)]
    show (_ ↦{_} dat.A 4 : sProp 𝕄) = _; rw [hA 4]
  dsimp only
  rw [e0, e1, e2, e3, e4]
  show iprop(_ ∗ _ ∗ _ ∗ _) ⊢ _
  iintro ⟨H33, H1, H340, H341⟩
  ihave H33' := (pointsTo_share (PosShare.mem_left_op_right fullShare)).1 $$ H33
  icases H33' with ⟨Hl, Hr⟩
  isplitl [Hl]; · iexact Hl
  isplitl [Hr]; · iexact Hr
  isplitl [H1]; · iexact H1
  isplitl [H340]; · iexact H340
  iexact H341

set_option maxHeartbeats 8000000 in
theorem exit0_of (hq0 : dat.q 0 = fullShare.left) (hq1 : dat.q 1 = fullShare.right) (hq2 : dat.q 2 = fullShare)
    (hA : ∀ w, dat.A w = V (Pipeline.arrRef spec0 w))
    (V' : (b : Ref sig .tc) → Buf (Elt F) ((c : Thread nD τ).loc b))
    (h3 : V' main_v34_0 = dat.arrAt 3 cfg0.N) (h4 : V' main_v34_1 = dat.arrAt 4 cfg0.N)
    (hrest' : ∀ b : Ref sig .tc, b ≠ main_v34_0 → b ≠ main_v34_1 → V' b = V b) :
    iprop(dat.arrays (dat.arrAt · cfg0.N) ∗ Pipeline.unscopedRest spec0 c V) ⊢ (unscopedBufs c V' : sProp 𝕄) := by
  have hrest : ∀ b : Ref sig .tc, b ≠ main_v34_0 → b ≠ main_v34_1 → V b = V' b := fun b h0 h1 => (hrest' b h0 h1).symm
  rw [Pipeline.unscopedBufs_split₀ cfgs 0 winFacts₀0.arr_unscoped c V']
  refine sep_mono ?_ (Entails.of_eq ?_)
  · unfold Pipeline.arrBufs Dat.arrays
    rw [show Finset.image (Pipeline.arrRef (cfgs 0).spec) Finset.univ = ({main_v33, main_arg1, main_v34_0, main_v34_1} : Finset (Ref sig .tc)) from img0, bigSep_W0]
    rw [BI.bigSep_insert (by decide), BI.bigSep_insert (by decide), BI.bigSep_insert (by decide), BI.bigSep_singleton]
    have e0 : ((cfg0.win 0).arr.view.loc (c : Thread nD τ) ↦[(cfg0.win 0).arr.view.set]{dat.share 0} dat.arrAt 0 cfg0.N : sProp 𝕄)
        = (((c : Thread nD τ).loc main_v33) ↦{fullShare.left} V' main_v33) := by
      rw [(arr_whole0 0).set_eq_univ]; unfold Dat.share; rw [if_neg (by decide), hq0]
      rw [dat.arrAt_in 0 rfl, hA 0, hrest main_v33 (by decide) (by decide)]
    have e1 : ((cfg0.win 1).arr.view.loc (c : Thread nD τ) ↦[(cfg0.win 1).arr.view.set]{dat.share 1} dat.arrAt 1 cfg0.N : sProp 𝕄)
        = (((c : Thread nD τ).loc main_v33) ↦{fullShare.right} V' main_v33) := by
      rw [(arr_whole0 1).set_eq_univ]; unfold Dat.share; rw [if_neg (by decide), hq1]
      rw [dat.arrAt_in 1 rfl, hA 1, hrest main_v33 (by decide) (by decide)]
    have e2 : ((cfg0.win 2).arr.view.loc (c : Thread nD τ) ↦[(cfg0.win 2).arr.view.set]{dat.share 2} dat.arrAt 2 cfg0.N : sProp 𝕄)
        = (((c : Thread nD τ).loc main_arg1) ↦{fullShare} V' main_arg1) := by
      rw [(arr_whole0 2).set_eq_univ]; unfold Dat.share; rw [if_neg (by decide), hq2]
      rw [dat.arrAt_in 2 rfl, hA 2, hrest main_arg1 (by decide) (by decide)]
    have e3 : ((cfg0.win 3).arr.view.loc (c : Thread nD τ) ↦[(cfg0.win 3).arr.view.set]{dat.share 3} dat.arrAt 3 cfg0.N : sProp 𝕄)
        = (((c : Thread nD τ).loc main_v34_0) ↦{fullShare} V' main_v34_0) := by
      rw [(arr_whole0 3).set_eq_univ]; unfold Dat.share; rw [if_pos (by decide)]
      rw [h3]
    have e4 : ((cfg0.win 4).arr.view.loc (c : Thread nD τ) ↦[(cfg0.win 4).arr.view.set]{dat.share 4} dat.arrAt 4 cfg0.N : sProp 𝕄)
        = (((c : Thread nD τ).loc main_v34_1) ↦{fullShare} V' main_v34_1) := by
      rw [(arr_whole0 4).set_eq_univ]; unfold Dat.share; rw [if_pos (by decide)]
      rw [h4]
    dsimp only
    rw [e0, e1, e2, e3, e4]
    show _ ⊢ iprop(_ ∗ _ ∗ _ ∗ _)
    iintro ⟨Hl, Hr, H1, H340, H341⟩
    ihave H33 := (pointsTo_share (PosShare.mem_left_op_right fullShare)).2 $$ [Hl Hr]
    · isplitl [Hl]; · iexact Hl
      iexact Hr
    isplitl [H33]; · iexact H33
    isplitl [H1]; · iexact H1
    isplitl [H340]; · iexact H340
    iexact H341
  · unfold Pipeline.unscopedRest
    refine bigSep_congr fun b hb => ?_
    have hb' : b ∉ ({main_v33, main_arg1, main_v34_0, main_v34_1} : Finset (Ref sig .tc)) := by
      have := (Finset.mem_sdiff.mp hb).2; rwa [img0] at this
    rw [hrest b (fun e => hb' (by rw [e]; decide)) (fun e => hb' (by rw [e]; decide))]

end

end Cert.KernelIdeal.Hand

end
-- ==== Proof.MainRun.lean ====
/-
  The whole program as a run: host operations, the first kernel's region, three host operations, the second
  kernel's region. The contents of every unscoped buffer are followed from the launch through each of the four
  segments (a host stretch applies its operations; a region leaves its inputs as they were and its results at what
  the write-backs of its grid points leave), each region is entered from the thread state the segment before it
  left, and at the end every unscoped buffer — the arguments and the two results among them — is read off the last
  of these contents.
-/
import proofs.«175017_j25469156065919_2_alg».proof.Proof.Data0
import proofs.«175017_j25469156065919_2_alg».proof.Proof.Data1
import proofs.«175017_j25469156065919_2_alg».proof.Proof.Share0
import proofs.«175017_j25469156065919_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => m (c, b)
/-- After the host operations before the first region. -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- After the first region: its two results at what the write-backs leave, every other buffer as it was. -/
def W2 (c : Dev nD) : Valuation τ sig (Elt F) :=
  Function.update (Function.update (W1 m c) (Proc.devRef .tc main_v34_0) ((dat0 (E1 m) c).arrAt 3 cfg0.N))
    (Proc.devRef .tc main_v34_1) ((dat0 (E1 m) c).arrAt 4 cfg0.N)
theorem W2_v34_0 (c : Dev nD) : W2 m c (Proc.devRef .tc main_v34_0) = (dat0 (E1 m) c).arrAt 3 cfg0.N := by
  unfold W2; rw [Function.update_of_ne (StableHlo.devRef_ne_of_ne (by decide)), Function.update_self]
theorem W2_v34_1 (c : Dev nD) : W2 m c (Proc.devRef .tc main_v34_1) = (dat0 (E1 m) c).arrAt 4 cfg0.N := by
  unfold W2; rw [Function.update_self]
theorem W2_of_ne (c : Dev nD) (b : Ref sig .tc) (h0 : b ≠ main_v34_0) (h1 : b ≠ main_v34_1) :
    W2 m c (Proc.devRef .tc b) = W1 m c (Proc.devRef .tc b) := by
  unfold W2; rw [Function.update_of_ne (StableHlo.devRef_ne_of_ne h1), Function.update_of_ne (StableHlo.devRef_ne_of_ne h0)]
abbrev E2 : (c : Dev nD) → (b : Ref sig .tc) → Buf (Elt F) ((c : Thread nD τ).loc b) := fun c b => W2 m c b
/-- After the three host operations between the regions. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- After the second region. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- A buffer that no host operation writes and no region has as a result ends as launched. -/
theorem W4_keep (c : Dev nD) (r : Ref sig .tc) (h1 : ∀ w, Pipeline.arrRef spec1 w ≠ r) (h2 : r ∉ (hostOps1_W : List (Ref sig .tc)))
    (h3 : r ≠ main_v34_0) (h4 : r ≠ main_v34_1) (h5 : r ∉ (hostOps0_W : List (Ref sig .tc))) :
    W4 m c (Proc.devRef .tc r) = m ((c : Thread nD τ).loc r) :=
  (W4_of_ne m c r h1).trans <| (StableHlo.after_of_writes_sub hostOps1 _ hostOps1_writes h2).trans <|
    (W2_of_ne m c r h3 h4).trans <| (StableHlo.after_of_writes_sub hostOps0 _ hostOps0_writes h5).trans rfl

theorem W4_main_arg0 (c : Dev nD) : W4 m c (Proc.devRef .tc main_arg0) = m ((c : Thread nD τ).loc main_arg0) :=
  W4_keep m c main_arg0 (by decide) (by decide) (by decide) (by decide) (by decide)
theorem W4_main_arg1 (c : Dev nD) : W4 m c (Proc.devRef .tc main_arg1) = m ((c : Thread nD τ).loc main_arg1) :=
  W4_keep m c main_arg1 (by decide) (by decide) (by decide) (by decide) (by decide)
theorem W4_main_arg2 (c : Dev nD) : W4 m c (Proc.devRef .tc main_arg2) = m ((c : Thread nD τ).loc main_arg2) :=
  W4_keep m c main_arg2 (by decide) (by decide) (by decide) (by decide) (by decide)
theorem W4_main_arg3 (c : Dev nD) : W4 m c (Proc.devRef .tc main_arg3) = m ((c : Thread nD τ).loc main_arg3) :=
  W4_keep m c main_arg3 (by decide) (by decide) (by decide) (by decide) (by decide)
theorem W4_main_arg4 (c : Dev nD) : W4 m c (Proc.devRef .tc main_arg4) = m ((c : Thread nD τ).loc main_arg4) :=
  W4_keep m c main_arg4 (by decide) (by decide) (by decide) (by decide) (by decide)
theorem W4_main_arg5 (c : Dev nD) : W4 m c (Proc.devRef .tc main_arg5) = m ((c : Thread nD τ).loc main_arg5) :=
  W4_keep m c main_arg5 (by decide) (by decide) (by decide) (by decide) (by decide)
theorem W4_main_arg6 (c : Dev nD) : W4 m c (Proc.devRef .tc main_arg6) = m ((c : Thread nD τ).loc main_arg6) :=
  W4_keep m c main_arg6 (by decide) (by decide) (by decide) (by decide) (by decide)
theorem W4_main_arg7 (c : Dev nD) : W4 m c (Proc.devRef .tc main_arg7) = m ((c : Thread nD τ).loc main_arg7) :=
  W4_keep m c main_arg7 (by decide) (by decide) (by decide) (by decide) (by decide)

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: its five windows' arrays dealt out of the unscoped buffers (the shared
    features' buffer by halves) and put back; nothing but the scoped rest enters its invariant. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X _ := BI.emp
  Y _ := BI.emp
  Z c := iprop(Pipeline.unscopedRest (Ix := Unit) (Name := ℕ) (U := UR sig nD τ) (Lvl := ℕ) spec0 c (E1 m c) ∗ ∃ r, prngReg c r)
  hentry c := by
    rw [Pipeline.ownSems0_none]
    have hsplit := entry0_of c (dat0 (E1 m) c) (E1 m c) rfl rfl rfl (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = (dat0 (E1 m) c).Φ 0 from rfl]
    iintro ⟨-, -, Hr⟩
    iapply (hin0 (E1 m) c); iexact Hr
  hout c := by
    rw [Pipeline.ownSems0_none, show (pdats m 0 c).Φ (Fin.last _) = (dat0 (E1 m) c).Φ (Fin.last cfg0.N) from rfl]
    iintro H
    isplitr; · iempintro
    isplitr; · iempintro
    iapply (hout0 (E1 m) c); iexact H
  hexit c := by
    have hjoin := exit0_of c (dat0 (E1 m) c) (E1 m c) rfl rfl rfl (fun _ => rfl) (E2 m c) (W2_v34_0 m c) (W2_v34_1 m c)
      (fun b h0 h1 => W2_of_ne m c b h0 h1)
    rw [Pipeline.unscopedBufs_held] at hjoin
    iintro ⟨Ha, HO, -, Hrest, Hp⟩
    imodintro
    isplitl [Ha Hrest]
    · iapply hjoin
      isplitl [Ha]; · iexact Ha
      iexact Hrest
    isplitl [Hp]; · iexact Hp
    unfold Pipeline.Dat.owesAt Pipeline.owesWithin
    icases HO with ⟨%W, -, HO⟩; iexists W; iexact HO

set_option backward.isDefEq.respectTransparency.types false in
/-- The second region over the thread state: its four distinct arrays split out of the unscoped buffers and put
    back at the exit contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X _ := BI.emp
  Y _ := BI.emp
  Z c := iprop(Pipeline.unscopedRest (Ix := Unit) (Name := ℕ) (U := UR sig nD τ) (Lvl := ℕ) spec1 c (E3 m c) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = (dat1 (E3 m) c).Φ 0 from rfl]
    iintro ⟨-, -, Hr⟩
    iapply (hin1 (E3 m) c); iexact Hr
  hout c := by
    rw [Pipeline.ownSems0_none, show (pdats m 1 c).Φ (Fin.last _) = (dat1 (E3 m) c).Φ (Fin.last cfg1.N) from rfl]
    iintro H
    isplitr; · iempintro
    isplitr; · iempintro
    iapply (hout1 (E3 m) c); iexact H
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, -, Hrest, Hp⟩
    imodintro
    isplitl [Ha Hrest Hp]
    · isplitl [Ha Hrest]
      · iapply hjoin; isplitl [Ha] <;> iassumption
      iexact Hp
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c)⟩) (run_all m ρ)

end Cert.KernelIdeal.Hand

end
-- ==== Proof.KRuns1.lean ====
/-
  The second kernel's body at one grid point (i, j), j the column-block counter: it clears its accumulator when
  j = 0, adds the product of the adjacency block with the scaled-feature block to it, and when j = 7 scales the
  accumulated rows by the degree factors, applies the leaky rectifier and stores the output block. Here: the two
  conditions decided over the grid, where the output window is idle, and the body run in each of the three cases
  the grid meets, each stated with the buffers' contents before and after as plain values.
-/
import proofs.«175017_j25469156065919_2_alg».proof.Proof.Gen.Kernel.Launch
import proofs.«175017_j25469156065919_2_alg».proof.Proof.Gen.Kernel.Skeleton
import proofs.«175017_j25469156065919_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block rectangle of rank 2, however spelt. -/
theorem hz2 : (![0, 0] : Fin 2 → Nat) = fun _ => 0 := by
  funext a; fin_cases a <;> rfl

/-! ## The conditions, over the grid -/

/-- "j = 0": the accumulator is cleared. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "j = 7": the output block is finished and stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output window is idle, and not written back, exactly where j ≠ 7. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The body, case by case -/

section Runs
variable (c : Dev nD) (i : grid1.Coords)
  (M0 : Memref sig .tc .vmem S2048x1024 .f32) (h0 : M0.IsWhole) (M1 : Memref sig .tc .vmem S2048x1 .f32) (h1 : M1.IsWhole)
  (M2 : Memref sig .tc .vmem S1024x64 .bf16) (h2 : M2.IsWhole) (M3 : Memref sig .tc .vmem S2048x64 .f32) (h3 : M3.IsWhole)
  (M4 : Memref sig .tc .vmem S2048x64 .f32) (h4 : M4.IsWhole)
  (x0 : Vec F S2048x1024 .f32) (x1 : Vec F S2048x1 .f32) (x2 : Vec F S1024x64 .bf16)

set_option maxHeartbeats 4000000 in
/-- j = 0: the accumulator, whatever it held, ends at the first block's product added to zero. -/
theorem run1_first (hc0 : cond1_0 i) (hc1 : ¬cond1_1 i) (y3 : Vec F S2048x64 .f32) (E : Set ℕ) (K : PUnit → sProp 𝕄) :
    iprop(owns (c : Thread nD τ) M0 fullShare x0 ∗ owns (c : Thread nD τ) M1 fullShare x1 ∗ owns (c : Thread nD τ) M2 fullShare x2
        ∗ owns (c : Thread nD τ) M3 fullShare y3 ∗ (∃ d, owns (c : Thread nD τ) M4 fullShare d)
        ∗ (iprop(owns (c : Thread nD τ) M0 fullShare x0 ∗ owns (c : Thread nD τ) M1 fullShare x1 ∗ owns (c : Thread nD τ) M2 fullShare x2
            ∗ owns (c : Thread nD τ) M3 fullShare y3 ∗ owns (c : Thread nD τ) M4 fullShare (k1_pay2 x0 x2 (k1_pay1 (F := F)))) -∗ K ⟨⟩))
      ⊢ wp frame (wpE (defs₀ (F := F)) Variants.none c none) E (cc1__out_kernel i M0 h0 M1 h1 M2 h2 M3 h3 M4 h4) K := by
  simp only [cc1__out_kernel_eq_skeleton]; unfold cc1__out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := h0.eq_unread hf0; obtain rfl := h2.eq_unread hf2
  sl_exec (disch := first | exact hc0 | exact hc1)
  sl_step
  iapply Hk
  isplitl [H0]
  · iexists _; isplitr; · ipureintro; exact h0.read_unread _
    iexact H0
  isplitl [H1]
  · iexists _; isplitr; · ipureintro; exact hf1
    iexact H1
  isplitl [H2]
  · iexists _; isplitr; · ipureintro; exact h2.read_unread _
    iexact H2
  isplitl [H3]
  · iexists _; isplitr; · ipureintro; exact hf3
    iexact H3
  iexists _; isplitr; swap; · iexact H4
  ipureintro
  sl_unfold_words
  rw [View.read_writes_eq_canon _ _ _ (fun y => ⟨_, List.mem_cons_self, View.mem_set_unit_zero hz2 inb_S2048x64_S2048x64_0_0 y⟩)]
  rw [View.canon_cons_unit_zero hz2]
  simp only [View.readAt_eq_ld, h0.read_unread, h2.read_unread, h4.read_unread, View.ld_unit_zero (S := S2048x1024) hz2, View.ld_unit_zero (S := S1024x64) hz2, View.ld_unit_zero (S := S2048x64) hz2]
  try (congr 1; exact View.readCov_unit_zero (S := S2048x64) M4.view hz2 _ _)

set_option maxHeartbeats 4000000 in
/-- 0 < j < 7: the accumulator gains this block's product. -/
theorem run1_mid (hc0 : ¬cond1_0 i) (hc1 : ¬cond1_1 i) (y3 : Vec F S2048x64 .f32) (xs : Vec F S2048x64 .f32) (E : Set ℕ) (K : PUnit → sProp 𝕄) :
    iprop(owns (c : Thread nD τ) M0 fullShare x0 ∗ owns (c : Thread nD τ) M1 fullShare x1 ∗ owns (c : Thread nD τ) M2 fullShare x2
        ∗ owns (c : Thread nD τ) M3 fullShare y3 ∗ owns (c : Thread nD τ) M4 fullShare xs
        ∗ (iprop(owns (c : Thread nD τ) M0 fullShare x0 ∗ owns (c : Thread nD τ) M1 fullShare x1 ∗ owns (c : Thread nD τ) M2 fullShare x2
            ∗ owns (c : Thread nD τ) M3 fullShare y3 ∗ owns (c : Thread nD τ) M4 fullShare (k1_pay2 x0 x2 xs)) -∗ K ⟨⟩))
      ⊢ wp frame (wpE (defs₀ (F := F)) Variants.none c none) E (cc1__out_kernel i M0 h0 M1 h1 M2 h2 M3 h3 M4 h4) K := by
  simp only [cc1__out_kernel_eq_skeleton]; unfold cc1__out_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h0.eq_unread hf0; obtain rfl := h2.eq_unread hf2; obtain rfl := h4.eq_unread hf4
  sl_exec (disch := first | exact hc0 | exact hc1)
  sl_step
  iapply Hk
  isplitl [H0]
  · iexists _; isplitr; · ipureintro; exact h0.read_unread _
    iexact H0
  isplitl [H1]
  · iexists _; isplitr; · ipureintro; exact hf1
    iexact H1
  isplitl [H2]
  · iexists _; isplitr; · ipureintro; exact h2.read_unread _
    iexact H2
  isplitl [H3]
  · iexists _; isplitr; · ipureintro; exact hf3
    iexact H3
  iexists _; isplitr; swap; · iexact H4
  ipureintro
  sl_unfold_words
  rw [View.read_writes_eq_canon _ _ _ (fun y => ⟨_, List.mem_cons_self, View.mem_set_unit_zero hz2 inb_S2048x64_S2048x64_0_0 y⟩)]
  rw [View.canon_cons_unit_zero hz2]
  simp only [View.readAt_eq_ld, h0.read_unread, h2.read_unread, h4.read_unread, View.ld_unit_zero (S := S2048x1024) hz2, View.ld_unit_zero (S := S1024x64) hz2, View.ld_unit_zero (S := S2048x64) hz2]
  try (congr 1; exact View.readCov_unit_zero (S := S2048x64) M4.view hz2 _ _)

set_option maxHeartbeats 4000000 in
/-- j = 7: the accumulator gains the last block's product, and the output block is the accumulated rows scaled by
    the degree factors and passed through the leaky rectifier. -/
theorem run1_last (hc0 : ¬cond1_0 i) (hc1 : cond1_1 i) (xs : Vec F S2048x64 .f32) (E : Set ℕ) (K : PUnit → sProp 𝕄) :
    iprop(owns (c : Thread nD τ) M0 fullShare x0 ∗ owns (c : Thread nD τ) M1 fullShare x1 ∗ owns (c : Thread nD τ) M2 fullShare x2
        ∗ (∃ d, owns (c : Thread nD τ) M3 fullShare d) ∗ owns (c : Thread nD τ) M4 fullShare xs
        ∗ (iprop(owns (c : Thread nD τ) M0 fullShare x0 ∗ owns (c : Thread nD τ) M1 fullShare x1 ∗ owns (c : Thread nD τ) M2 fullShare x2
            ∗ owns (c : Thread nD τ) M3 fullShare (k1_pay3 x1 (k1_pay2 x0 x2 xs)) ∗ owns (c : Thread nD τ) M4 fullShare (k1_pay2 x0 x2 xs)) -∗ K ⟨⟩))
      ⊢ wp frame (wpE (defs₀ (F := F)) Variants.none c none) E (cc1__out_kernel i M0 h0 M1 h1 M2 h2 M3 h3 M4 h4) K := by
  simp only [cc1__out_kernel_eq_skeleton]; unfold cc1__out_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := h0.eq_unread hf0; obtain rfl := h1.eq_unread hf1; obtain rfl := h2.eq_unread hf2; obtain rfl := h4.eq_unread hf4
  sl_exec (disch := first | exact hc0 | exact hc1)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; swap; · iexact H3
    ipureintro
    sl_unfold_words
    rw [View.read_writes_eq_canon _ _ _ (fun y => ⟨_, List.mem_cons_self, View.mem_set_unit_zero hz2 inb_S2048x64_S2048x64_0_0 y⟩)]
    rw [View.canon_cons_unit_zero hz2]
    simp only [View.readAt_eq_ld, h0.read_unread, h1.read_unread, h2.read_unread, h4.read_unread, View.ld_unit_zero (S := S2048x1024) hz2, View.ld_unit_zero (S := S1024x64) hz2, View.ld_unit_zero (S := S2048x64) hz2, View.ld_unit_zero (S := S2048x1) hz2]
    try (congr 1; exact View.readCov_unit_zero (S := S2048x64) M4.view hz2 _ _)
  try rw [View.readCov_unit_zero (S := S2048x64) M4.view hz2]
  iexists _; isplitr; swap; · iexact H4
  ipureintro
  sl_unfold_words
  rw [View.read_writes_eq_canon _ _ _ (fun y => ⟨_, List.mem_cons_self, View.mem_set_unit_zero hz2 inb_S2048x64_S2048x64_0_0 y⟩)]
  rw [View.canon_cons_unit_zero hz2]
  simp only [View.readAt_eq_ld, h0.read_unread, h2.read_unread, h4.read_unread, View.ld_unit_zero (S := S2048x1024) hz2, View.ld_unit_zero (S := S1024x64) hz2, View.ld_unit_zero (S := S2048x64) hz2]
  try (congr 1; exact View.readCov_unit_zero (S := S2048x64) M4.view hz2 _ _)

end Runs

end Cert.Kernel.Hand

end
-- ==== Proof.KRuns0.lean ====
/-
  The first kernel's body at one grid point (i, j), j the column-block counter: it clears its row-sum accumulator
  when j = 0, forms the adjacency block from the two feature blocks and the block of A and stores it, adds the
  block's row sums to the accumulator, and when j = 7 stores the reciprocal square roots of the accumulated row
  sums as the degree factors. Here: the two conditions decided over the grid, where the degree-factor window is
  idle, and the body run in each of the three cases the grid meets, each stated with the buffers' contents before
  and after as plain values.
-/
import proofs.«175017_j25469156065919_2_alg».proof.Proof.KRuns1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions, over the grid -/

/-- "j = 0": the accumulator is cleared. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "j = 7": the degree factors are finished and stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- The degree-factor window is idle, and not written back, exactly where j ≠ 7. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The body, case by case -/

section Runs
variable (c : Dev nD) (i : grid0.Coords)
  (M0 : Memref sig .tc .vmem S1024x256 .bf16) (h0 : M0.IsWhole) (M1 : Memref sig .tc .vmem S1024x256 .bf16) (h1 : M1.IsWhole)
  (M2 : Memref sig .tc .vmem S1024x1024 .f32) (h2 : M2.IsWhole) (M3 : Memref sig .tc .vmem S1024x1024 .f32) (h3 : M3.IsWhole)
  (M4 : Memref sig .tc .vmem S1024x1 .f32) (h4 : M4.IsWhole) (M5 : Memref sig .tc .vmem S1024x1 .f32) (h5 : M5.IsWhole)
  (x0 : Vec F S1024x256 .bf16) (x1 : Vec F S1024x256 .bf16) (x2 : Vec F S1024x1024 .f32)

set_option maxHeartbeats 4000000 in
/-- j = 0: the accumulator, whatever it held, ends at the first block's row sums added to zero; the adjacency block
    is stored; the degree factors are left as they were. -/
theorem run0_first (hc0 : cond0_0 i) (hc1 : ¬cond0_1 i) (y4 : Vec F S1024x1 .f32) (E : Set ℕ) (K : PUnit → sProp 𝕄) :
    iprop(owns (c : Thread nD τ) M0 fullShare x0 ∗ owns (c : Thread nD τ) M1 fullShare x1 ∗ owns (c : Thread nD τ) M2 fullShare x2
        ∗ (∃ d, owns (c : Thread nD τ) M3 fullShare d) ∗ owns (c : Thread nD τ) M4 fullShare y4 ∗ (∃ d, owns (c : Thread nD τ) M5 fullShare d)
        ∗ (iprop(owns (c : Thread nD τ) M0 fullShare x0 ∗ owns (c : Thread nD τ) M1 fullShare x1 ∗ owns (c : Thread nD τ) M2 fullShare x2
            ∗ owns (c : Thread nD τ) M3 fullShare (k0_pay4 i x0 x1 x2) ∗ owns (c : Thread nD τ) M4 fullShare y4 ∗ owns (c : Thread nD τ) M5 fullShare (k0_pay1 (k0_pay5 i x0 x1 x2 (k0_pay3 (F := F))))) -∗ K ⟨⟩))
      ⊢ wp frame (wpE (defs₀ (F := F)) Variants.none c none) E (cc0__a1_kernel i M0 h0 M1 h1 M2 h2 M3 h3 M4 h4 M5 h5) K := by
  simp only [cc0__a1_kernel_eq_skeleton]; unfold cc0__a1_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%f4, %hf4, H4⟩, ⟨%d5, %f5, -, H5⟩, Hk⟩
  obtain rfl := h0.eq_unread hf0; obtain rfl := h1.eq_unread hf1; obtain rfl := h2.eq_unread hf2
  sl_exec (disch := first | exact hc0 | exact hc1)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; swap; · iexact H3
    ipureintro
    sl_unfold_words
    rw [View.read_writes_eq_canon _ _ _ (fun y => ⟨_, List.mem_cons_self, View.mem_set_unit_zero hz2 inb_S1024x1024_S1024x1024_0_0 y⟩)]
    sl_unfold_words
    rw [View.canon_cons_unit_zero hz2]
    simp only [View.readAt_eq_ld, h0.read_unread, h1.read_unread, h2.read_unread, h5.read_unread, View.ld_unit_zero (S := S1024x256) hz2, View.ld_unit_zero (S := S1024x1024) hz2, View.ld_unit_zero (S := S1024x1) hz2, View.readCov_unit_zero (S := S1024x1) _ hz2]
  isplitl [H4]
  · iexists _; isplitr; · ipureintro; exact hf4
    iexact H4
  iexists _; isplitr; swap; · iexact H5
  ipureintro
  sl_unfold_words
  rw [View.read_writes_eq_canon _ _ _ (fun y => ⟨_, List.mem_cons_self, View.mem_set_unit_zero hz2 inb_S1024x1_S1024x1_0_0 y⟩)]
  sl_unfold_words
  rw [View.canon_cons_unit_zero hz2]
  simp only [View.readAt_eq_ld, h0.read_unread, h1.read_unread, h2.read_unread, h5.read_unread, View.ld_unit_zero (S := S1024x256) hz2, View.ld_unit_zero (S := S1024x1024) hz2, View.ld_unit_zero (S := S1024x1) hz2, View.readCov_unit_zero (S := S1024x1) _ hz2]

set_option maxHeartbeats 4000000 in
/-- 0 < j < 7: the adjacency block is stored and the accumulator gains its row sums. -/
theorem run0_mid (hc0 : ¬cond0_0 i) (hc1 : ¬cond0_1 i) (y4 : Vec F S1024x1 .f32) (xs : Vec F S1024x1 .f32) (E : Set ℕ) (K : PUnit → sProp 𝕄) :
    iprop(owns (c : Thread nD τ) M0 fullShare x0 ∗ owns (c : Thread nD τ) M1 fullShare x1 ∗ owns (c : Thread nD τ) M2 fullShare x2
        ∗ (∃ d, owns (c : Thread nD τ) M3 fullShare d) ∗ owns (c : Thread nD τ) M4 fullShare y4 ∗ owns (c : Thread nD τ) M5 fullShare xs
        ∗ (iprop(owns (c : Thread nD τ) M0 fullShare x0 ∗ owns (c : Thread nD τ) M1 fullShare x1 ∗ owns (c : Thread nD τ) M2 fullShare x2
            ∗ owns (c : Thread nD τ) M3 fullShare (k0_pay4 i x0 x1 x2) ∗ owns (c : Thread nD τ) M4 fullShare y4 ∗ owns (c : Thread nD τ) M5 fullShare (k0_pay1 (k0_pay5 i x0 x1 x2 xs))) -∗ K ⟨⟩))
      ⊢ wp frame (wpE (defs₀ (F := F)) Variants.none c none) E (cc0__a1_kernel i M0 h0 M1 h1 M2 h2 M3 h3 M4 h4 M5 h5) K := by
  simp only [cc0__a1_kernel_eq_skeleton]; unfold cc0__a1_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := h0.eq_unread hf0; obtain rfl := h1.eq_unread hf1; obtain rfl := h2.eq_unread hf2; obtain rfl := h5.eq_unread hf5
  sl_exec (disch := first | exact hc0 | exact hc1)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; swap; · iexact H3
    ipureintro
    sl_unfold_words
    rw [View.read_writes_eq_canon _ _ _ (fun y => ⟨_, List.mem_cons_self, View.mem_set_unit_zero hz2 inb_S1024x1024_S1024x1024_0_0 y⟩)]
    sl_unfold_words
    rw [View.canon_cons_unit_zero hz2]
    simp only [View.readAt_eq_ld, h0.read_unread, h1.read_unread, h2.read_unread, h5.read_unread, View.ld_unit_zero (S := S1024x256) hz2, View.ld_unit_zero (S := S1024x1024) hz2, View.ld_unit_zero (S := S1024x1) hz2, View.readCov_unit_zero (S := S1024x1) _ hz2]
  isplitl [H4]
  · iexists _; isplitr; · ipureintro; exact hf4
    iexact H4
  iexists _; isplitr; swap; · iexact H5
  ipureintro
  sl_unfold_words
  rw [View.read_writes_eq_canon _ _ _ (fun y => ⟨_, List.mem_cons_self, View.mem_set_unit_zero hz2 inb_S1024x1_S1024x1_0_0 y⟩)]
  sl_unfold_words
  rw [View.canon_cons_unit_zero hz2]
  simp only [View.readAt_eq_ld, h0.read_unread, h1.read_unread, h2.read_unread, h5.read_unread, View.ld_unit_zero (S := S1024x256) hz2, View.ld_unit_zero (S := S1024x1024) hz2, View.ld_unit_zero (S := S1024x1) hz2, View.readCov_unit_zero (S := S1024x1) _ hz2]

set_option maxHeartbeats 4000000 in
/-- j = 7: the adjacency block is stored, the accumulator gains the last block's row sums, and the degree factors
    are the reciprocal square roots of the accumulated row sums. -/
theorem run0_last (hc0 : ¬cond0_0 i) (hc1 : cond0_1 i) (xs : Vec F S1024x1 .f32) (E : Set ℕ) (K : PUnit → sProp 𝕄) :
    iprop(owns (c : Thread nD τ) M0 fullShare x0 ∗ owns (c : Thread nD τ) M1 fullShare x1 ∗ owns (c : Thread nD τ) M2 fullShare x2
        ∗ (∃ d, owns (c : Thread nD τ) M3 fullShare d) ∗ (∃ d, owns (c : Thread nD τ) M4 fullShare d) ∗ owns (c : Thread nD τ) M5 fullShare xs
        ∗ (iprop(owns (c : Thread nD τ) M0 fullShare x0 ∗ owns (c : Thread nD τ) M1 fullShare x1 ∗ owns (c : Thread nD τ) M2 fullShare x2
            ∗ owns (c : Thread nD τ) M3 fullShare (k0_pay4 i x0 x1 x2) ∗ owns (c : Thread nD τ) M4 fullShare (k0_pay2 (k0_pay1 (k0_pay5 i x0 x1 x2 xs))) ∗ owns (c : Thread nD τ) M5 fullShare (k0_pay1 (k0_pay5 i x0 x1 x2 xs))) -∗ K ⟨⟩))
      ⊢ wp frame (wpE (defs₀ (F := F)) Variants.none c none) E (cc0__a1_kernel i M0 h0 M1 h1 M2 h2 M3 h3 M4 h4 M5 h5) K := by
  simp only [cc0__a1_kernel_eq_skeleton]; unfold cc0__a1_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, Hk⟩
  obtain rfl := h0.eq_unread hf0; obtain rfl := h1.eq_unread hf1; obtain rfl := h2.eq_unread hf2; obtain rfl := h5.eq_unread hf5
  sl_exec (disch := first | exact hc0 | exact hc1)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; swap; · iexact H3
    ipureintro
    sl_unfold_words
    rw [View.read_writes_eq_canon _ _ _ (fun y => ⟨_, List.mem_cons_self, View.mem_set_unit_zero hz2 inb_S1024x1024_S1024x1024_0_0 y⟩)]
    sl_unfold_words
    rw [View.canon_cons_unit_zero hz2]
    simp only [View.readAt_eq_ld, h0.read_unread, h1.read_unread, h2.read_unread, h5.read_unread, View.ld_unit_zero (S := S1024x256) hz2, View.ld_unit_zero (S := S1024x1024) hz2, View.ld_unit_zero (S := S1024x1) hz2, View.readCov_unit_zero (S := S1024x1) _ hz2]
  isplitl [H4]
  · iexists _; isplitr; swap; · iexact H4
    ipureintro
    sl_unfold_words
    rw [View.read_writes_eq_canon _ _ _ (fun y => ⟨_, List.mem_cons_self, View.mem_set_unit_zero hz2 inb_S1024x1_S1024x1_0_0 y⟩)]
    sl_unfold_words
    rw [View.canon_cons_unit_zero hz2]
    simp only [View.readAt_eq_ld, h0.read_unread, h1.read_unread, h2.read_unread, h5.read_unread, View.ld_unit_zero (S := S1024x256) hz2, View.ld_unit_zero (S := S1024x1024) hz2, View.ld_unit_zero (S := S1024x1) hz2, View.readCov_unit_zero (S := S1024x1) _ hz2]
  iexists _; isplitr; swap; · iexact H5
  ipureintro
  sl_unfold_words
  rw [View.read_writes_eq_canon _ _ _ (fun y => ⟨_, List.mem_cons_self, View.mem_set_unit_zero hz2 inb_S1024x1_S1024x1_0_0 y⟩)]
  sl_unfold_words
  rw [View.canon_cons_unit_zero hz2]
  simp only [View.readAt_eq_ld, h0.read_unread, h1.read_unread, h2.read_unread, h5.read_unread, View.ld_unit_zero (S := S1024x256) hz2, View.ld_unit_zero (S := S1024x1024) hz2, View.ld_unit_zero (S := S1024x1) hz2, View.readCov_unit_zero (S := S1024x1) _ hz2]

end Runs

end Cert.Kernel.Hand

end
-- ==== Proof.KData0.lean ====
/-
  The first kernel's region as a pipeline: what each window's staging buffer and the row-sum accumulator hold at
  every grid point, as values. Point t = 8·i + j handles row block i and column block j. The three input windows
  hold their blocks of the features (rows i), the features (rows j) and A; the adjacency window after point t holds
  the adjacency block formed from them; the accumulator after point t is the sum, over the column blocks 0..j of row
  block i, of the adjacency blocks' row sums, started from zero at j = 0; the degree-factor window at j = 7 holds the
  reciprocal square roots of the accumulated row sums. The body obligation at every point follows from the three
  case runs.
-/
import proofs.«175017_j25469156065919_2_alg».proof.Proof.KRuns0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The row-sum accumulator: a whole scoped buffer of the kernel's own. -/
abbrev scM0 : Memref sig .tc .vmem S1024x1 .f32 := Memref.whole cc0_scratch0

/-- THE ACCUMULATION: what the accumulator holds after point n — this point's row sums added to zero where the
    column block is the first of its row (n ≡ 0 mod 8), to what the point before left otherwise. -/
def acc0 (c : Dev nD) : (n : ℕ) → n < cfg0.N → Vec F S1024x1 .f32
  | 0, hn => k0_pay1 (k0_pay5 (grid0.coords ⟨0, hn⟩) (iblk0 V c 0 ⟨0, hn⟩) (iblk0 V c 1 ⟨0, hn⟩) (iblk0 V c 2 ⟨0, hn⟩) (k0_pay3 (F := F)))
  | n + 1, hn =>
    if (n + 1) % 8 = 0 then k0_pay1 (k0_pay5 (grid0.coords ⟨n + 1, hn⟩) (iblk0 V c 0 ⟨n + 1, hn⟩) (iblk0 V c 1 ⟨n + 1, hn⟩) (iblk0 V c 2 ⟨n + 1, hn⟩) (k0_pay3 (F := F)))
    else k0_pay1 (k0_pay5 (grid0.coords ⟨n + 1, hn⟩) (iblk0 V c 0 ⟨n + 1, hn⟩) (iblk0 V c 1 ⟨n + 1, hn⟩) (iblk0 V c 2 ⟨n + 1, hn⟩) (acc0 c n (Nat.lt_of_succ_lt hn)))

theorem acc0_first (c : Dev nD) (t : Fin cfg0.N) (h0 : t.val % 8 = 0) :
    acc0 V c t.val t.isLt = k0_pay1 (k0_pay5 (grid0.coords t) (iblk0 V c 0 t) (iblk0 V c 1 t) (iblk0 V c 2 t) (k0_pay3 (F := F))) := by
  obtain ⟨n, hn⟩ := t
  cases n with
  | zero => rfl
  | succ n => exact if_pos h0

theorem acc0_next (c : Dev nD) (t : Fin cfg0.N) (h0 : ¬t.val % 8 = 0) :
    acc0 V c t.val t.isLt = k0_pay1 (k0_pay5 (grid0.coords t) (iblk0 V c 0 t) (iblk0 V c 1 t) (iblk0 V c 2 t) (acc0 V c (t.val - 1) (Nat.lt_of_le_of_lt (Nat.sub_le _ _) t.isLt))) := by
  obtain ⟨n, hn⟩ := t
  cases n with
  | zero => exact absurd (Nat.zero_mod _) h0
  | succ n => exact if_neg h0

/-- The scoped buffers other than the accumulator, each whole at some contents: what the body never touches. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f))

/-- The scoped rest of the region is the accumulator at some contents and those buffers. -/
theorem rest0_split (c : Dev nD) :
    (Pipeline.scopedRest (Ix := Unit) (Name := ℕ) (U := UR sig nD τ) (Lvl := ℕ) (Val := Elt F) spec0 c : sProp 𝕄)
      ⊢ iprop(others0 (F := F) c ∗ ∃ d, owns (c : Thread nD τ) scM0 fullShare d) := by
  rw [scopedRest0_eq]; unfold others0
  iintro ⟨⟨%f, HS⟩, G0, G1, G2, G3, G4, G5, G6, G7, G8⟩
  isplitl [G0 G1 G2 G3 G4 G5 G6 G7 G8]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    iexact G8
  iexists f; rw [owns_whole]; iexact HS

theorem rest0_join (c : Dev nD) :
    iprop(others0 (F := F) c ∗ ∃ d, owns (c : Thread nD τ) scM0 fullShare d)
      ⊢ (Pipeline.scopedRest (Ix := Unit) (Name := ℕ) (U := UR sig nD τ) (Lvl := ℕ) (Val := Elt F) spec0 c : sProp 𝕄) := by
  rw [scopedRest0_eq]; unfold others0
  simp only [scM0, owns_whole]
  iintro ⟨⟨G0, G1, G2, G3, G4, G5, G6, G7, G8⟩, ⟨%d, HS⟩⟩
  isplitl [HS]; · iexists d; iexact HS
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  iexact G8

/-- The region's invariant before position n: the untouched scoped buffers, and the accumulator at anything before
    the first point, at what the point before left afterwards. -/
def PhiS0 (c : Dev nD) : (n : ℕ) → n ≤ cfg0.N → sProp 𝕄
  | 0, _ => iprop(others0 (F := F) c ∗ ∃ d, owns (c : Thread nD τ) scM0 fullShare d)
  | n + 1, hn => iprop(others0 (F := F) c ∗ owns (c : Thread nD τ) scM0 fullShare (acc0 V c n hn))

theorem PhiS0_succ (c : Dev nD) (n : ℕ) (hn : n < cfg0.N) :
    PhiS0 V c (n + 1) hn = iprop(others0 (F := F) c ∗ owns (c : Thread nD τ) scM0 fullShare (acc0 V c n hn)) := rfl

theorem PhiS0_pos (c : Dev nD) (n : ℕ) (h : n ≤ cfg0.N) (hz : n ≠ 0) :
    PhiS0 V c n h = iprop(others0 (F := F) c ∗ owns (c : Thread nD τ) scM0 fullShare (acc0 V c (n - 1) (by omega))) := by
  cases n with
  | zero => exact absurd rfl hz
  | succ n => rfl

/-- At any position the accumulator is held at SOME contents. -/
theorem PhiS0_weak (c : Dev nD) (n : ℕ) (h : n ≤ cfg0.N) :
    PhiS0 V c n h ⊢ iprop(others0 (F := F) c ∗ ∃ d, owns (c : Thread nD τ) scM0 fullShare d) := by
  cases n with
  | zero => exact .rfl
  | succ n =>
    rw [PhiS0_succ]
    iintro ⟨Ho, HS⟩
    isplitl [Ho]; · iexact Ho
    iexists _; iexact HS

/-- The region's proof data on core c, from the entry contents V. The two feature windows read one array, each at
    half of the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay4 (grid0.coords t) (iblk0 V c 0 t) (iblk0 V c 1 t) (iblk0 V c 2 t)
    | ⟨4, _⟩ => k0_pay2 (acc0 V c t.val t.isLt)
  Φ t := PhiS0 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay4 (grid0.coords t) (iblk0 V c 0 t) (iblk0 V c 1 t) (iblk0 V c 2 t) := by dsimp only [dat0]
theorem after0_4 (c : Dev nD) (t : Fin cfg0.N) : (dat0 V c).after 4 t = k0_pay2 (acc0 V c t.val t.isLt) := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' buffers hold their blocks; the point's residue mod 8 says which case it is;
    the invariant hands over the accumulator (at anything where it is about to be cleared) and takes it back at this
    point's sum; the adjacency window is left at this point's block; the degree-factor window is handed back
    untouched unless this is the last column block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  have hN : t.val < 64 := lt_of_lt_of_eq t.isLt (show cfg0.N = 64 from N_0)
  rw [PhiS0_castSucc V c t]
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 t hc1) (noFlush0_4 t hc1)]
    rw [acc0_first V c t h0]
    iintro ⟨HΦ, Ho, ⟨%d0, H0⟩, ⟨%d1, H1⟩, ⟨%d2, H2⟩, ⟨%d3, H3⟩, ⟨%d4, H4⟩⟩
    ihave HΦ' := (PhiS0_weak V c _ _) $$ HΦ
    icases HΦ' with ⟨Hoth, HS⟩
    iapply (run0_first c (grid0.coords t) _ _ _ _ _ _ _ _ _ _ _ _ (iblk0 V c 0 t) (iblk0 V c 1 t) (iblk0 V c 2 t) hc0 hc1 _ Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [Hoth HS]
    · isplitl [Hoth]; · iexact Hoth
      iexact HS
    isplitl [Ho]; · iexact Ho
    isplitl [H0]; · iexact H0
    isplitl [H1]; · iexact H1
    isplitl [H2]; · iexact H2
    isplitl [H3]; · iexact H3
    iexists _; iexact H4
  · have hz : t.val ≠ 0 := fun e => h0 (by rw [e])
    have hc0 : ¬cond0_0 (grid0.coords t) := fun h => h0 ((hcond0_0 t).mp h)
    rw [PhiS0_pos V c _ _ hz, acc0_next V c t h0]
    by_cases h1 : t.val % 8 = 7
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4, acc0_next V c t h0]
      iintro ⟨⟨Hoth, HS⟩, Ho, ⟨%d0, H0⟩, ⟨%d1, H1⟩, ⟨%d2, H2⟩, ⟨%d3, H3⟩, ⟨%d4, H4⟩⟩
      iapply (run0_last c (grid0.coords t) _ _ _ _ _ _ _ _ _ _ _ _ (iblk0 V c 0 t) (iblk0 V c 1 t) (iblk0 V c 2 t) hc0 hc1 _ Set.univ _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, H3, H4, HS⟩
      isplitl [Hoth HS]
      · isplitl [Hoth]; · iexact Hoth
        iexact HS
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => h1 ((hcond0_1 t).mp h)
      rw [Dat.leavesExact_idle (dat0 V c) 4 t (idleAt0_4 t hc1) (noFlush0_4 t hc1)]
      iintro ⟨⟨Hoth, HS⟩, Ho, ⟨%d0, H0⟩, ⟨%d1, H1⟩, ⟨%d2, H2⟩, ⟨%d3, H3⟩, ⟨%d4, H4⟩⟩
      iapply (run0_mid c (grid0.coords t) _ _ _ _ _ _ _ _ _ _ _ _ (iblk0 V c 0 t) (iblk0 V c 1 t) (iblk0 V c 2 t) hc0 hc1 _ _ Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [Hoth HS]
      · isplitl [Hoth]; · iexact Hoth
        iexact HS
      isplitl [Ho]; · iexact Ho
      isplitl [H0]; · iexact H0
      isplitl [H1]; · iexact H1
      isplitl [H2]; · iexact H2
      isplitl [H3]; · iexact H3
      iexists _; iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) :
    (Pipeline.scopedRest (Ix := Unit) (Name := ℕ) (U := UR sig nD τ) (Lvl := ℕ) (Val := Elt F) spec0 c : sProp 𝕄) ⊢ (dat0 V c).Φ 0 :=
  rest0_split c

/-- and after the last point the invariant gives it back, the accumulator's contents forgotten. -/
theorem hout0 (c : Dev nD) :
    (dat0 V c).Φ (Fin.last cfg0.N) ⊢ (Pipeline.scopedRest (Ix := Unit) (Name := ℕ) (U := UR sig nD τ) (Lvl := ℕ) (Val := Elt F) spec0 c : sProp 𝕄) := by
  rw [show (dat0 V c).Φ (Fin.last cfg0.N) = PhiS0 V c (Fin.last cfg0.N).val (Nat.le_of_lt_succ (Fin.last cfg0.N).isLt) from rfl]
  exact (PhiS0_weak V c _ _).trans (rest0_join c)

end Cert.Kernel.Hand

end
-- ==== Proof.KData1.lean ====
/-
  The second kernel's region as a pipeline: what each window's staging buffer and the accumulator hold at every
  grid point, as values. Point t = 8·i + j handles row block i and column block j. The three input windows hold
  their blocks of the adjacency, the degree factors and the scaled features; the accumulator after point t is the
  sum, over the column blocks 0..j of row block i, of the products adjacency-block × scaled-feature-block, started
  from zero at j = 0; the output window at j = 7 is the accumulated rows scaled by the degree factors and passed
  through the leaky rectifier. The body obligation at every point follows from the three case runs.
-/
import proofs.«175017_j25469156065919_2_alg».proof.Proof.KRuns1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array at the region's entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S2048x64 .f32 := Memref.whole cc1_scratch0

/-- THE ACCUMULATION: what the accumulator holds after point n — this point's product added to zero where the
    column block is the first of its row (n ≡ 0 mod 8), to what the point before left otherwise. -/
def acc1 (c : Dev nD) : (n : ℕ) → n < cfg1.N → Vec F S2048x64 .f32
  | 0, hn => k1_pay2 (iblk1 V c 0 ⟨0, hn⟩) (iblk1 V c 2 ⟨0, hn⟩) (k1_pay1 (F := F))
  | n + 1, hn =>
    if (n + 1) % 8 = 0 then k1_pay2 (iblk1 V c 0 ⟨n + 1, hn⟩) (iblk1 V c 2 ⟨n + 1, hn⟩) (k1_pay1 (F := F))
    else k1_pay2 (iblk1 V c 0 ⟨n + 1, hn⟩) (iblk1 V c 2 ⟨n + 1, hn⟩) (acc1 c n (Nat.lt_of_succ_lt hn))

theorem acc1_first (c : Dev nD) (t : Fin cfg1.N) (h0 : t.val % 8 = 0) :
    acc1 V c t.val t.isLt = k1_pay2 (iblk1 V c 0 t) (iblk1 V c 2 t) (k1_pay1 (F := F)) := by
  obtain ⟨n, hn⟩ := t
  cases n with
  | zero => rfl
  | succ n => exact if_pos h0

theorem acc1_next (c : Dev nD) (t : Fin cfg1.N) (h0 : ¬t.val % 8 = 0) :
    acc1 V c t.val t.isLt = k1_pay2 (iblk1 V c 0 t) (iblk1 V c 2 t) (acc1 V c (t.val - 1) (Nat.lt_of_le_of_lt (Nat.sub_le _ _) t.isLt)) := by
  obtain ⟨n, hn⟩ := t
  cases n with
  | zero => exact absurd (Nat.zero_mod _) h0
  | succ n => exact if_neg h0

/-- The scoped buffers other than the accumulator, each whole at some contents: what the body never touches. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_scratch0), ((c : Thread nD τ).loc cc0_scratch0) ↦{fullShare} f))

/-- The scoped rest of the region is those buffers and the accumulator at some contents. -/
theorem rest1_split (c : Dev nD) :
    (Pipeline.scopedRest (Ix := Unit) (Name := ℕ) (U := UR sig nD τ) (Lvl := ℕ) (Val := Elt F) spec1 c : sProp 𝕄)
      ⊢ iprop(others1 (F := F) c ∗ ∃ d, owns (c : Thread nD τ) scM1 fullShare d) := by
  rw [scopedRest1_eq]; unfold others1
  iintro ⟨G0, G1, G2, G3, G4, G5, G6, G7, G8, G9, G10, ⟨%f, HS⟩⟩
  isplitl [G0 G1 G2 G3 G4 G5 G6 G7 G8 G9 G10]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    iexact G10
  iexists f; rw [owns_whole]; iexact HS

theorem rest1_join (c : Dev nD) :
    iprop(others1 (F := F) c ∗ ∃ d, owns (c : Thread nD τ) scM1 fullShare d)
      ⊢ (Pipeline.scopedRest (Ix := Unit) (Name := ℕ) (U := UR sig nD τ) (Lvl := ℕ) (Val := Elt F) spec1 c : sProp 𝕄) := by
  rw [scopedRest1_eq]; unfold others1; simp only [scM1, owns_whole]
  iintro ⟨⟨G0, G1, G2, G3, G4, G5, G6, G7, G8, G9, G10⟩, ⟨%d, HS⟩⟩
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  iexists d; iexact HS

/-- The region's invariant before position n: the untouched scoped buffers, and the accumulator at anything before
    the first point, at what the point before left afterwards. -/
def PhiS1 (c : Dev nD) : (n : ℕ) → n ≤ cfg1.N → sProp 𝕄
  | 0, _ => iprop(others1 (F := F) c ∗ ∃ d, owns (c : Thread nD τ) scM1 fullShare d)
  | n + 1, hn => iprop(others1 (F := F) c ∗ owns (c : Thread nD τ) scM1 fullShare (acc1 V c n hn))

theorem PhiS1_succ (c : Dev nD) (n : ℕ) (hn : n < cfg1.N) :
    PhiS1 V c (n + 1) hn = iprop(others1 (F := F) c ∗ owns (c : Thread nD τ) scM1 fullShare (acc1 V c n hn)) := rfl

theorem PhiS1_pos (c : Dev nD) (n : ℕ) (h : n ≤ cfg1.N) (hz : n ≠ 0) :
    PhiS1 V c n h = iprop(others1 (F := F) c ∗ owns (c : Thread nD τ) scM1 fullShare (acc1 V c (n - 1) (by omega))) := by
  cases n with
  | zero => exact absurd rfl hz
  | succ n => rfl

/-- At any position the accumulator is held at SOME contents. -/
theorem PhiS1_weak (c : Dev nD) (n : ℕ) (h : n ≤ cfg1.N) :
    PhiS1 V c n h ⊢ iprop(others1 (F := F) c ∗ ∃ d, owns (c : Thread nD τ) scM1 fullShare d) := by
  cases n with
  | zero => exact .rfl
  | succ n =>
    rw [PhiS1_succ]
    iintro ⟨Ho, HS⟩
    isplitl [Ho]; · iexact Ho
    iexists _; iexact HS

/-- The region's proof data on core c, from the entry contents V. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (iblk1 V c 1 t) (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (iblk1 V c 1 t) (acc1 V c t.val t.isLt) := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the point's residue mod 8 says which case it is;
    the invariant hands over the accumulator (at anything where it is about to be cleared) and takes it back at this
    point's sum; the output window is handed back untouched unless this is the last column block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 32 := lt_of_lt_of_eq t.isLt (show cfg1.N = 32 from N_1)
  rw [PhiS1_castSucc V c t]
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [acc1_first V c t h0]
    iintro ⟨HΦ, Ho, ⟨%d0, H0⟩, ⟨%d1, H1⟩, ⟨%d2, H2⟩, ⟨%d3, H3⟩⟩
    ihave HΦ' := (PhiS1_weak V c _ _) $$ HΦ
    icases HΦ' with ⟨Hoth, HS⟩
    iapply (run1_first c (grid1.coords t) _ _ _ _ _ _ _ _ _ _ (iblk1 V c 0 t) (iblk1 V c 1 t) (iblk1 V c 2 t) hc0 hc1 _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [Hoth HS]
    · isplitl [Hoth]; · iexact Hoth
      iexact HS
    isplitl [Ho]; · iexact Ho
    isplitl [H0]; · iexact H0
    isplitl [H1]; · iexact H1
    isplitl [H2]; · iexact H2
    iexists _; iexact H3
  · have hz : t.val ≠ 0 := fun e => h0 (by rw [e])
    have hc0 : ¬cond1_0 (grid1.coords t) := fun h => h0 ((hcond1_0 t).mp h)
    rw [PhiS1_pos V c _ _ hz, acc1_next V c t h0]
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3, acc1_next V c t h0]
      iintro ⟨⟨Hoth, HS⟩, Ho, ⟨%d0, H0⟩, ⟨%d1, H1⟩, ⟨%d2, H2⟩, ⟨%d3, H3⟩⟩
      iapply (run1_last c (grid1.coords t) _ _ _ _ _ _ _ _ _ _ (iblk1 V c 0 t) (iblk1 V c 1 t) (iblk1 V c 2 t) hc0 hc1 _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hoth HS]
      · isplitl [Hoth]; · iexact Hoth
        iexact HS
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      iintro ⟨⟨Hoth, HS⟩, Ho, ⟨%d0, H0⟩, ⟨%d1, H1⟩, ⟨%d2, H2⟩, ⟨%d3, H3⟩⟩
      iapply (run1_mid c (grid1.coords t) _ _ _ _ _ _ _ _ _ _ (iblk1 V c 0 t) (iblk1 V c 1 t) (iblk1 V c 2 t) hc0 hc1 _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Hoth HS]
      · isplitl [Hoth]; · iexact Hoth
        iexact HS
      isplitl [Ho]; · iexact Ho
      isplitl [H0]; · iexact H0
      isplitl [H1]; · iexact H1
      isplitl [H2]; · iexact H2
      iexists _; iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) :
    (Pipeline.scopedRest (Ix := Unit) (Name := ℕ) (U := UR sig nD τ) (Lvl := ℕ) (Val := Elt F) spec1 c : sProp 𝕄) ⊢ (dat1 V c).Φ 0 :=
  rest1_split c

/-- and after the last point the invariant gives it back, the accumulator's contents forgotten. -/
theorem hout1 (c : Dev nD) :
    (dat1 V c).Φ (Fin.last cfg1.N) ⊢ (Pipeline.scopedRest (Ix := Unit) (Name := ℕ) (U := UR sig nD τ) (Lvl := ℕ) (Val := Elt F) spec1 c : sProp 𝕄) := by
  rw [show (dat1 V c).Φ (Fin.last cfg1.N) = PhiS1 V c (Fin.last cfg1.N).val (Nat.le_of_lt_succ (Fin.last cfg1.N).isLt) from rfl]
  exact (PhiS1_weak V c _ _).trans (rest1_join c)

end Cert.Kernel.Hand

end
-- ==== Proof.KShare0.lean ====
/-
  The first kernel's region reads ONE array — the bf16 features — through two windows (the row block and the column
  block). At the region's entry the core's unscoped buffers are dealt to the five windows: the features' buffer to
  the two readers at the two halves of the full share, the adjacency input and the two results whole. At its exit
  they are put back, the two halves joined, the results at what the write-backs left.
-/
import proofs.«175017_j25469156065919_2_alg».proof.Proof.Gen.Kernel.Launch
import Idealize.ShloMosaic.Lib.Pipeline.Regions
import Idealize.ShloMosaic.Lib.Pipeline.RegionsLoop
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four distinct buffers behind the five windows. -/
theorem img0 : Finset.univ.image (Pipeline.arrRef spec0) = ({main_v33, main_arg1, main_v34_0, main_v34_1} : Finset (Ref sig .tc)) := by
  decide

section
variable (c : Dev nD) (dat : Dat τ (Elt F) Unit ℕ (UR sig nD τ) ℕ cfg0 c)
  (V : (b : Ref sig .tc) → Buf (Elt F) ((c : Thread nD τ).loc b))

set_option maxHeartbeats 8000000 in
theorem entry0_of (hq0 : dat.q 0 = fullShare.left) (hq1 : dat.q 1 = fullShare.right) (hq2 : dat.q 2 = fullShare)
    (hA : ∀ w, dat.A w = V (Pipeline.arrRef spec0 w)) :
    (unscopedBufs c V : sProp 𝕄) ⊢ iprop(dat.arrays (dat.arrAt · 0) ∗ Pipeline.unscopedRest spec0 c V) := by
  rw [Pipeline.unscopedBufs_split₀ cfgs 0 winFacts₀0.arr_unscoped c V]
  refine sep_mono ?_ .rfl
  unfold Pipeline.arrBufs Dat.arrays
  rw [show Finset.image (Pipeline.arrRef (cfgs 0).spec) Finset.univ = ({main_v33, main_arg1, main_v34_0, main_v34_1} : Finset (Ref sig .tc)) from img0, bigSep_W0]
  rw [BI.bigSep_insert (by decide), BI.bigSep_insert (by decide), BI.bigSep_insert (by decide), BI.bigSep_singleton]
  have e0 : ((cfg0.win 0).arr.view.loc (c : Thread nD τ) ↦[(cfg0.win 0).arr.view.set]{dat.share 0} dat.arrAt 0 0 : sProp 𝕄)
      = (((c : Thread nD τ).loc main_v33) ↦{fullShare.left} V main_v33) := by
    rw [(arr_whole0 0).set_eq_univ]; unfold Dat.share; rw [if_neg (by decide), hq0]
    show (_ ↦{_} dat.A 0 : sProp 𝕄) = _; rw [hA 0]
  have e1 : ((cfg0.win 1).arr.view.loc (c : Thread nD τ) ↦[(cfg0.win 1).arr.view.set]{dat.share 1} dat.arrAt 1 0 : sProp 𝕄)
      = (((c : Thread nD τ).loc main_v33) ↦{fullShare.right} V main_v33) := by
    rw [(arr_whole0 1).set_eq_univ]; unfold Dat.share; rw [if_neg (by decide), hq1]
    show (_ ↦{_} dat.A 1 : sProp 𝕄) = _; rw [hA 1]
  have e2 : ((cfg0.win 2).arr.view.loc (c : Thread nD τ) ↦[(cfg0.win 2).arr.view.set]{dat.share 2} dat.arrAt 2 0 : sProp 𝕄)
      = (((c : Thread nD τ).loc main_arg1) ↦{fullShare} V main_arg1) := by
    rw [(arr_whole0 2).set_eq_univ]; unfold Dat.share; rw [if_neg (by decide), hq2]
    show (_ ↦{_} dat.A 2 : sProp 𝕄) = _; rw [hA 2]
  have e3 : ((cfg0.win 3).arr.view.loc (c : Thread nD τ) ↦[(cfg0.win 3).arr.view.set]{dat.share 3} dat.arrAt 3 0 : sProp 𝕄)
      = (((c : Thread nD τ).loc main_v34_0) ↦{fullShare} V main_v34_0) := by
    rw [(arr_whole0 3).set_eq_univ]; unfold Dat.share; rw [if_pos (by decide)]
    show (_ ↦{_} dat.A 3 : sProp 𝕄) = _; rw [hA 3]
  have e4 : ((cfg0.win 4).arr.view.loc (c : Thread nD τ) ↦[(cfg0.win 4).arr.view.set]{dat.share 4} dat.arrAt 4 0 : sProp 𝕄)
      = (((c : Thread nD τ).loc main_v34_1) ↦{fullShare} V main_v34_1) := by
    rw [(arr_whole0 4).set_eq_univ]; unfold Dat.share; rw [if_pos (by decide)]
    show (_ ↦{_} dat.A 4 : sProp 𝕄) = _; rw [hA 4]
  dsimp only
  rw [e0, e1, e2, e3, e4]
  show iprop(_ ∗ _ ∗ _ ∗ _) ⊢ _
  iintro ⟨H33, H1, H340, H341⟩
  ihave H33' := (pointsTo_share (PosShare.mem_left_op_right fullShare)).1 $$ H33
  icases H33' with ⟨Hl, Hr⟩
  isplitl [Hl]; · iexact Hl
  isplitl [Hr]; · iexact Hr
  isplitl [H1]; · iexact H1
  isplitl [H340]; · iexact H340
  iexact H341

set_option maxHeartbeats 8000000 in
theorem exit0_of (hq0 : dat.q 0 = fullShare.left) (hq1 : dat.q 1 = fullShare.right) (hq2 : dat.q 2 = fullShare)
    (hA : ∀ w, dat.A w = V (Pipeline.arrRef spec0 w))
    (V' : (b : Ref sig .tc) → Buf (Elt F) ((c : Thread nD τ).loc b))
    (h3 : V' main_v34_0 = dat.arrAt 3 cfg0.N) (h4 : V' main_v34_1 = dat.arrAt 4 cfg0.N)
    (hrest' : ∀ b : Ref sig .tc, b ≠ main_v34_0 → b ≠ main_v34_1 → V' b = V b) :
    iprop(dat.arrays (dat.arrAt · cfg0.N) ∗ Pipeline.unscopedRest spec0 c V) ⊢ (unscopedBufs c V' : sProp 𝕄) := by
  have hrest : ∀ b : Ref sig .tc, b ≠ main_v34_0 → b ≠ main_v34_1 → V b = V' b := fun b h0 h1 => (hrest' b h0 h1).symm
  rw [Pipeline.unscopedBufs_split₀ cfgs 0 winFacts₀0.arr_unscoped c V']
  refine sep_mono ?_ (Entails.of_eq ?_)
  · unfold Pipeline.arrBufs Dat.arrays
    rw [show Finset.image (Pipeline.arrRef (cfgs 0).spec) Finset.univ = ({main_v33, main_arg1, main_v34_0, main_v34_1} : Finset (Ref sig .tc)) from img0, bigSep_W0]
    rw [BI.bigSep_insert (by decide), BI.bigSep_insert (by decide), BI.bigSep_insert (by decide), BI.bigSep_singleton]
    have e0 : ((cfg0.win 0).arr.view.loc (c : Thread nD τ) ↦[(cfg0.win 0).arr.view.set]{dat.share 0} dat.arrAt 0 cfg0.N : sProp 𝕄)
        = (((c : Thread nD τ).loc main_v33) ↦{fullShare.left} V' main_v33) := by
      rw [(arr_whole0 0).set_eq_univ]; unfold Dat.share; rw [if_neg (by decide), hq0]
      rw [dat.arrAt_in 0 rfl, hA 0, hrest main_v33 (by decide) (by decide)]
    have e1 : ((cfg0.win 1).arr.view.loc (c : Thread nD τ) ↦[(cfg0.win 1).arr.view.set]{dat.share 1} dat.arrAt 1 cfg0.N : sProp 𝕄)
        = (((c : Thread nD τ).loc main_v33) ↦{fullShare.right} V' main_v33) := by
      rw [(arr_whole0 1).set_eq_univ]; unfold Dat.share; rw [if_neg (by decide), hq1]
      rw [dat.arrAt_in 1 rfl, hA 1, hrest main_v33 (by decide) (by decide)]
    have e2 : ((cfg0.win 2).arr.view.loc (c : Thread nD τ) ↦[(cfg0.win 2).arr.view.set]{dat.share 2} dat.arrAt 2 cfg0.N : sProp 𝕄)
        = (((c : Thread nD τ).loc main_arg1) ↦{fullShare} V' main_arg1) := by
      rw [(arr_whole0 2).set_eq_univ]; unfold Dat.share; rw [if_neg (by decide), hq2]
      rw [dat.arrAt_in 2 rfl, hA 2, hrest main_arg1 (by decide) (by decide)]
    have e3 : ((cfg0.win 3).arr.view.loc (c : Thread nD τ) ↦[(cfg0.win 3).arr.view.set]{dat.share 3} dat.arrAt 3 cfg0.N : sProp 𝕄)
        = (((c : Thread nD τ).loc main_v34_0) ↦{fullShare} V' main_v34_0) := by
      rw [(arr_whole0 3).set_eq_univ]; unfold Dat.share; rw [if_pos (by decide)]
      rw [h3]
    have e4 : ((cfg0.win 4).arr.view.loc (c : Thread nD τ) ↦[(cfg0.win 4).arr.view.set]{dat.share 4} dat.arrAt 4 cfg0.N : sProp 𝕄)
        = (((c : Thread nD τ).loc main_v34_1) ↦{fullShare} V' main_v34_1) := by
      rw [(arr_whole0 4).set_eq_univ]; unfold Dat.share; rw [if_pos (by decide)]
      rw [h4]
    dsimp only
    rw [e0, e1, e2, e3, e4]
    show _ ⊢ iprop(_ ∗ _ ∗ _ ∗ _)
    iintro ⟨Hl, Hr, H1, H340, H341⟩
    ihave H33 := (pointsTo_share (PosShare.mem_left_op_right fullShare)).2 $$ [Hl Hr]
    · isplitl [Hl]; · iexact Hl
      iexact Hr
    isplitl [H33]; · iexact H33
    isplitl [H1]; · iexact H1
    isplitl [H340]; · iexact H340
    iexact H341
  · unfold Pipeline.unscopedRest
    refine bigSep_congr fun b hb => ?_
    have hb' : b ∉ ({main_v33, main_arg1, main_v34_0, main_v34_1} : Finset (Ref sig .tc)) := by
      have := (Finset.mem_sdiff.mp hb).2; rwa [img0] at this
    rw [hrest b (fun e => hb' (by rw [e]; decide)) (fun e => hb' (by rw [e]; decide))]

end

end Cert.Kernel.Hand

end
-- ==== Proof.KMainRun.lean ====
/-
  The whole program as a run: host operations, the first kernel's region, three host operations, the second
  kernel's region. The contents of every unscoped buffer are followed from the launch through each of the four
  segments (a host stretch applies its operations; a region leaves its inputs as they were and its results at what
  the write-backs of its grid points leave), each region is entered from the thread state the segment before it
  left, and at the end every unscoped buffer — the arguments and the two results among them — is read off the last
  of these contents.
-/
import proofs.«175017_j25469156065919_2_alg».proof.Proof.KData0
import proofs.«175017_j25469156065919_2_alg».proof.Proof.KData1
import proofs.«175017_j25469156065919_2_alg».proof.Proof.KShare0
import proofs.«175017_j25469156065919_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => m (c, b)
/-- After the host operations before the first region. -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- After the first region: its two results at what the write-backs leave, every other buffer as it was. -/
def W2 (c : Dev nD) : Valuation τ sig (Elt F) :=
  Function.update (Function.update (W1 m c) (Proc.devRef .tc main_v34_0) ((dat0 (E1 m) c).arrAt 3 cfg0.N))
    (Proc.devRef .tc main_v34_1) ((dat0 (E1 m) c).arrAt 4 cfg0.N)
theorem W2_v34_0 (c : Dev nD) : W2 m c (Proc.devRef .tc main_v34_0) = (dat0 (E1 m) c).arrAt 3 cfg0.N := by
  unfold W2; rw [Function.update_of_ne (StableHlo.devRef_ne_of_ne (by decide)), Function.update_self]
theorem W2_v34_1 (c : Dev nD) : W2 m c (Proc.devRef .tc main_v34_1) = (dat0 (E1 m) c).arrAt 4 cfg0.N := by
  unfold W2; rw [Function.update_self]
theorem W2_of_ne (c : Dev nD) (b : Ref sig .tc) (h0 : b ≠ main_v34_0) (h1 : b ≠ main_v34_1) :
    W2 m c (Proc.devRef .tc b) = W1 m c (Proc.devRef .tc b) := by
  unfold W2; rw [Function.update_of_ne (StableHlo.devRef_ne_of_ne h1), Function.update_of_ne (StableHlo.devRef_ne_of_ne h0)]
abbrev E2 : (c : Dev nD) → (b : Ref sig .tc) → Buf (Elt F) ((c : Thread nD τ).loc b) := fun c b => W2 m c b
/-- After the three host operations between the regions. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- After the second region. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- A buffer that no host operation writes and no region has as a result ends as launched. -/
theorem W4_keep (c : Dev nD) (r : Ref sig .tc) (h1 : ∀ w, Pipeline.arrRef spec1 w ≠ r) (h2 : r ∉ (hostOps1_W : List (Ref sig .tc)))
    (h3 : r ≠ main_v34_0) (h4 : r ≠ main_v34_1) (h5 : r ∉ (hostOps0_W : List (Ref sig .tc))) :
    W4 m c (Proc.devRef .tc r) = m ((c : Thread nD τ).loc r) :=
  (W4_of_ne m c r h1).trans <| (StableHlo.after_of_writes_sub hostOps1 _ hostOps1_writes h2).trans <|
    (W2_of_ne m c r h3 h4).trans <| (StableHlo.after_of_writes_sub hostOps0 _ hostOps0_writes h5).trans rfl

theorem W4_main_arg0 (c : Dev nD) : W4 m c (Proc.devRef .tc main_arg0) = m ((c : Thread nD τ).loc main_arg0) :=
  W4_keep m c main_arg0 (by decide) (by decide) (by decide) (by decide) (by decide)
theorem W4_main_arg1 (c : Dev nD) : W4 m c (Proc.devRef .tc main_arg1) = m ((c : Thread nD τ).loc main_arg1) :=
  W4_keep m c main_arg1 (by decide) (by decide) (by decide) (by decide) (by decide)
theorem W4_main_arg2 (c : Dev nD) : W4 m c (Proc.devRef .tc main_arg2) = m ((c : Thread nD τ).loc main_arg2) :=
  W4_keep m c main_arg2 (by decide) (by decide) (by decide) (by decide) (by decide)
theorem W4_main_arg3 (c : Dev nD) : W4 m c (Proc.devRef .tc main_arg3) = m ((c : Thread nD τ).loc main_arg3) :=
  W4_keep m c main_arg3 (by decide) (by decide) (by decide) (by decide) (by decide)
theorem W4_main_arg4 (c : Dev nD) : W4 m c (Proc.devRef .tc main_arg4) = m ((c : Thread nD τ).loc main_arg4) :=
  W4_keep m c main_arg4 (by decide) (by decide) (by decide) (by decide) (by decide)
theorem W4_main_arg5 (c : Dev nD) : W4 m c (Proc.devRef .tc main_arg5) = m ((c : Thread nD τ).loc main_arg5) :=
  W4_keep m c main_arg5 (by decide) (by decide) (by decide) (by decide) (by decide)
theorem W4_main_arg6 (c : Dev nD) : W4 m c (Proc.devRef .tc main_arg6) = m ((c : Thread nD τ).loc main_arg6) :=
  W4_keep m c main_arg6 (by decide) (by decide) (by decide) (by decide) (by decide)
theorem W4_main_arg7 (c : Dev nD) : W4 m c (Proc.devRef .tc main_arg7) = m ((c : Thread nD τ).loc main_arg7) :=
  W4_keep m c main_arg7 (by decide) (by decide) (by decide) (by decide) (by decide)

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: its five windows' arrays dealt out of the unscoped buffers (the shared
    features' buffer by halves) and put back; nothing but the scoped rest enters its invariant. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X _ := BI.emp
  Y _ := BI.emp
  Z c := iprop(Pipeline.unscopedRest (Ix := Unit) (Name := ℕ) (U := UR sig nD τ) (Lvl := ℕ) spec0 c (E1 m c) ∗ ∃ r, prngReg c r)
  hentry c := by
    rw [Pipeline.ownSems0_none]
    have hsplit := entry0_of c (dat0 (E1 m) c) (E1 m c) rfl rfl rfl (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = (dat0 (E1 m) c).Φ 0 from rfl]
    iintro ⟨-, -, Hr⟩
    iapply (hin0 (E1 m) c); iexact Hr
  hout c := by
    rw [Pipeline.ownSems0_none, show (pdats m 0 c).Φ (Fin.last _) = (dat0 (E1 m) c).Φ (Fin.last cfg0.N) from rfl]
    iintro H
    isplitr; · iempintro
    isplitr; · iempintro
    iapply (hout0 (E1 m) c); iexact H
  hexit c := by
    have hjoin := exit0_of c (dat0 (E1 m) c) (E1 m c) rfl rfl rfl (fun _ => rfl) (E2 m c) (W2_v34_0 m c) (W2_v34_1 m c)
      (fun b h0 h1 => W2_of_ne m c b h0 h1)
    rw [Pipeline.unscopedBufs_held] at hjoin
    iintro ⟨Ha, HO, -, Hrest, Hp⟩
    imodintro
    isplitl [Ha Hrest]
    · iapply hjoin
      isplitl [Ha]; · iexact Ha
      iexact Hrest
    isplitl [Hp]; · iexact Hp
    unfold Pipeline.Dat.owesAt Pipeline.owesWithin
    icases HO with ⟨%W, -, HO⟩; iexists W; iexact HO

set_option backward.isDefEq.respectTransparency.types false in
/-- The second region over the thread state: its four distinct arrays split out of the unscoped buffers and put
    back at the exit contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X _ := BI.emp
  Y _ := BI.emp
  Z c := iprop(Pipeline.unscopedRest (Ix := Unit) (Name := ℕ) (U := UR sig nD τ) (Lvl := ℕ) spec1 c (E3 m c) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = (dat1 (E3 m) c).Φ 0 from rfl]
    iintro ⟨-, -, Hr⟩
    iapply (hin1 (E3 m) c); iexact Hr
  hout c := by
    rw [Pipeline.ownSems0_none, show (pdats m 1 c).Φ (Fin.last _) = (dat1 (E3 m) c).Φ (Fin.last cfg1.N) from rfl]
    iintro H
    isplitr; · iempintro
    isplitr; · iempintro
    iapply (hout1 (E3 m) c); iexact H
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, -, Hrest, Hp⟩
    imodintro
    isplitl [Ha Hrest Hp]
    · isplitl [Ha Hrest]
      · iapply hjoin; isplitl [Ha] <;> iassumption
      iexact Hp
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c)⟩) (run_all m ρ)

end Cert.Kernel.Hand

end
-- ==== Proof.AdjScalar.lean ====
/-
  The float constants of the adjacency stage as extended reals, and the scalar facts the law needs:
  the logistic of ANY extended real is a real in [0, 1]; the reciprocal square root of a real r ≥ 1 is
  r to the power -1/2, a positive real; a nonnegative real factor distributes over a finite sum of
  arbitrary extended reals.
-/
import Idealize.ShloMosaic.PureOps.Ideal

noncomputable section

open scoped BigOperators

namespace Cert.Adj

open Idealize.ShloMosaic

/-- The exponent word of the reference's power denotes the real -1/2. -/
theorem ofBits_neg_half : Ideal.ofBits .f32 0xBF000000#32 = ((-(1 / 2) : ℝ) : EReal) := by
  simp [Ideal.ofBits, Ideal.ieee, -EReal.coe_mul]; norm_num

/-- The clamp word (the f32 nearest 0.1) denotes a real. -/
theorem ofBits_clamp_real : ∃ w : ℝ, Ideal.ofBits .f32 0x3DCCCCCD#32 = (w : EReal) := by
  simp [Ideal.ofBits, Ideal.ieee, -EReal.coe_mul]

/-- The logistic of every extended real — the infinities included — is a real between 0 and 1. -/
theorem logistic_real (x : EReal) : ∃ r : ℝ, 0 ≤ r ∧ r ≤ 1 ∧ Ideal.logistic x = (r : EReal) := by
  induction x using EReal.rec with
  | bot => exact ⟨0, le_refl _, zero_le_one, by simp⟩
  | top => exact ⟨1, zero_le_one, le_refl _, by simp⟩
  | coe r =>
    have hpos : 0 < Real.exp (-r) := Real.exp_pos _
    refine ⟨(1 + Real.exp (-r))⁻¹, ?_, ?_, Ideal.logistic_coe r⟩
    · positivity
    · exact inv_le_one_of_one_le₀ (by linarith)

/-- For a real r ≥ 1 the reciprocal square root and the power -1/2 are one positive real. -/
theorem rsqrt_eq_pow {r : ℝ} (hr : 1 ≤ r) :
    ∃ δ : ℝ, 0 < δ ∧ Ideal.rsqrt (r : EReal) = (δ : EReal)
      ∧ Ideal.pow (r : EReal) (Ideal.ofBits .f32 0xBF000000#32) = (δ : EReal) := by
  have h0 : 0 < r := by linarith
  refine ⟨(Real.sqrt r)⁻¹, inv_pos.2 (Real.sqrt_pos.2 h0), ?_, ?_⟩
  · rw [Ideal.rsqrt_coe, if_neg (not_lt.2 h0.le), if_neg h0.ne']
  · rw [ofBits_neg_half]
    show ((Real.rpow r (-(1 / 2)) : ℝ) : EReal) = _
    congr 1
    show r ^ (-(1 / 2 : ℝ)) = _
    rw [Real.rpow_neg h0.le, Real.sqrt_eq_rpow]

/-- A nonnegative real factor distributes over a finite sum of arbitrary extended reals. -/
theorem coe_mul_sum {α : Type*} {c : ℝ} (hc : 0 ≤ c) (s : Finset α) (f : α → EReal) :
    (c : EReal) * ∑ j ∈ s, f j = ∑ j ∈ s, (c : EReal) * f j := by
  classical
  induction s using Finset.induction_on with
  | empty => simp
  | insert a s ha ih =>
    rw [Finset.sum_insert ha, Finset.sum_insert ha,
      EReal.left_distrib_of_nonneg_of_ne_top (EReal.coe_nonneg.2 hc) (EReal.coe_ne_top c), ih]

end Cert.Adj

end
-- ==== Proof.AdjLaw.lean ====
/-
  The adjacency stage as mathematics, in the two arrangements the two programs use, and the law that
  they agree when the mask is binary.

  With s the score matrix (any extended reals), m the mask and e the identity matrix, the adjacency is
  a i j = max (logistic (s i j)) w * m i j + e i j. One arrangement takes d i = rsqrt (Σ_j a i j) and
  out i k = leaky (d i * Σ_j a i j * (d j * V j k)); the other takes d i = (Σ_j a i j) ^ (-1/2) and
  out i k = leaky (Σ_j ((a i j * d i) * d j) * V j k). When every m i j is 0 or 1, each a i j is a
  nonnegative real and a i i ≥ 1, so every row sum is a real ≥ 1, both d are the same positive real,
  and a positive real factor distributes over a sum of ARBITRARY extended reals: V may hold anything.
-/
import proofs.«175017_j25469156065919_2_alg».proof.Proof.AdjScalar

noncomputable section

open scoped BigOperators

namespace Cert.Adj

open Idealize.ShloMosaic

/-- One adjacency entry from its score `s`, mask entry `m` and identity entry `e`. -/
def entry (s m e : EReal) : EReal :=
  max (Ideal.logistic s) (Ideal.ofBits .f32 0x3DCCCCCD#32) * m + e

/-- The leaky rectifier: `v` where `v ≥ 0`, else `v` times the slope word. -/
def leaky (v : EReal) : EReal :=
  Scalar.select (Ideal.cmp .oge v (Ideal.ofBits .f32 0x00000000#32)) v (Ideal.ofBits .f32 0x3C23D70A#32 * v)

/-- An entry with a binary mask is a nonnegative real. -/
theorem entry_real {s m e : EReal} (hm : m = 0 ∨ m = 1) (he : e = 0 ∨ e = 1) :
    ∃ r : ℝ, 0 ≤ r ∧ entry s m e = (r : EReal) := by
  obtain ⟨l, hl0, -, hl⟩ := logistic_real s
  obtain ⟨w, hw⟩ := ofBits_clamp_real
  have hmax : max (Ideal.logistic s) (Ideal.ofBits .f32 0x3DCCCCCD#32) = ((max l w : ℝ) : EReal) := by
    rw [hl, hw]; exact (EReal.coe_strictMono.monotone.map_max).symm
  have h0 : 0 ≤ max l w := le_trans hl0 (le_max_left _ _)
  unfold entry
  rw [hmax]
  rcases hm with rfl | rfl <;> rcases he with rfl | rfl
  · exact ⟨0, le_refl _, by simp⟩
  · exact ⟨1, zero_le_one, by simp⟩
  · exact ⟨max l w, h0, by simp⟩
  · exact ⟨max l w + 1, by linarith, by rw [mul_one, EReal.coe_add, EReal.coe_one]⟩

/-- A diagonal entry (identity entry 1) with a binary mask is a real ≥ 1. -/
theorem entry_diag_real {s m : EReal} (hm : m = 0 ∨ m = 1) :
    ∃ r : ℝ, 1 ≤ r ∧ entry s m 1 = (r : EReal) := by
  obtain ⟨l, hl0, -, hl⟩ := logistic_real s
  obtain ⟨w, hw⟩ := ofBits_clamp_real
  have hmax : max (Ideal.logistic s) (Ideal.ofBits .f32 0x3DCCCCCD#32) = ((max l w : ℝ) : EReal) := by
    rw [hl, hw]; exact (EReal.coe_strictMono.monotone.map_max).symm
  have h0 : 0 ≤ max l w := le_trans hl0 (le_max_left _ _)
  unfold entry
  rw [hmax]
  rcases hm with rfl | rfl
  · exact ⟨1, le_refl _, by simp⟩
  · exact ⟨max l w + 1, by linarith, by rw [mul_one, EReal.coe_add, EReal.coe_one]⟩

section Law

variable {ι κ : Type} [Fintype ι]

/-- A row's sum. -/
def rowsum (a : ι → ι → EReal) (i : ι) : EReal := ∑ j, a i j

/-- The degree factor as the reciprocal square root of the row sum. -/
def degRsqrt (a : ι → ι → EReal) (i : ι) : EReal := Ideal.rsqrt (rowsum a i)

/-- The degree factor as the row sum to the power -1/2. -/
def degPow (a : ι → ι → EReal) (i : ι) : EReal := Ideal.pow (rowsum a i) (Ideal.ofBits .f32 0xBF000000#32)

/-- The result with the column factor folded into `V` and the row factor applied after the sum. -/
def outFolded (a : ι → ι → EReal) (V : ι → κ → EReal) (i : ι) (k : κ) : EReal :=
  leaky (degRsqrt a i * ∑ j, a i j * (degRsqrt a j * V j k))

/-- The result with both factors applied to the matrix before the product. -/
def outScaled (a : ι → ι → EReal) (V : ι → κ → EReal) (i : ι) (k : κ) : EReal :=
  leaky (∑ j, ((a i j * degPow a i) * degPow a j) * V j k)

/-- A sum of nonnegative reals containing a term ≥ 1 is a real ≥ 1. -/
theorem rowsum_real {a : ι → ι → EReal} (ha : ∀ i j, ∃ r : ℝ, 0 ≤ r ∧ a i j = (r : EReal))
    (hd : ∀ i, ∃ r : ℝ, 1 ≤ r ∧ a i i = (r : EReal)) (i : ι) :
    ∃ r : ℝ, 1 ≤ r ∧ rowsum a i = (r : EReal) := by
  classical
  choose f hf0 hf using ha
  obtain ⟨r, hr, hri⟩ := hd i
  have hfi : f i i = r := EReal.coe_injective ((hf i i).symm.trans hri)
  have hsum : ∀ s : Finset ι, ∑ j ∈ s, a i j = ((∑ j ∈ s, f i j : ℝ) : EReal) := by
    intro s
    induction s using Finset.induction_on with
    | empty => simp
    | insert b s hb ih => rw [Finset.sum_insert hb, Finset.sum_insert hb, ih, hf, EReal.coe_add]
  refine ⟨∑ j, f i j, ?_, hsum Finset.univ⟩
  calc (1 : ℝ) ≤ f i i := hfi ▸ hr
    _ ≤ ∑ j, f i j := Finset.single_le_sum (f := fun j => f i j) (fun j _ => hf0 i j) (Finset.mem_univ i)

/-- With rows summing to reals ≥ 1 the two degree factors are one positive real. -/
theorem deg_eq {a : ι → ι → EReal} (hs : ∀ i, ∃ r : ℝ, 1 ≤ r ∧ rowsum a i = (r : EReal)) (i : ι) :
    ∃ δ : ℝ, 0 < δ ∧ degRsqrt a i = (δ : EReal) ∧ degPow a i = (δ : EReal) := by
  obtain ⟨r, hr, hri⟩ := hs i
  obtain ⟨δ, hδ, h1, h2⟩ := rsqrt_eq_pow hr
  exact ⟨δ, hδ, by rw [degRsqrt, hri, h1], by rw [degPow, hri, h2]⟩

/-- THE LAW: with rows summing to reals ≥ 1 the two arrangements give the same result, whatever `V` holds. -/
theorem outFolded_eq_outScaled {a : ι → ι → EReal} (hs : ∀ i, ∃ r : ℝ, 1 ≤ r ∧ rowsum a i = (r : EReal))
    (V : ι → κ → EReal) (i : ι) (k : κ) : outFolded a V i k = outScaled a V i k := by
  choose δ hδ hK hP using deg_eq hs
  unfold outFolded outScaled
  congr 1
  simp only [hK, hP]
  rw [coe_mul_sum (hδ i).le]
  refine Finset.sum_congr rfl fun j _ => ?_
  simp only [mul_comm, mul_assoc, mul_left_comm]

/-- The law from the entries: nonnegative real entries with diagonal ≥ 1. -/
theorem outFolded_eq_outScaled_of_entries {a : ι → ι → EReal}
    (ha : ∀ i j, ∃ r : ℝ, 0 ≤ r ∧ a i j = (r : EReal)) (hd : ∀ i, ∃ r : ℝ, 1 ≤ r ∧ a i i = (r : EReal))
    (V : ι → κ → EReal) (i : ι) (k : κ) : outFolded a V i k = outScaled a V i k :=
  outFolded_eq_outScaled (rowsum_real ha hd) V i k

end Law

end Cert.Adj

end
-- ==== Proof.EyeWords.lean ====
/-
  The identity matrix as the kernel's body builds it inside a block: row counter block · 1024 + r and
  column counter block · 1024 + c as 32-bit words, compared, widened and converted. For counters below
  2^32 the words are equal exactly when the numbers are, so the entry is 1 on the diagonal and 0 off it.
-/
import Idealize.ShloMosaic.PureOps.Ideal

noncomputable section

namespace Cert.Adj

open Idealize.ShloMosaic

/-- A block's counter word: the block number times 1024 plus the place in the block. -/
theorem counter_word (b r : ℕ) :
    IntOp.addi (IntOp.muli (BitVec.ofNat 32 b) 1024#32) (BitVec.ofNat 32 r) = BitVec.ofNat 32 (b * 1024 + r) := by
  unfold IntOp.addi IntOp.muli
  apply BitVec.eq_of_toNat_eq
  simp only [BitVec.toNat_add, BitVec.toNat_mul, BitVec.toNat_ofNat, Nat.reducePow]
  omega

/-- Words of numbers below 2^32 are equal exactly when the numbers are. -/
theorem ofNat32_inj {a b : ℕ} (ha : a < 4294967296) (hb : b < 4294967296) :
    BitVec.ofNat 32 a = BitVec.ofNat 32 b ↔ a = b := by
  constructor
  · intro e
    have e' := congrArg BitVec.toNat e
    simp only [BitVec.toNat_ofNat, Nat.reducePow] at e'
    omega
  · intro e; rw [e]

/-- The comparison of two words, widened to 32 bits and converted as a signed integer: 1 if equal, else 0. -/
theorem eye_word (x y : BitVec 32) :
    (FloatOps.sitofp (F := Ideal) .f32 ((IntOp.cmpi .eq x y).setWidth 32) : EReal) = if x = y then 1 else 0 := by
  show (((((IntOp.cmpi .eq x y).setWidth 32).toInt : ℤ) : ℝ) : EReal) = _
  by_cases h : x = y
  · subst h; simp [IntOp.cmpi]
  · have hne : (x == y) = false := by rw [beq_eq_false_iff_ne]; exact h
    simp [IntOp.cmpi, hne, h]

/-- The block's identity entry: 1 where the global row and column counters agree, else 0. -/
theorem eye_block (bi bj r c : ℕ) (hi : bi * 1024 + r < 4294967296) (hj : bj * 1024 + c < 4294967296) :
    (FloatOps.sitofp (F := Ideal) .f32 ((IntOp.cmpi .eq
        (IntOp.addi (IntOp.muli (BitVec.ofNat 32 bi) 1024#32) (BitVec.ofNat 32 r))
        (IntOp.addi (IntOp.muli (BitVec.ofNat 32 bj) 1024#32) (BitVec.ofNat 32 c))).setWidth 32) : EReal)
      = if bi * 1024 + r = bj * 1024 + c then 1 else 0 := by
  rw [eye_word, counter_word, counter_word]
  by_cases h : bi * 1024 + r = bj * 1024 + c
  · rw [if_pos h, if_pos (by rw [h])]
  · rw [if_neg h, if_neg (fun e => h ((ofNat32_inj hi hj).1 e))]

end Cert.Adj

end
-- ==== Proof.KernelBody.lean ====
/-
  The two kernel bodies' pure arithmetic, read at an index. Body 0 at grid point (bi, bj) forms, from
  the feature rows of block bi (v3) and of block bj (v5) and the raw adjacency block (v10), the adjacency
  block: entry (r, c) is max (logistic (Σ_k v3 r k · v5 c k)) w · ⌈v10 r c · c₀⌉ + [bi·1024 + r = bj·1024 + c];
  its running row sum adds the block's row sums to what it held; at the last column block it takes the
  reciprocal square root. Body 1 adds to its accumulator the product of its adjacency block and its
  block of the scaled values, and at the last column block multiplies by the row factor and applies the
  leaky rectifier.
-/
import proofs.«175017_j25469156065919_2_alg».proof.Proof.Gen.KernelIdeal.Skeleton
import proofs.«175017_j25469156065919_2_alg».proof.Proof.AdjLaw
import proofs.«175017_j25469156065919_2_alg».proof.Proof.EyeWords
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Adj.Body

open Cert.KernelIdeal Cert.KernelIdeal.Gen Idealize.ShloMosaic Idealize.ShloMosaic.ValueIdx

/-! ## Body 0: the adjacency block and the degree -/

/-- Body 0's score block: the product of the row block with the transposed column block, at (r, c). -/
theorem score_block (v3 v5 : Vec Ideal S1024x256 .bf16) (r c : Fin 1024) :
    (matmul dot_S1024x256_S256x1024_S1024x1024_1_0_0_1_n_n none
        (shapeCast S1024x256 v3 shapeCasts_S1024x256_S1024x256 : FVec Ideal S1024x256 .bf16)
        (transpose S256x1024 [1, 0] (shapeCast S1024x256 v5 shapeCasts_S1024x256_S1024x256 : FVec Ideal S1024x256 .bf16)
          transposes_S1024x256_p1_0_S256x1024 : FVec Ideal S256x1024 .bf16)
        (constant (F := Ideal) S1024x1024 .f32 0x00000000#32) : FVec Ideal S1024x1024 .f32) (ix2 r c)
      = ∑ k : Fin 256, v3 (ix2 r k) * v5 (ix2 c k) := by
  rw [shapeCast_self, shapeCast_self]
  simp only [matmul]
  rw [Ideal.matmul_constant_zero_apply,
    ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 r c)
      ((contrEquiv1 dot_S1024x256_S256x1024_S1024x1024_1_0_0_1_n_n 256 rfl rfl).symm k) = ix2 r k :=
    funext fun a => Fin.ext (by
      match a with
      | ⟨0, _⟩ =>
        show (dot_S1024x256_S256x1024_S1024x1024_1_0_0_1_n_n.lhsIdx (ix2 r c) _ 0).val = r.val
        unfold DotDims.lhsIdx
        rw [dif_neg (show ¬(0 : Fin S1024x256.rank) ∈ dot_S1024x256_S256x1024_S1024x1024_1_0_0_1_n_n.lhsBatch by decide),
          dif_pos (show (0 : Fin S1024x256.rank) ∈ dot_S1024x256_S256x1024_S1024x1024_1_0_0_1_n_n.lhsNonContracting by decide)]
        rfl
      | ⟨1, _⟩ => exact (dot_S1024x256_S256x1024_S1024x1024_1_0_0_1_n_n.lhsIdx_val_of_single rfl _ _).trans hk)
  have er : dot_S1024x256_S256x1024_S1024x1024_1_0_0_1_n_n.rhsIdx (ix2 r c)
      ((contrEquiv1 dot_S1024x256_S256x1024_S1024x1024_1_0_0_1_n_n 256 rfl rfl).symm k) = ix2 k c :=
    funext fun a => Fin.ext (by
      match a with
      | ⟨0, _⟩ => exact (dot_S1024x256_S256x1024_S1024x1024_1_0_0_1_n_n.rhsIdx_val_of_single rfl _ _).trans hk
      | ⟨1, _⟩ =>
        show (dot_S1024x256_S256x1024_S1024x1024_1_0_0_1_n_n.rhsIdx (ix2 r c) _ 1).val = c.val
        unfold DotDims.rhsIdx
        rw [dif_neg (show ¬(1 : Fin S256x1024.rank) ∈ dot_S1024x256_S256x1024_S1024x1024_1_0_0_1_n_n.rhsBatch by decide),
          dif_pos (show (1 : Fin S256x1024.rank) ∈ dot_S1024x256_S256x1024_S1024x1024_1_0_0_1_n_n.rhsNonContracting by decide)]
        rfl)
  rw [el, er, transpose_ix2_apply]

/-- Body 0's adjacency block at (r, c) of grid point `i`: the adjacency entry of global row
    `i 0 · 1024 + r` and global column `i 1 · 1024 + c`. -/
theorem k0_pay4_apply (i : grid0.Coords) (v3 v5 : Vec Ideal S1024x256 .bf16) (v10 : Vec Ideal S1024x1024 .f32)
    (r c : Fin 1024) :
    k0_pay4 (F := Ideal) i v3 v5 v10 (ix2 r c)
      = entry (∑ k : Fin 256, v3 (ix2 r k) * v5 (ix2 c k))
          (Ideal.liftRound Int.ceil (v10 (ix2 r c) * Ideal.ofBits .f32 0x3727C5AC#32))
          (if (i 0).val * 1024 + r.val = (i 1).val * 1024 + c.val then 1 else 0) := by
  have h0 : (i 0).val < 8 := (i 0).isLt
  have h1 : (i 1).val < 8 := (i 1).isLt
  have hr := r.isLt
  have hc := c.isLt
  have key : k0_pay4 (F := Ideal) i v3 v5 v10 (ix2 r c)
      = max (Ideal.logistic ((matmul dot_S1024x256_S256x1024_S1024x1024_1_0_0_1_n_n none
            (shapeCast S1024x256 v3 shapeCasts_S1024x256_S1024x256 : FVec Ideal S1024x256 .bf16)
            (transpose S256x1024 [1, 0] (shapeCast S1024x256 v5 shapeCasts_S1024x256_S1024x256 : FVec Ideal S1024x256 .bf16)
              transposes_S1024x256_p1_0_S256x1024 : FVec Ideal S256x1024 .bf16)
            (constant (F := Ideal) S1024x1024 .f32 0x00000000#32) : FVec Ideal S1024x1024 .f32) (ix2 r c)))
          (Ideal.ofBits .f32 0x3DCCCCCD#32)
          * Ideal.liftRound Int.ceil (v10 (ix2 r c) * Ideal.ofBits .f32 0x3727C5AC#32)
        + (FloatOps.sitofp (F := Ideal) .f32 ((IntOp.cmpi .eq
            (IntOp.addi (IntOp.muli (BitVec.ofNat 32 (i 0).val) 1024#32)
              (iota .tc S1024x1024 32 [0] iota_S1024x1024_d0_w32 (ix2 r c)))
            (IntOp.addi (IntOp.muli (BitVec.ofNat 32 (i 1).val) 1024#32)
              (iota .tc S1024x1024 32 [1] iota_S1024x1024_d1_w32 (ix2 r c)))).setWidth 32) : EReal) := rfl
  rw [key, score_block, iota_single_apply, iota_single_apply,
    show ((ix2 r c : S1024x1024.Idx) 0).val = r.val from rfl, show ((ix2 r c : S1024x1024.Idx) 1).val = c.val from rfl,
    eye_block _ _ _ _ (by omega) (by omega)]
  rfl

/-- Body 0's running row sum: what it held plus the block's row sum. -/
theorem k0_pay5_apply (i : grid0.Coords) (v3 v5 : Vec Ideal S1024x256 .bf16) (v10 : Vec Ideal S1024x1024 .f32)
    (v30 : Vec Ideal S1024x1 .f32) (r : Fin 1024) :
    k0_pay5 (F := Ideal) i v3 v5 v10 v30 (ix2 r (0 : Fin 1))
      = v30 (ix2 r (0 : Fin 1)) + ∑ c : Fin 1024, k0_pay4 (F := Ideal) i v3 v5 v10 (ix2 r c) := by
  have key : k0_pay5 (F := Ideal) i v3 v5 v10 v30 (ix2 r (0 : Fin 1))
      = v30 (ix2 r (0 : Fin 1))
        + (shapeCast S1024x1 (multiReduction .add [1] S1024 (k0_pay4 (F := Ideal) i v3 v5 v10) 0x00000000#32
            reduces_S1024x1024_S1024 (.inl rfl) rfl : FVec Ideal S1024 .f32) shapeCasts_S1024_S1024x1
            : FVec Ideal S1024x1 .f32) (ix2 r (0 : Fin 1)) := rfl
  rw [key, shapeCast_apply _ shapeCasts_S1024_S1024x1 (ix2 r (0 : Fin 1)) (ix1 r) (by
      rw [Shape.rowMajor_val_two, Shape.rowMajor_val_one]
      show r.val = r.val * 1 + 0
      omega)]
  refine congrArg (v30 (ix2 r (0 : Fin 1)) + ·) ?_
  refine (Ideal.multiReduction_add_single (k0_pay4 (F := Ideal) i v3 v5 v10) 0x00000000#32 reduces_S1024x1024_S1024
    (.inl rfl) rfl (ix1 r)).trans ?_
  refine Finset.sum_congr rfl fun c _ => ?_
  exact congrArg _ (funext fun a => Fin.ext (by match a with | ⟨0, _⟩ => rfl | ⟨1, _⟩ => rfl))

/-- The row sum is stored as it is. -/
theorem k0_pay1_eq (v33 : FVec Ideal S1024x1 .f32) : k0_pay1 (F := Ideal) v33 = v33 :=
  shapeCast_self v33 _

/-- The row sum starts at zero. -/
theorem k0_pay3_eq : k0_pay3 (F := Ideal) = fun _ => 0 := by
  have key : k0_pay3 (F := Ideal)
      = shapeCast S1024x1 (broadcast S1024x1 (Ideal.ofBits .f32 0x00000000#32) : FVec Ideal S1024x1 .f32)
          shapeCasts_S1024x1_S1024x1 := rfl
  rw [key, shapeCast_self, Ideal.ofBits_zero_f32]
  rfl

/-- The degree factor: the reciprocal square root of the completed row sum. -/
theorem k0_pay2_apply (v40 : Vec Ideal S1024x1 .f32) (r : Fin 1024) :
    k0_pay2 (F := Ideal) v40 (ix2 r (0 : Fin 1)) = Ideal.rsqrt (v40 (ix2 r (0 : Fin 1))) := rfl

/-! ## Body 1: the accumulated product and the result -/

/-- The accumulator starts at zero. -/
theorem k1_pay1_eq : k1_pay1 (F := Ideal) = fun _ => 0 := by
  have key : k1_pay1 (F := Ideal)
      = shapeCast S2048x64 (broadcast S2048x64 (Ideal.ofBits .f32 0x00000000#32) : FVec Ideal S2048x64 .f32)
          shapeCasts_S2048x64_S2048x64 := rfl
  rw [key, shapeCast_self, Ideal.ofBits_zero_f32]
  rfl

/-- Body 1's accumulator: what it held plus the block product. -/
theorem k1_pay2_apply (v3 : Vec Ideal S2048x1024 .f32) (v6 : Vec Ideal S1024x64 .bf16) (v8 : Vec Ideal S2048x64 .f32)
    (r : Fin 2048) (k : Fin 64) :
    k1_pay2 (F := Ideal) v3 v6 v8 (ix2 r k) = v8 (ix2 r k) + ∑ c : Fin 1024, v3 (ix2 r c) * v6 (ix2 c k) := by
  have key : k1_pay2 (F := Ideal) v3 v6 v8
      = shapeCast S2048x64 (addf v8 (matmul dot_S2048x1024_S1024x64_S2048x64_1_0_0_1_n_n none
          (truncf .bf16 (shapeCast S2048x1024 v3 shapeCasts_S2048x1024_S2048x1024 : FVec Ideal S2048x1024 .f32) bitsLt_bf16_f32
            : FVec Ideal S2048x1024 .bf16)
          (shapeCast S1024x64 v6 shapeCasts_S1024x64_S1024x64 : FVec Ideal S1024x64 .bf16)
          (constant (F := Ideal) S2048x64 .f32 0x00000000#32) : FVec Ideal S2048x64 .f32) : FVec Ideal S2048x64 .f32)
          shapeCasts_S2048x64_S2048x64 := rfl
  rw [key, shapeCast_self, shapeCast_self, shapeCast_self]
  show v8 (ix2 r k) + (matmul dot_S2048x1024_S1024x64_S2048x64_1_0_0_1_n_n none
      (truncf .bf16 (v3 : FVec Ideal S2048x1024 .f32) bitsLt_bf16_f32 : FVec Ideal S2048x1024 .bf16) (v6 : FVec Ideal S1024x64 .bf16)
      (constant (F := Ideal) S2048x64 .f32 0x00000000#32) : FVec Ideal S2048x64 .f32) (ix2 r k) = _
  congr 1
  simp only [matmul]
  rw [Ideal.matmul_constant_zero_apply,
    ← Equiv.sum_comp (contrEquiv1 dot_S2048x1024_S1024x64_S2048x64_1_0_0_1_n_n 1024 rfl rfl).symm]
  refine Finset.sum_congr rfl fun c _ => ?_
  have hk := contrEquiv1_symm_val dot_S2048x1024_S1024x64_S2048x64_1_0_0_1_n_n 1024 rfl rfl c
  have el : dot_S2048x1024_S1024x64_S2048x64_1_0_0_1_n_n.lhsIdx (ix2 r k)
      ((contrEquiv1 dot_S2048x1024_S1024x64_S2048x64_1_0_0_1_n_n 1024 rfl rfl).symm c) = ix2 r c :=
    funext fun a => Fin.ext (by
      match a with
      | ⟨0, _⟩ =>
        show (dot_S2048x1024_S1024x64_S2048x64_1_0_0_1_n_n.lhsIdx (ix2 r k) _ 0).val = r.val
        unfold DotDims.lhsIdx
        rw [dif_neg (show ¬(0 : Fin S2048x1024.rank) ∈ dot_S2048x1024_S1024x64_S2048x64_1_0_0_1_n_n.lhsBatch by decide),
          dif_pos (show (0 : Fin S2048x1024.rank) ∈ dot_S2048x1024_S1024x64_S2048x64_1_0_0_1_n_n.lhsNonContracting by decide)]
        rfl
      | ⟨1, _⟩ => exact (dot_S2048x1024_S1024x64_S2048x64_1_0_0_1_n_n.lhsIdx_val_of_single rfl _ _).trans hk)
  have er : dot_S2048x1024_S1024x64_S2048x64_1_0_0_1_n_n.rhsIdx (ix2 r k)
      ((contrEquiv1 dot_S2048x1024_S1024x64_S2048x64_1_0_0_1_n_n 1024 rfl rfl).symm c) = ix2 c k :=
    funext fun a => Fin.ext (by
      match a with
      | ⟨0, _⟩ => exact (dot_S2048x1024_S1024x64_S2048x64_1_0_0_1_n_n.rhsIdx_val_of_single rfl _ _).trans hk
      | ⟨1, _⟩ =>
        show (dot_S2048x1024_S1024x64_S2048x64_1_0_0_1_n_n.rhsIdx (ix2 r k) _ 1).val = k.val
        unfold DotDims.rhsIdx
        rw [dif_neg (show ¬(1 : Fin S1024x64.rank) ∈ dot_S2048x1024_S1024x64_S2048x64_1_0_0_1_n_n.rhsBatch by decide),
          dif_pos (show (1 : Fin S1024x64.rank) ∈ dot_S2048x1024_S1024x64_S2048x64_1_0_0_1_n_n.rhsNonContracting by decide)]
        rfl)
  rw [el, er]
  rfl

/-- Body 1's result: the leaky rectifier of the row factor times the completed accumulator. -/
theorem k1_pay3_apply (v17 : Vec Ideal S2048x1 .f32) (v19 : Vec Ideal S2048x64 .f32) (r : Fin 2048) (k : Fin 64) :
    k1_pay3 (F := Ideal) v17 v19 (ix2 r k) = leaky (v17 (ix2 r (0 : Fin 1)) * v19 (ix2 r k)) := by
  have hb : (broadcastTo S2048x64 (shapeCast S2048x1 v17 shapeCasts_S2048x1_S2048x1 : FVec Ideal S2048x1 .f32)
      broadcasts_S2048x1_S2048x64 : FVec Ideal S2048x64 .f32) (ix2 r k) = v17 (ix2 r (0 : Fin 1)) := by
    rw [shapeCast_self]
    refine broadcastTo_apply _ broadcasts_S2048x1_S2048x64 (ix2 r k) (ix2 r (0 : Fin 1)) fun a => ?_
    match a with
    | ⟨0, _⟩ =>
      show r.val = if (2048 : Nat) = 1 then 0 else r.val
      rw [if_neg (by decide)]
    | ⟨1, _⟩ =>
      show 0 = if (1 : Nat) = 1 then 0 else k.val
      rw [if_pos rfl]
  have key : k1_pay3 (F := Ideal) v17 v19 (ix2 r k)
      = leaky ((broadcastTo S2048x64 (shapeCast S2048x1 v17 shapeCasts_S2048x1_S2048x1 : FVec Ideal S2048x1 .f32)
          broadcasts_S2048x1_S2048x64 : FVec Ideal S2048x64 .f32) (ix2 r k) * v19 (ix2 r k)) := rfl
  rw [key, hb]

end Cert.Adj.Body

end
-- ==== Proof.BlockSum.lean ====
/-
  Sums taken block by block. Accumulating B 0, B 1, …, B (n-1) one at a time from zero gives their
  sum; and Q blocks of P consecutive indices are the Q · P indices, each once.
-/
import Mathlib.Algebra.BigOperators.Fin
import Mathlib.Algebra.BigOperators.Group.Finset.Basic

open scoped BigOperators

namespace Cert.Adj

variable {M : Type*} [AddCommMonoid M]

/-- The accumulator after `n` steps: from zero, each step adds the next block's contribution. -/
def accum (B : ℕ → M) : ℕ → M
  | 0 => 0
  | n + 1 => accum B n + B n

/-- The accumulator after `n` steps is the sum of the first `n` contributions. -/
theorem accum_eq_sum (B : ℕ → M) (n : ℕ) : accum B n = ∑ b ∈ Finset.range n, B b := by
  induction n with
  | zero => rfl
  | succ n ih => rw [accum, ih, Finset.sum_range_succ]

/-- `Q` blocks of `P` consecutive naturals are the naturals below `Q * P`. -/
theorem sum_range_blocks (f : ℕ → M) (P Q : ℕ) :
    ∑ b ∈ Finset.range Q, ∑ c ∈ Finset.range P, f (b * P + c) = ∑ j ∈ Finset.range (Q * P), f j := by
  induction Q with
  | zero => simp
  | succ Q ih => rw [Finset.sum_range_succ, ih, Nat.succ_mul, Finset.sum_range_add]

/-- The same over `Fin`: block `b`, place `c` is index `b * P + c`. -/
theorem sum_fin_blocks {P Q N : ℕ} (h : Q * P = N) (g : Fin N → M) :
    ∑ b : Fin Q, ∑ c : Fin P, g ⟨b.val * P + c.val, by
      have hb := b.isLt; have hc := c.isLt
      calc b.val * P + c.val < b.val * P + P := by omega
        _ = (b.val + 1) * P := by rw [Nat.succ_mul]
        _ ≤ Q * P := Nat.mul_le_mul_right P hb
        _ = N := h⟩ = ∑ j : Fin N, g j := by
  subst h
  let f : ℕ → M := fun n => if hn : n < Q * P then g ⟨n, hn⟩ else 0
  have hg : ∀ j : Fin (Q * P), g j = f j.val := fun j => by simp [f, j.isLt]
  rw [Finset.sum_congr rfl fun j _ => hg j, Fin.sum_univ_eq_sum_range (fun n => f n) (Q * P), ← sum_range_blocks,
    ← Fin.sum_univ_eq_sum_range (fun b => ∑ c ∈ Finset.range P, f (b * P + c)) Q]
  refine Finset.sum_congr rfl fun b _ => ?_
  rw [← Fin.sum_univ_eq_sum_range (fun c => f (b.val * P + c)) P]
  exact Finset.sum_congr rfl fun c _ => hg _

end Cert.Adj
-- ==== Proof.AdjSpec.lean ====
/-
  The adjacency stage over the programs' literal shapes: N = 8192 nodes, 256 score features, 64 output
  features. From the feature array hx [8192, 256], the raw adjacency A [8192, 8192] and the value array
  V [8192, 64]:  score i j = Σ_k hx i k · hx j k,  mask i j = ⌈A i j · c⌉,
  adj i j = max (logistic (score i j)) w · mask i j + [i = j],  and the result in each of the two
  arrangements of Proof/AdjLaw.lean. Under a binary mask the two results are one array.
-/
import proofs.«175017_j25469156065919_2_alg».proof.Proof.AdjLaw
import Idealize.ShloMosaic.Lib.ValueIdx

noncomputable section

open scoped BigOperators

namespace Cert.Adj

open Idealize.ShloMosaic Idealize.ShloMosaic.ValueIdx

/-- The score of nodes `i`, `j`: the inner product of their feature rows. -/
def score (hx : (⟨2, ![8192, 256]⟩ : Shape).Idx → EReal) (i j : Fin 8192) : EReal :=
  ∑ k : Fin 256, hx (ix2 i k) * hx (ix2 j k)

/-- The mask entry: the raw adjacency times the f32 nearest 1e-5, rounded up. -/
def mask (A : (⟨2, ![8192, 8192]⟩ : Shape).Idx → EReal) (i j : Fin 8192) : EReal :=
  Ideal.liftRound Int.ceil (A (ix2 i j) * Ideal.ofBits .f32 0x3727C5AC#32)

/-- The adjacency with self loops. -/
def adj (hx : (⟨2, ![8192, 256]⟩ : Shape).Idx → EReal) (A : (⟨2, ![8192, 8192]⟩ : Shape).Idx → EReal)
    (i j : Fin 8192) : EReal :=
  entry (score hx i j) (mask A i j) (if i = j then 1 else 0)

/-- The adjacency as an array: the second result of both programs. -/
def adjArr (hx : (⟨2, ![8192, 256]⟩ : Shape).Idx → EReal) (A : (⟨2, ![8192, 8192]⟩ : Shape).Idx → EReal) :
    (⟨2, ![8192, 8192]⟩ : Shape).Idx → EReal :=
  fun idx => adj hx A (idx 0) (idx 1)

/-- The first result, column factor folded into `V`, row factor after the sum, degree by rsqrt. -/
def outFoldedArr (hx : (⟨2, ![8192, 256]⟩ : Shape).Idx → EReal) (A : (⟨2, ![8192, 8192]⟩ : Shape).Idx → EReal)
    (V : (⟨2, ![8192, 64]⟩ : Shape).Idx → EReal) : (⟨2, ![8192, 64]⟩ : Shape).Idx → EReal :=
  fun idx => outFolded (adj hx A) (fun (j : Fin 8192) (k : Fin 64) => V (ix2 j k)) (idx 0) (idx 1)

/-- The first result, both factors applied to the matrix, degree by the power -1/2. -/
def outScaledArr (hx : (⟨2, ![8192, 256]⟩ : Shape).Idx → EReal) (A : (⟨2, ![8192, 8192]⟩ : Shape).Idx → EReal)
    (V : (⟨2, ![8192, 64]⟩ : Shape).Idx → EReal) : (⟨2, ![8192, 64]⟩ : Shape).Idx → EReal :=
  fun idx => outScaled (adj hx A) (fun (j : Fin 8192) (k : Fin 64) => V (ix2 j k)) (idx 0) (idx 1)

/-- With a binary mask every adjacency entry is a nonnegative real … -/
theorem adj_real {hx : (⟨2, ![8192, 256]⟩ : Shape).Idx → EReal} {A : (⟨2, ![8192, 8192]⟩ : Shape).Idx → EReal}
    (hm : ∀ idx : (⟨2, ![8192, 8192]⟩ : Shape).Idx,
      Ideal.liftRound Int.ceil (A idx * Ideal.ofBits .f32 0x3727C5AC#32) = 0
        ∨ Ideal.liftRound Int.ceil (A idx * Ideal.ofBits .f32 0x3727C5AC#32) = 1)
    (i j : Fin 8192) : ∃ r : ℝ, 0 ≤ r ∧ adj hx A i j = (r : EReal) := by
  refine entry_real (hm (ix2 i j)) ?_
  by_cases h : i = j
  · right; rw [if_pos h]
  · left; rw [if_neg h]

/-- … and every diagonal entry a real ≥ 1. -/
theorem adj_diag_real {hx : (⟨2, ![8192, 256]⟩ : Shape).Idx → EReal} {A : (⟨2, ![8192, 8192]⟩ : Shape).Idx → EReal}
    (hm : ∀ idx : (⟨2, ![8192, 8192]⟩ : Shape).Idx,
      Ideal.liftRound Int.ceil (A idx * Ideal.ofBits .f32 0x3727C5AC#32) = 0
        ∨ Ideal.liftRound Int.ceil (A idx * Ideal.ofBits .f32 0x3727C5AC#32) = 1)
    (i : Fin 8192) : ∃ r : ℝ, 1 ≤ r ∧ adj hx A i i = (r : EReal) := by
  unfold adj
  rw [if_pos rfl]
  exact entry_diag_real (hm (ix2 i i))

/-- Under a binary mask the two arrangements are one array, whatever `hx` and `V` hold. -/
theorem outFoldedArr_eq_outScaledArr (hx : (⟨2, ![8192, 256]⟩ : Shape).Idx → EReal)
    (A : (⟨2, ![8192, 8192]⟩ : Shape).Idx → EReal) (V : (⟨2, ![8192, 64]⟩ : Shape).Idx → EReal)
    (hm : ∀ idx : (⟨2, ![8192, 8192]⟩ : Shape).Idx,
      Ideal.liftRound Int.ceil (A idx * Ideal.ofBits .f32 0x3727C5AC#32) = 0
        ∨ Ideal.liftRound Int.ceil (A idx * Ideal.ofBits .f32 0x3727C5AC#32) = 1) :
    outFoldedArr hx A V = outScaledArr hx A V :=
  funext fun idx =>
    outFolded_eq_outScaled_of_entries (adj_real hm) (adj_diag_real hm) _ (idx 0) (idx 1)

end Cert.Adj

end
-- ==== Proof.Value0.lean ====
/-
  The first kernel's two result arrays as functions. Point t = 8·i + j of the 8 × 8 grid reads feature rows
  block i, feature rows block j and block (i, j) of the raw adjacency, and writes block (i, j) of the
  adjacency with self loops: entry (r, c) of the block is the adjacency entry of nodes 1024·i + r and
  1024·j + c. The row-sum accumulator after point t holds, at row r, the sum over the column blocks s ≤ j
  and the places c < 1024 of the adjacency entries (1024·i + r, 1024·s + c); at j = 7 that is the whole row
  sum, and the degree block written back is its reciprocal square root. The blocks tile both arrays.
-/
import proofs.«175017_j25469156065919_2_alg».proof.Proof.Data0
import proofs.«175017_j25469156065919_2_alg».proof.Proof.KernelBody
import proofs.«175017_j25469156065919_2_alg».proof.Proof.BlockSum
import proofs.«175017_j25469156065919_2_alg».proof.Proof.AdjSpec
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- Column blocks `s < Q` of `P` places each, summed block by block, are all `Q * P` columns. -/
theorem sum_range_fin_blocks0 {M : Type*} [AddCommMonoid M] (f : ℕ → M) (P Q : ℕ) :
    ∑ s ∈ Finset.range Q, ∑ c : Fin P, f (s * P + c.val) = ∑ j : Fin (Q * P), f j.val := by
  rw [Fin.sum_univ_eq_sum_range (fun n => f n) (Q * P), ← Cert.Adj.sum_range_blocks]
  refine Finset.sum_congr rfl fun s _ => ?_
  exact Fin.sum_univ_eq_sum_range (fun c => f (s * P + c)) P

variable (V : (c : Dev nD) → (b : Ref sig .tc) → Buf (Elt Ideal) ((c : Thread nD τ).loc b))

/-- The feature array the region finds (both feature windows read it), at its literal type. -/
abbrev hxOf (c : Dev nD) : S8192x256.Idx → EReal := V c main_v33
/-- The raw adjacency the region finds. -/
abbrev aOf (c : Dev nD) : S8192x8192.Idx → EReal := V c main_arg1

/-- The degree factors as a function of the features and the raw adjacency: the reciprocal square root
    of each row sum of the adjacency with self loops. -/
def G0deg (hx : S8192x256.Idx → EReal) (A : S8192x8192.Idx → EReal) : S8192x1.Idx → EReal :=
  fun idx => Cert.Adj.degRsqrt (Cert.Adj.adj hx A) (idx 0)

/-- The windows' block-index maps and the grid's coordinates in closed form over the 64 points: point t is row
    block t / 8, column block t % 8. -/
theorem idx_facts0 : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8
    ∧ win0_3.index t (0 : Fin 2) = t.val / 8 ∧ win0_3.index t (1 : Fin 2) = t.val % 8
    ∧ win0_4.index t (0 : Fin 2) = t.val / 8 ∧ win0_4.index t (1 : Fin 2) = 0
    ∧ (grid0.coords t (0 : Fin 2)).val = t.val / 8 ∧ (grid0.coords t (1 : Fin 2)).val = t.val % 8 :=
  (by decide +kernel : ∀ t : Fin grid0.N, _)

theorem lt_N0 (t : Fin cfg0.N) : t.val < 64 := lt_of_lt_of_eq t.isLt (show cfg0.N = 64 from N_0)

/-- The row feature block at point t. -/
theorem iblk0_0_apply (c : Dev nD) (t : Fin cfg0.N) (r : Fin 1024) (k : Fin 256) (h0 : t.val / 8 * 1024 + r.val < 8192) :
    (iblk0 V c 0 t : Vec Ideal S1024x256 .bf16) (ix2 r k) = hxOf V c (ix2 ⟨t.val / 8 * 1024 + r.val, h0⟩ k) := by
  obtain ⟨e0, e1, -⟩ := idx_facts0 t
  show V c main_v33 (((cfg0.win 0).blk t).view.emb (ix2 r k)) = _
  refine congrArg _ (funext fun a => Fin.ext ?_)
  match a with
  | ⟨0, _⟩ => show win0_0.index t (0 : Fin 2) * 1024 + 1 * r.val = t.val / 8 * 1024 + r.val; rw [e0]; omega
  | ⟨1, _⟩ => show win0_0.index t (1 : Fin 2) * 256 + 1 * k.val = k.val; rw [e1]; omega

/-- The column feature block at point t. -/
theorem iblk0_1_apply (c : Dev nD) (t : Fin cfg0.N) (cc : Fin 1024) (k : Fin 256) (h1 : t.val % 8 * 1024 + cc.val < 8192) :
    (iblk0 V c 1 t : Vec Ideal S1024x256 .bf16) (ix2 cc k) = hxOf V c (ix2 ⟨t.val % 8 * 1024 + cc.val, h1⟩ k) := by
  obtain ⟨-, -, e0, e1, -⟩ := idx_facts0 t
  show V c main_v33 (((cfg0.win 1).blk t).view.emb (ix2 cc k)) = _
  refine congrArg _ (funext fun a => Fin.ext ?_)
  match a with
  | ⟨0, _⟩ => show win0_1.index t (0 : Fin 2) * 1024 + 1 * cc.val = t.val % 8 * 1024 + cc.val; rw [e0]; omega
  | ⟨1, _⟩ => show win0_1.index t (1 : Fin 2) * 256 + 1 * k.val = k.val; rw [e1]; omega

/-- The raw adjacency block at point t. -/
theorem iblk0_2_apply (c : Dev nD) (t : Fin cfg0.N) (r cc : Fin 1024)
    (h0 : t.val / 8 * 1024 + r.val < 8192) (h1 : t.val % 8 * 1024 + cc.val < 8192) :
    (iblk0 V c 2 t : Vec Ideal S1024x1024 .f32) (ix2 r cc)
      = aOf V c (ix2 ⟨t.val / 8 * 1024 + r.val, h0⟩ ⟨t.val % 8 * 1024 + cc.val, h1⟩) := by
  obtain ⟨-, -, -, -, e0, e1, -⟩ := idx_facts0 t
  show V c main_arg1 (((cfg0.win 2).blk t).view.emb (ix2 r cc)) = _
  refine congrArg _ (funext fun a => Fin.ext ?_)
  match a with
  | ⟨0, _⟩ => show win0_2.index t (0 : Fin 2) * 1024 + 1 * r.val = t.val / 8 * 1024 + r.val; rw [e0]; omega
  | ⟨1, _⟩ => show win0_2.index t (1 : Fin 2) * 1024 + 1 * cc.val = t.val % 8 * 1024 + cc.val; rw [e1]; omega

/-- The adjacency block of grid point (bi, bj) from blocks that are the rows bi, the rows bj of the features and
    block (bi, bj) of A: entry (r, s) is the adjacency entry of row 1024·bi + r and column 1024·bj + s. -/
theorem blk_adj (i : grid0.Coords) (bi bj : ℕ) (hbi : (i 0).val = bi) (hbj : (i 1).val = bj) (hi8 : bi < 8) (hj8 : bj < 8)
    (hx : S8192x256.Idx → EReal) (A : S8192x8192.Idx → EReal)
    (x0 x1 : Vec Ideal S1024x256 .bf16) (x2 : Vec Ideal S1024x1024 .f32)
    (h0 : ∀ (r : Fin 1024) (k : Fin 256), x0 (ix2 r k) = hx (ix2 (⟨bi * 1024 + r.val, by have := r.isLt; omega⟩ : Fin 8192) k))
    (h1 : ∀ (r : Fin 1024) (k : Fin 256), x1 (ix2 r k) = hx (ix2 (⟨bj * 1024 + r.val, by have := r.isLt; omega⟩ : Fin 8192) k))
    (h2 : ∀ (r s : Fin 1024), x2 (ix2 r s) = A (ix2 (⟨bi * 1024 + r.val, by have := r.isLt; omega⟩ : Fin 8192) (⟨bj * 1024 + s.val, by have := s.isLt; omega⟩ : Fin 8192)))
    (r s : Fin 1024) :
    k0_pay4 (F := Ideal) i x0 x1 x2 (ix2 r s)
      = Cert.Adj.adj hx A (⟨bi * 1024 + r.val, by have := r.isLt; omega⟩ : Fin 8192) (⟨bj * 1024 + s.val, by have := s.isLt; omega⟩ : Fin 8192) := by
  rw [Cert.Adj.Body.k0_pay4_apply]
  unfold Cert.Adj.adj Cert.Adj.score Cert.Adj.mask
  simp only [h0, h1, h2, hbi, hbj, Fin.mk.injEq]

/-- The adjacency block point t forms, at (r, c): the adjacency entry of nodes 1024·(t/8) + r and 1024·(t%8) + c. -/
theorem pay4_point (c : Dev nD) (t : Fin cfg0.N) (r cc : Fin 1024)
    (h0 : t.val / 8 * 1024 + r.val < 8192) (h1 : t.val % 8 * 1024 + cc.val < 8192) :
    (k0_pay4 (F := Ideal) (grid0.coords t) (iblk0 V c 0 t) (iblk0 V c 1 t) (iblk0 V c 2 t)) (ix2 r cc)
      = Cert.Adj.adj (hxOf V c) (aOf V c) ⟨t.val / 8 * 1024 + r.val, h0⟩ ⟨t.val % 8 * 1024 + cc.val, h1⟩ := by
  have ht := lt_N0 t
  obtain ⟨-, -, -, -, -, -, -, -, -, -, g0, g1⟩ := idx_facts0 t
  exact blk_adj (grid0.coords t) (t.val / 8) (t.val % 8) g0 g1 (by omega) (by omega) (hxOf V c) (aOf V c)
    (iblk0 V c 0 t) (iblk0 V c 1 t) (iblk0 V c 2 t)
    (fun r k => iblk0_0_apply V c t r k (by have := r.isLt; omega))
    (fun r k => iblk0_1_apply V c t r k (by have := r.isLt; omega))
    (fun r s => iblk0_2_apply V c t r s (by have := r.isLt; omega) (by have := s.isLt; omega)) r cc

/-- The adjacency with self loops at natural coordinates (zero outside the array). -/
def adjAt0 (c : Dev nD) (x y : ℕ) : EReal :=
  if h : x < 8192 ∧ y < 8192 then Cert.Adj.adj (hxOf V c) (aOf V c) ⟨x, h.1⟩ ⟨y, h.2⟩ else 0

/-- One point's step: the row-sum accumulator gains the block's row sums. -/
theorem step0_apply (c : Dev nD) (n : ℕ) (hn : n < cfg0.N) (acc : Vec Ideal S1024x1 .f32) (r : Fin 1024) :
    (k0_pay1 (F := Ideal) (k0_pay5 (grid0.coords ⟨n, hn⟩) (iblk0 V c 0 ⟨n, hn⟩) (iblk0 V c 1 ⟨n, hn⟩) (iblk0 V c 2 ⟨n, hn⟩) acc))
        (ix2 r (0 : Fin 1))
      = acc (ix2 r (0 : Fin 1)) + ∑ cc : Fin 1024, adjAt0 V c (n / 8 * 1024 + r.val) (n % 8 * 1024 + cc.val) := by
  have ht : n < 64 := lt_N0 ⟨n, hn⟩
  have hr := r.isLt
  refine (congrFun (Cert.Adj.Body.k0_pay1_eq _) _).trans ?_
  refine (Cert.Adj.Body.k0_pay5_apply (grid0.coords ⟨n, hn⟩) (iblk0 V c 0 ⟨n, hn⟩) (iblk0 V c 1 ⟨n, hn⟩) (iblk0 V c 2 ⟨n, hn⟩) acc r).trans ?_
  refine congrArg (acc (ix2 r (0 : Fin 1)) + ·) (Finset.sum_congr rfl fun cc _ => ?_)
  have hc := cc.isLt
  have h0 : n / 8 * 1024 + r.val < 8192 := by omega
  have h1 : n % 8 * 1024 + cc.val < 8192 := by omega
  refine (pay4_point V c ⟨n, hn⟩ r cc h0 h1).trans ?_
  unfold adjAt0
  rw [dif_pos ⟨h0, h1⟩]

/-- The accumulation's equations at a successor point. -/
theorem acc0_succ_first (c : Dev nD) (n : ℕ) (hn : n + 1 < cfg0.N) (h0 : (n + 1) % 8 = 0) :
    acc0 V c (n + 1) hn = k0_pay1 (k0_pay5 (grid0.coords ⟨n + 1, hn⟩) (iblk0 V c 0 ⟨n + 1, hn⟩) (iblk0 V c 1 ⟨n + 1, hn⟩)
      (iblk0 V c 2 ⟨n + 1, hn⟩) (k0_pay3 (F := Ideal))) := if_pos h0
theorem acc0_succ_next (c : Dev nD) (n : ℕ) (hn : n + 1 < cfg0.N) (h0 : ¬(n + 1) % 8 = 0) :
    acc0 V c (n + 1) hn = k0_pay1 (k0_pay5 (grid0.coords ⟨n + 1, hn⟩) (iblk0 V c 0 ⟨n + 1, hn⟩) (iblk0 V c 1 ⟨n + 1, hn⟩)
      (iblk0 V c 2 ⟨n + 1, hn⟩) (acc0 V c n (Nat.lt_of_succ_lt hn))) := if_neg h0

/-- THE ROW-SUM ACCUMULATOR after point n: the row sums of the column blocks 0 … n % 8 of row block n / 8. -/
theorem acc0_eq (c : Dev nD) : ∀ (n : ℕ) (hn : n < cfg0.N) (r : Fin 1024),
    (acc0 V c n hn : Vec Ideal S1024x1 .f32) (ix2 r (0 : Fin 1))
      = ∑ s ∈ Finset.range (n % 8 + 1), ∑ cc : Fin 1024, adjAt0 V c (n / 8 * 1024 + r.val) (s * 1024 + cc.val)
  | 0, hn, r => by
    refine (step0_apply V c 0 hn (k0_pay3 (F := Ideal)) r).trans ?_
    rw [Cert.Adj.Body.k0_pay3_eq, Finset.sum_range_one]
    exact zero_add _
  | n + 1, hn, r => by
    by_cases h0 : (n + 1) % 8 = 0
    · refine (congrFun (acc0_succ_first V c n hn h0) (ix2 r (0 : Fin 1))).trans ?_
      refine (step0_apply V c (n + 1) hn (k0_pay3 (F := Ideal)) r).trans ?_
      rw [Cert.Adj.Body.k0_pay3_eq, h0, Finset.sum_range_one]
      exact zero_add _
    · have hd : (n + 1) / 8 = n / 8 := by omega
      have hm : (n + 1) % 8 = n % 8 + 1 := by omega
      refine (congrFun (acc0_succ_next V c n hn h0) (ix2 r (0 : Fin 1))).trans ?_
      refine (step0_apply V c (n + 1) hn _ r).trans ?_
      rw [acc0_eq c n (Nat.lt_of_succ_lt hn) r, hd, hm, Finset.sum_range_succ _ (n % 8 + 1)]

/-- At the last column block the accumulator is the whole row sum. -/
theorem acc0_last (c : Dev nD) (t : Fin cfg0.N) (h7 : t.val % 8 = 7) (r : Fin 1024) (h0 : t.val / 8 * 1024 + r.val < 8192) :
    (acc0 V c t.val t.isLt : Vec Ideal S1024x1 .f32) (ix2 r (0 : Fin 1))
      = Cert.Adj.rowsum (Cert.Adj.adj (hxOf V c) (aOf V c)) ⟨t.val / 8 * 1024 + r.val, h0⟩ := by
  rw [acc0_eq V c t.val t.isLt r, h7]
  refine (sum_range_fin_blocks0 (fun y => adjAt0 V c (t.val / 8 * 1024 + r.val) y) 1024 8).trans ?_
  unfold Cert.Adj.rowsum
  refine Finset.sum_congr rfl fun j _ => ?_
  have hj : j.val < 8192 := j.isLt
  unfold adjAt0
  rw [dif_pos ⟨h0, hj⟩]

/-! ## The adjacency array -/

/-- WHAT POINT t WRITES BACK to the adjacency array is its block of the adjacency with self loops. -/
theorem flushed0_3_eq (c : Dev nD) (t : Fin cfg0.N) :
    (dat0 V c).flushed 3 t
      = ((cfg0.win 3).blk t).view.read (Elt Ideal) (Cert.Adj.adjArr (V c main_v33) (V c main_arg1)) := by
  have ht := lt_N0 t
  obtain ⟨-, -, -, -, -, -, e0, e1, -⟩ := idx_facts0 t
  show (cfg0.win 3).cut (grid0.coords t) ((dat0 V c).after 3 t) = _
  rw [after0_3]
  have key : ∀ y : S1024x1024.Idx,
      (k0_pay4 (F := Ideal) (grid0.coords t) (iblk0 V c 0 t) (iblk0 V c 1 t) (iblk0 V c 2 t)) y
        = Cert.Adj.adjArr (hxOf V c) (aOf V c) (((cfg0.win 3).blk t).view.emb y) := by
    intro y
    obtain ⟨r, cc, rfl⟩ : ∃ (r cc : Fin 1024), y = ix2 r cc := ⟨y 0, y 1, eq_ix2 y⟩
    have hr := r.isLt
    have hc := cc.isLt
    have h0 : t.val / 8 * 1024 + r.val < 8192 := by omega
    have h1 : t.val % 8 * 1024 + cc.val < 8192 := by omega
    have hemb : ((cfg0.win 3).blk t).view.emb (ix2 r cc)
        = (ix2 ⟨t.val / 8 * 1024 + r.val, h0⟩ ⟨t.val % 8 * 1024 + cc.val, h1⟩ : S8192x8192.Idx) := by
      refine funext fun a => Fin.ext ?_
      match a with
      | ⟨0, _⟩ => show win0_3.index t (0 : Fin 2) * 1024 + 1 * r.val = t.val / 8 * 1024 + r.val; rw [e0]; omega
      | ⟨1, _⟩ => show win0_3.index t (1 : Fin 2) * 1024 + 1 * cc.val = t.val % 8 * 1024 + cc.val; rw [e1]; omega
    rw [hemb]
    exact pay4_point V c t r cc h0 h1
  exact funext fun y => key y

theorem mem_blk0_3 (t : Fin cfg0.N) (i : S8192x8192.Idx) :
    i ∈ ((cfg0.win 3).blk t).view.set
      ↔ ∀ a : Fin 2, win0_3.index t a * S1024x1024.size a ≤ (i a).val ∧ (i a).val < win0_3.index t a * S1024x1024.size a + S1024x1024.size a := by
  show i ∈ ((View.whole main_v34_0).slice (win0_3.rect t)).set ↔ _
  rw [View.set_slice_whole, Rect.mem_set_unit]
  exact Iff.rfl

/-- THE ADJACENCY ARRAY after the region: the adjacency with self loops of the feature array and the raw adjacency. -/
theorem final0_3 (c : Dev nD) :
    (dat0 (F := Ideal) V c).arrAt 3 cfg0.N = Cert.Adj.adjArr (V c main_v33) (V c main_arg1) :=
  (dat0 V c).arrAt_eq_of_cover 3 (Cert.Adj.adjArr (V c main_v33) (V c main_arg1))
    (fun t _ => flushed0_3_eq V c t) fun i => by
      have hi0 : (i 0).val < 8192 := (i 0).isLt
      have hi1 : (i 1).val < 8192 := (i 1).isLt
      have hN : cfg0.N = 64 := N_0
      let t : Fin cfg0.N := ⟨8 * ((i 0).val / 1024) + (i 1).val / 1024, by rw [hN]; omega⟩
      have hm : t.val % 8 = (i 1).val / 1024 := by show (8 * ((i 0).val / 1024) + (i 1).val / 1024) % 8 = _; omega
      have hq : t.val / 8 = (i 0).val / 1024 := by show (8 * ((i 0).val / 1024) + (i 1).val / 1024) / 8 = _; omega
      obtain ⟨-, -, -, -, -, -, e0, e1, -⟩ := idx_facts0 t
      refine ⟨t, flush0_3 t, ?_⟩
      rw [mem_blk0_3]
      intro a
      match a with
      | ⟨0, _⟩ =>
        show win0_3.index t (0 : Fin 2) * 1024 ≤ (i 0).val ∧ (i 0).val < win0_3.index t (0 : Fin 2) * 1024 + 1024
        rw [e0, hq]; omega
      | ⟨1, _⟩ =>
        show win0_3.index t (1 : Fin 2) * 1024 ≤ (i 1).val ∧ (i 1).val < win0_3.index t (1 : Fin 2) * 1024 + 1024
        rw [e1, hm]; omega

/-! ## The degree factors -/

/-- WHAT A FLUSHING POINT WRITES BACK to the degree array is its block of the reciprocal square roots of the row sums. -/
theorem flushed0_4_eq (c : Dev nD) (t : Fin cfg0.N) (hf : (cfg0.win 4).flush t = true) :
    (dat0 V c).flushed 4 t
      = ((cfg0.win 4).blk t).view.read (Elt Ideal) (G0deg (V c main_v33) (V c main_arg1)) := by
  have h7 : t.val % 8 = 7 := (flush0_4 t).mp hf
  have ht := lt_N0 t
  obtain ⟨-, -, -, -, -, -, -, -, e0, e1, -⟩ := idx_facts0 t
  show (cfg0.win 4).cut (grid0.coords t) ((dat0 V c).after 4 t) = _
  rw [after0_4]
  have key : ∀ y : S1024x1.Idx,
      (k0_pay2 (F := Ideal) (acc0 V c t.val t.isLt)) y
        = G0deg (hxOf V c) (aOf V c) (((cfg0.win 4).blk t).view.emb y) := by
    intro y
    obtain ⟨r, u, rfl⟩ : ∃ (r : Fin 1024) (u : Fin 1), y = ix2 r u := ⟨y 0, y 1, eq_ix2 y⟩
    obtain rfl : u = 0 := Subsingleton.elim _ _
    have hr := r.isLt
    have h0 : t.val / 8 * 1024 + r.val < 8192 := by omega
    have hemb : ((cfg0.win 4).blk t).view.emb (ix2 r (0 : Fin 1))
        = (ix2 ⟨t.val / 8 * 1024 + r.val, h0⟩ (0 : Fin 1) : S8192x1.Idx) := by
      refine funext fun a => Fin.ext ?_
      match a with
      | ⟨0, _⟩ => show win0_4.index t (0 : Fin 2) * 1024 + 1 * r.val = t.val / 8 * 1024 + r.val; rw [e0]; omega
      | ⟨1, _⟩ => show win0_4.index t (1 : Fin 2) * 1 + 1 * 0 = 0; rw [e1]
    rw [hemb]
    refine (Cert.Adj.Body.k0_pay2_apply (acc0 V c t.val t.isLt) r).trans ?_
    rw [acc0_last V c t h7 r h0]
    rfl
  exact funext fun y => key y

theorem mem_blk0_4 (t : Fin cfg0.N) (i : S8192x1.Idx) :
    i ∈ ((cfg0.win 4).blk t).view.set
      ↔ ∀ a : Fin 2, win0_4.index t a * S1024x1.size a ≤ (i a).val ∧ (i a).val < win0_4.index t a * S1024x1.size a + S1024x1.size a := by
  show i ∈ ((View.whole main_v34_1).slice (win0_4.rect t)).set ↔ _
  rw [View.set_slice_whole, Rect.mem_set_unit]
  exact Iff.rfl

/-- THE DEGREE ARRAY after the region: the reciprocal square root of each row sum of the adjacency with self loops. -/
theorem final0_4 (c : Dev nD) :
    (dat0 (F := Ideal) V c).arrAt 4 cfg0.N = G0deg (V c main_v33) (V c main_arg1) :=
  (dat0 V c).arrAt_eq_of_cover 4 (G0deg (V c main_v33) (V c main_arg1))
    (fun t hf => flushed0_4_eq V c t hf) fun i => by
      have hi0 : (i 0).val < 8192 := (i 0).isLt
      have hi1 : (i 1).val < 1 := (i 1).isLt
      have hN : cfg0.N = 64 := N_0
      let t : Fin cfg0.N := ⟨8 * ((i 0).val / 1024) + 7, by rw [hN]; omega⟩
      have h7 : t.val % 8 = 7 := by show (8 * ((i 0).val / 1024) + 7) % 8 = 7; omega
      have hq : t.val / 8 = (i 0).val / 1024 := by show (8 * ((i 0).val / 1024) + 7) / 8 = _; omega
      obtain ⟨-, -, -, -, -, -, -, -, e0, e1, -⟩ := idx_facts0 t
      refine ⟨t, (flush0_4 t).mpr h7, ?_⟩
      rw [mem_blk0_4]
      intro a
      match a with
      | ⟨0, _⟩ =>
        show win0_4.index t (0 : Fin 2) * 1024 ≤ (i 0).val ∧ (i 0).val < win0_4.index t (0 : Fin 2) * 1024 + 1024
        rw [e0, hq]; omega
      | ⟨1, _⟩ =>
        show win0_4.index t (1 : Fin 2) * 1 ≤ (i 1).val ∧ (i 1).val < win0_4.index t (1 : Fin 2) * 1 + 1
        rw [e1]; omega

end Cert.KernelIdeal.Hand

end
-- ==== Proof.Value1.lean ====
/-
  The second kernel's result array as one function. Point t = 8·i + j of the 4 × 8 grid reads block (i, j)
  of the adjacency, rows block i of the degree factors and rows block j of the scaled values. The accumulator
  after point t holds, at (r, k), the sum over the column blocks s ≤ j and the places c < 1024 of
  adjacency (2048·i + r, 1024·s + c) times scaled value (1024·s + c, k); at j = 7 that is the sum over all
  8192 columns, and the block written back is the leaky rectifier of the degree factor times that sum. The
  four row blocks tile the array, so the array ends at that function of the three input arrays.
-/
import proofs.«175017_j25469156065919_2_alg».proof.Proof.Data1
import proofs.«175017_j25469156065919_2_alg».proof.Proof.KernelBody
import proofs.«175017_j25469156065919_2_alg».proof.Proof.BlockSum
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- Column blocks `s < Q` of `P` places each, summed block by block, are all `Q * P` columns. -/
theorem sum_range_fin_blocks {M : Type*} [AddCommMonoid M] (f : ℕ → M) (P Q : ℕ) :
    ∑ s ∈ Finset.range Q, ∑ c : Fin P, f (s * P + c.val) = ∑ j : Fin (Q * P), f j.val := by
  rw [Fin.sum_univ_eq_sum_range (fun n => f n) (Q * P), ← Cert.Adj.sum_range_blocks]
  refine Finset.sum_congr rfl fun s _ => ?_
  exact Fin.sum_univ_eq_sum_range (fun c => f (s * P + c)) P

/-- The second kernel's result as a function of the adjacency, the degree factors and the scaled values. -/
def G1 (a1 : S8192x8192.Idx → EReal) (d : S8192x1.Idx → EReal) (vd : S8192x64.Idx → EReal) : S8192x64.Idx → EReal :=
  fun idx => Cert.Adj.leaky (d (ix2 (idx 0) (0 : Fin 1)) * ∑ j : Fin 8192, a1 (ix2 (idx 0) j) * vd (ix2 j (idx 1)))

variable (V : (c : Dev nD) → (b : Ref sig .tc) → Buf (Elt Ideal) ((c : Thread nD τ).loc b))

/-- The adjacency array the region finds, at its literal type. -/
abbrev a1Of (c : Dev nD) : S8192x8192.Idx → EReal := V c main_v34_0
/-- The degree factors the region finds. -/
abbrev dOf (c : Dev nD) : S8192x1.Idx → EReal := V c main_v34_1
/-- The scaled values the region finds. -/
abbrev vdOf (c : Dev nD) : S8192x64.Idx → EReal := V c main_v37

/-- The index maps over the 32 grid points: point t reads block (t / 8, t % 8) of the adjacency,
    block t / 8 of the degree factors, block t % 8 of the scaled values, and writes block t / 8 of the result. -/
theorem idx_facts1 : ∀ t : Fin cfg1.N,
    win1_0.index t (0 : Fin 2) = t.val / 8 ∧ win1_0.index t (1 : Fin 2) = t.val % 8
    ∧ win1_1.index t (0 : Fin 2) = t.val / 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = 0 :=
  (by decide +kernel : ∀ t : Fin grid1.N, _)

theorem lt_N1 (t : Fin cfg1.N) : t.val < 32 := lt_of_lt_of_eq t.isLt (show cfg1.N = 32 from N_1)

/-- The adjacency block at point t. -/
theorem iblk1_0_apply (c : Dev nD) (t : Fin cfg1.N) (r : Fin 2048) (cc : Fin 1024)
    (h0 : t.val / 8 * 2048 + r.val < 8192) (h1 : t.val % 8 * 1024 + cc.val < 8192) :
    (iblk1 V c 0 t : Vec Ideal S2048x1024 .f32) (ix2 r cc)
      = a1Of V c (ix2 ⟨t.val / 8 * 2048 + r.val, h0⟩ ⟨t.val % 8 * 1024 + cc.val, h1⟩) := by
  obtain ⟨e0, e1, -⟩ := idx_facts1 t
  show V c main_v34_0 (((cfg1.win 0).blk t).view.emb (ix2 r cc)) = _
  refine congrArg _ (funext fun a => Fin.ext ?_)
  match a with
  | ⟨0, _⟩ => show win1_0.index t (0 : Fin 2) * 2048 + 1 * r.val = t.val / 8 * 2048 + r.val; rw [e0]; omega
  | ⟨1, _⟩ => show win1_0.index t (1 : Fin 2) * 1024 + 1 * cc.val = t.val % 8 * 1024 + cc.val; rw [e1]; omega

/-- The degree-factor block at point t. -/
theorem iblk1_1_apply (c : Dev nD) (t : Fin cfg1.N) (r : Fin 2048) (h0 : t.val / 8 * 2048 + r.val < 8192) :
    (iblk1 V c 1 t : Vec Ideal S2048x1 .f32) (ix2 r (0 : Fin 1))
      = dOf V c (ix2 ⟨t.val / 8 * 2048 + r.val, h0⟩ (0 : Fin 1)) := by
  obtain ⟨-, -, e0, e1, -⟩ := idx_facts1 t
  show V c main_v34_1 (((cfg1.win 1).blk t).view.emb (ix2 r (0 : Fin 1))) = _
  refine congrArg _ (funext fun a => Fin.ext ?_)
  match a with
  | ⟨0, _⟩ => show win1_1.index t (0 : Fin 2) * 2048 + 1 * r.val = t.val / 8 * 2048 + r.val; rw [e0]; omega
  | ⟨1, _⟩ => show win1_1.index t (1 : Fin 2) * 1 + 1 * 0 = 0; rw [e1]

/-- The scaled-value block at point t. -/
theorem iblk1_2_apply (c : Dev nD) (t : Fin cfg1.N) (cc : Fin 1024) (k : Fin 64)
    (h1 : t.val % 8 * 1024 + cc.val < 8192) :
    (iblk1 V c 2 t : Vec Ideal S1024x64 .bf16) (ix2 cc k)
      = vdOf V c (ix2 ⟨t.val % 8 * 1024 + cc.val, h1⟩ k) := by
  obtain ⟨-, -, -, -, e0, e1, -⟩ := idx_facts1 t
  show V c main_v37 (((cfg1.win 2).blk t).view.emb (ix2 cc k)) = _
  refine congrArg _ (funext fun a => Fin.ext ?_)
  match a with
  | ⟨0, _⟩ => show win1_2.index t (0 : Fin 2) * 1024 + 1 * cc.val = t.val % 8 * 1024 + cc.val; rw [e0]; omega
  | ⟨1, _⟩ => show win1_2.index t (1 : Fin 2) * 64 + 1 * k.val = k.val; rw [e1]; omega

/-- The adjacency array at natural coordinates (zero outside the array). -/
def adjAt (c : Dev nD) (x y : ℕ) : EReal :=
  if h : x < 8192 ∧ y < 8192 then a1Of V c (ix2 ⟨x, h.1⟩ ⟨y, h.2⟩) else 0

/-- The scaled-value array at natural coordinates (zero outside the array). -/
def vdAt (c : Dev nD) (y k : ℕ) : EReal :=
  if h : y < 8192 ∧ k < 64 then vdOf V c (ix2 ⟨y, h.1⟩ ⟨k, h.2⟩) else 0

/-- One point's step: the accumulator gains the product of the point's two blocks. -/
theorem step1_apply (c : Dev nD) (n : ℕ) (hn : n < cfg1.N) (acc : Vec Ideal S2048x64 .f32) (r : Fin 2048) (k : Fin 64) :
    (k1_pay2 (F := Ideal) (iblk1 V c 0 ⟨n, hn⟩) (iblk1 V c 2 ⟨n, hn⟩) acc) (ix2 r k)
      = acc (ix2 r k) + ∑ cc : Fin 1024,
          adjAt V c (n / 8 * 2048 + r.val) (n % 8 * 1024 + cc.val) * vdAt V c (n % 8 * 1024 + cc.val) k.val := by
  have ht : n < 32 := lt_N1 ⟨n, hn⟩
  have hr := r.isLt
  have hk := k.isLt
  refine (Cert.Adj.Body.k1_pay2_apply (iblk1 V c 0 ⟨n, hn⟩) (iblk1 V c 2 ⟨n, hn⟩) acc r k).trans ?_
  refine congrArg (acc (ix2 r k) + ·) (Finset.sum_congr rfl fun cc _ => ?_)
  have hc := cc.isLt
  have h0 : n / 8 * 2048 + r.val < 8192 := by omega
  have h1 : n % 8 * 1024 + cc.val < 8192 := by omega
  refine (congrArg₂ (fun (x y : EReal) => x * y) (iblk1_0_apply V c ⟨n, hn⟩ r cc h0 h1) (iblk1_2_apply V c ⟨n, hn⟩ cc k h1)).trans ?_
  unfold adjAt vdAt
  rw [dif_pos ⟨h0, h1⟩, dif_pos ⟨h1, hk⟩]

/-- The accumulation's equations at a successor point. -/
theorem acc1_succ_first (c : Dev nD) (n : ℕ) (hn : n + 1 < cfg1.N) (h0 : (n + 1) % 8 = 0) :
    acc1 V c (n + 1) hn = k1_pay2 (iblk1 V c 0 ⟨n + 1, hn⟩) (iblk1 V c 2 ⟨n + 1, hn⟩) (k1_pay1 (F := Ideal)) := if_pos h0
theorem acc1_succ_next (c : Dev nD) (n : ℕ) (hn : n + 1 < cfg1.N) (h0 : ¬(n + 1) % 8 = 0) :
    acc1 V c (n + 1) hn = k1_pay2 (iblk1 V c 0 ⟨n + 1, hn⟩) (iblk1 V c 2 ⟨n + 1, hn⟩) (acc1 V c n (Nat.lt_of_succ_lt hn)) :=
  if_neg h0

/-- THE ACCUMULATOR after point n: the products of the column blocks 0 … n % 8 of row block n / 8. -/
theorem acc1_eq (c : Dev nD) : ∀ (n : ℕ) (hn : n < cfg1.N) (r : Fin 2048) (k : Fin 64),
    (acc1 V c n hn : Vec Ideal S2048x64 .f32) (ix2 r k)
      = ∑ s ∈ Finset.range (n % 8 + 1), ∑ cc : Fin 1024,
          adjAt V c (n / 8 * 2048 + r.val) (s * 1024 + cc.val) * vdAt V c (s * 1024 + cc.val) k.val
  | 0, hn, r, k => by
    refine (step1_apply V c 0 hn (k1_pay1 (F := Ideal)) r k).trans ?_
    rw [Cert.Adj.Body.k1_pay1_eq, Finset.sum_range_one]
    exact zero_add _
  | n + 1, hn, r, k => by
    by_cases h0 : (n + 1) % 8 = 0
    · refine (congrFun (acc1_succ_first V c n hn h0) (ix2 r k)).trans ?_
      refine (step1_apply V c (n + 1) hn (k1_pay1 (F := Ideal)) r k).trans ?_
      rw [Cert.Adj.Body.k1_pay1_eq, h0, Finset.sum_range_one]
      exact zero_add _
    · have hd : (n + 1) / 8 = n / 8 := by omega
      have hm : (n + 1) % 8 = n % 8 + 1 := by omega
      refine (congrFun (acc1_succ_next V c n hn h0) (ix2 r k)).trans ?_
      refine (step1_apply V c (n + 1) hn _ r k).trans ?_
      rw [acc1_eq c n (Nat.lt_of_succ_lt hn) r k, hd, hm, Finset.sum_range_succ _ (n % 8 + 1)]

/-- At the last column block the accumulator is the sum over all 8192 columns. -/
theorem acc1_last (c : Dev nD) (t : Fin cfg1.N) (h7 : t.val % 8 = 7) (r : Fin 2048) (k : Fin 64)
    (h0 : t.val / 8 * 2048 + r.val < 8192) :
    (acc1 V c t.val t.isLt : Vec Ideal S2048x64 .f32) (ix2 r k)
      = ∑ j : Fin 8192, a1Of V c (ix2 ⟨t.val / 8 * 2048 + r.val, h0⟩ j) * vdOf V c (ix2 j k) := by
  rw [acc1_eq V c t.val t.isLt r k, h7]
  have e := sum_range_fin_blocks
    (fun y => adjAt V c (t.val / 8 * 2048 + r.val) y * vdAt V c y k.val) 1024 8
  refine e.trans ?_
  refine Finset.sum_congr rfl fun j _ => ?_
  have hj : j.val < 8192 := j.isLt
  unfold adjAt vdAt
  rw [dif_pos ⟨h0, hj⟩, dif_pos ⟨hj, k.isLt⟩]

/-- WHAT A FLUSHING POINT WRITES BACK is its block of `G1` of the three arrays as the region finds them. -/
theorem flushed1_eq (c : Dev nD) (t : Fin cfg1.N) (hf : (cfg1.win 3).flush t = true) :
    (dat1 V c).flushed 3 t
      = ((cfg1.win 3).blk t).view.read (Elt Ideal) (G1 (V c main_v34_0) (V c main_v34_1) (V c main_v37)) := by
  have h7 : t.val % 8 = 7 := (flush1_3 t).mp hf
  have ht := lt_N1 t
  obtain ⟨-, -, -, -, -, -, e0, e1⟩ := idx_facts1 t
  show (cfg1.win 3).cut (grid1.coords t) ((dat1 V c).after 3 t) = _
  rw [after1_3]
  have key : ∀ y : S2048x64.Idx,
      (k1_pay3 (F := Ideal) (iblk1 V c 1 t) (acc1 V c t.val t.isLt)) y
        = G1 (V c main_v34_0) (V c main_v34_1) (V c main_v37) (((cfg1.win 3).blk t).view.emb y) := by
    intro y
    obtain ⟨r, k, rfl⟩ : ∃ (r : Fin 2048) (k : Fin 64), y = ix2 r k := ⟨y 0, y 1, eq_ix2 y⟩
    have hr := r.isLt
    have h0 : t.val / 8 * 2048 + r.val < 8192 := by omega
    have hemb : ((cfg1.win 3).blk t).view.emb (ix2 r k) = (ix2 ⟨t.val / 8 * 2048 + r.val, h0⟩ k : S8192x64.Idx) := by
      refine funext fun a => Fin.ext ?_
      match a with
      | ⟨0, _⟩ => show win1_3.index t (0 : Fin 2) * 2048 + 1 * r.val = t.val / 8 * 2048 + r.val; rw [e0]; omega
      | ⟨1, _⟩ => show win1_3.index t (1 : Fin 2) * 64 + 1 * k.val = k.val; rw [e1]; omega
    rw [hemb]
    refine (Cert.Adj.Body.k1_pay3_apply (iblk1 V c 1 t) (acc1 V c t.val t.isLt) r k).trans ?_
    rw [iblk1_1_apply V c t r h0, acc1_last V c t h7 r k h0]
    rfl
  exact funext fun y => key y

/-- An index of the result array is in point t's block iff its row is in row block t / 8. -/
theorem mem_blk1_3 (t : Fin cfg1.N) (i : S8192x64.Idx) :
    i ∈ ((cfg1.win 3).blk t).view.set
      ↔ ∀ a : Fin 2, win1_3.index t a * S2048x64.size a ≤ (i a).val ∧ (i a).val < win1_3.index t a * S2048x64.size a + S2048x64.size a := by
  show i ∈ ((View.whole main_v38).slice (win1_3.rect t)).set ↔ _
  rw [View.set_slice_whole, Rect.mem_set_unit]
  exact Iff.rfl

/-- THE RESULT ARRAY after the region: `G1` of the adjacency, the degree factors and the scaled values. -/
theorem final1 (c : Dev nD) :
    (dat1 (F := Ideal) V c).arrAt 3 cfg1.N = G1 (V c main_v34_0) (V c main_v34_1) (V c main_v37) :=
  (dat1 V c).arrAt_eq_of_cover 3 (G1 (V c main_v34_0) (V c main_v34_1) (V c main_v37))
    (fun t hf => flushed1_eq V c t hf) fun i => by
      have hi0 : (i 0).val < 8192 := (i 0).isLt
      have hi1 : (i 1).val < 64 := (i 1).isLt
      have hN : cfg1.N = 32 := N_1
      let t : Fin cfg1.N := ⟨8 * ((i 0).val / 2048) + 7, by rw [hN]; omega⟩
      have h7 : t.val % 8 = 7 := by show (8 * ((i 0).val / 2048) + 7) % 8 = 7; omega
      have hq : t.val / 8 = (i 0).val / 2048 := by show (8 * ((i 0).val / 2048) + 7) / 8 = _; omega
      obtain ⟨-, -, -, -, -, -, e0, e1⟩ := idx_facts1 t
      refine ⟨t, (flush1_3 t).mpr h7, ?_⟩
      rw [mem_blk1_3]
      intro a
      match a with
      | ⟨0, _⟩ =>
        show win1_3.index t (0 : Fin 2) * 2048 ≤ (i 0).val ∧ (i 0).val < win1_3.index t (0 : Fin 2) * 2048 + 2048
        rw [e0, hq]; omega
      | ⟨1, _⟩ =>
        show win1_3.index t (1 : Fin 2) * 64 ≤ (i 1).val ∧ (i 1).val < win1_3.index t (1 : Fin 2) * 64 + 64
        rw [e1]; omega

end Cert.KernelIdeal.Hand

end
-- ==== Proof.HostGlue.lean ====
/-
  The host operations around the two kernels, at the ideal values. Before the first kernel the host
  computes, by the same operations as the reference, the feature array (normalized H times W1 plus b1;
  the narrowing to bf16 is the identity on extended reals) and the value array (normalized H times
  Wout plus bout): the composed terms ARE the reference's stages. Between the kernels it scales row j
  of the value array by the degree factor d j.
-/
import proofs.«175017_j25469156065919_2_alg».proof.Proof.Gen.KernelIdeal.Launch
import proofs.«175017_j25469156065919_2_alg».proof.Proof.Gen.ReferenceIdeal.Read
import Idealize.ShloMosaic.Lib.StableHlo.Run
import Idealize.ShloMosaic.Lib.Pipeline.Value
import Idealize.ShloMosaic.Lib.ValueIdx

noncomputable section

namespace Cert.Adj.Host

open Idealize.ShloMosaic Idealize.ShloMosaic.TcCoe Idealize.ShloMosaic.StableHlo Idealize.ShloMosaic.ValueIdx

/-- After the host operations before the first kernel, the feature array the kernel reads (for its row
    blocks and for its column blocks) is the reference's feature stage of the same arguments. -/
theorem hx_stage (V₀ : Valuation Cert.KernelIdeal.τ Cert.KernelIdeal.sig (Elt Ideal)) :
    (StableHlo.after (Cert.KernelIdeal.Gen.hostOps0 (F := Ideal)) V₀ (Proc.devRef .tc Cert.KernelIdeal.main_v33)
        : Cert.KernelIdeal.S8192x256.Idx → EReal)
      = Cert.ReferenceIdeal.Read.val_main_v28 (F := Ideal) (V₀ (Proc.devRef .tc Cert.KernelIdeal.main_arg0))
          (V₀ (Proc.devRef .tc Cert.KernelIdeal.main_arg2)) (V₀ (Proc.devRef .tc Cert.KernelIdeal.main_arg3))
          (V₀ (Proc.devRef .tc Cert.KernelIdeal.main_arg4)) (V₀ (Proc.devRef .tc Cert.KernelIdeal.main_arg5)) := by
  after_results_simp
  rfl

/-- … and the value array is the reference's value stage of the same arguments. -/
theorem v_stage (V₀ : Valuation Cert.KernelIdeal.τ Cert.KernelIdeal.sig (Elt Ideal)) :
    (StableHlo.after (Cert.KernelIdeal.Gen.hostOps0 (F := Ideal)) V₀ (Proc.devRef .tc Cert.KernelIdeal.main_v32)
        : Cert.KernelIdeal.S8192x64.Idx → EReal)
      = Cert.ReferenceIdeal.Read.val_main_v62 (F := Ideal) (V₀ (Proc.devRef .tc Cert.KernelIdeal.main_arg0))
          (V₀ (Proc.devRef .tc Cert.KernelIdeal.main_arg2)) (V₀ (Proc.devRef .tc Cert.KernelIdeal.main_arg3))
          (V₀ (Proc.devRef .tc Cert.KernelIdeal.main_arg6)) (V₀ (Proc.devRef .tc Cert.KernelIdeal.main_arg7)) := by
  after_results_simp
  rfl

/-- The raw adjacency is not written by the host operations before the first kernel. -/
theorem a_stage (V₀ : Valuation Cert.KernelIdeal.τ Cert.KernelIdeal.sig (Elt Ideal)) :
    StableHlo.after (Cert.KernelIdeal.Gen.hostOps0 (F := Ideal)) V₀ (Proc.devRef .tc Cert.KernelIdeal.main_arg1)
      = V₀ (Proc.devRef .tc Cert.KernelIdeal.main_arg1) := by
  after_results_simp

/-- Between the kernels: the scaled value array at (j, k) is the degree factor of row j times the value
    array at (j, k) (`d`, `V`: what the degree and value arrays hold before these operations). -/
theorem vd_apply (V₁ : Valuation Cert.KernelIdeal.τ Cert.KernelIdeal.sig (Elt Ideal))
    (d : FVec Ideal Cert.KernelIdeal.S8192x1 .f32) (V : FVec Ideal Cert.KernelIdeal.S8192x64 .f32)
    (hd : V₁ (Proc.devRef .tc Cert.KernelIdeal.main_v34_1) = d) (hV : V₁ (Proc.devRef .tc Cert.KernelIdeal.main_v32) = V)
    (j : Fin 8192) (k : Fin 64) :
    (StableHlo.after (Cert.KernelIdeal.Gen.hostOps1 (F := Ideal)) V₁ (Proc.devRef .tc Cert.KernelIdeal.main_v37)
        : Cert.KernelIdeal.S8192x64.Idx → EReal) (ix2 j k)
      = d (ix2 j (0 : Fin 1)) * V (ix2 j k) := by
  have e : (StableHlo.after (Cert.KernelIdeal.Gen.hostOps1 (F := Ideal)) V₁ (Proc.devRef .tc Cert.KernelIdeal.main_v37)
        : Cert.KernelIdeal.S8192x64.Idx → EReal)
      = truncf .bf16 (mulf (broadcastInDim Cert.KernelIdeal.S8192x64 ![0, 1] Cert.KernelIdeal.Gen.bcast_S8192x1_S8192x64_0_1 d)
          V : FVec Ideal Cert.KernelIdeal.S8192x64 .f32) Cert.KernelIdeal.Gen.bitsLt_bf16_f32 := by
    subst hd hV
    after_results
  rw [e]
  show (broadcastInDim Cert.KernelIdeal.S8192x64 ![0, 1] Cert.KernelIdeal.Gen.bcast_S8192x1_S8192x64_0_1 d) (ix2 j k) * _ = _
  rw [broadcastInDim_apply _ Cert.KernelIdeal.Gen.bcast_S8192x1_S8192x64_0_1 d (ix2 j k) (ix2 j (0 : Fin 1)) (fun a => by
    match a with
    | ⟨0, _⟩ =>
      show j.val = if (8192 : Nat) = 1 then 0 else j.val
      rw [if_neg (by decide)]
    | ⟨1, _⟩ =>
      show 0 = if (1 : Nat) = 1 then 0 else k.val
      rw [if_pos rfl])]

end Cert.Adj.Host

end
-- ==== Proof.BridgeCore.lean ====
/-
  The kernel program's two results as the specification's arrays. The host operations before the first kernel
  leave the feature array hx and the value array V (the reference's own stages of the same arguments) and do not
  touch the raw adjacency A; the first kernel leaves the adjacency with self loops and the degree factors
  d = rsqrt (row sums); the host operations between the kernels leave those two arrays as they are and scale
  row j of V by d j; the second kernel leaves leaky (d i · Σ_j adj i j · (d j · V j k)): the arrangement with
  the column factor folded into V.
-/
import proofs.«175017_j25469156065919_2_alg».proof.Proof.Value1
import proofs.«175017_j25469156065919_2_alg».proof.Proof.HostGlue
import proofs.«175017_j25469156065919_2_alg».proof.Proof.AdjSpec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.StableHlo

/-- The second kernel's function of the adjacency with self loops, its degree factors and the values scaled by
    them is the specification's result in the arrangement that folds the column factor into the values. -/
theorem G1_eq_outFolded (hx : S8192x256.Idx → EReal) (A : S8192x8192.Idx → EReal) (Vv : S8192x64.Idx → EReal)
    (vd : S8192x64.Idx → EReal)
    (hvd : ∀ (j : Fin 8192) (k : Fin 64), vd (ix2 j k) = Cert.Adj.degRsqrt (Cert.Adj.adj hx A) j * Vv (ix2 j k)) :
    G1 (Cert.Adj.adjArr hx A) (fun idx => Cert.Adj.degRsqrt (Cert.Adj.adj hx A) (idx 0)) vd
      = Cert.Adj.outFoldedArr hx A Vv := by
  funext idx
  obtain ⟨i, k, rfl⟩ : ∃ (i : Fin 8192) (k : Fin 64), idx = ix2 i k := ⟨idx 0, idx 1, eq_ix2 idx⟩
  show Cert.Adj.leaky (Cert.Adj.degRsqrt (Cert.Adj.adj hx A) i
      * ∑ j : Fin 8192, Cert.Adj.adj hx A i j * vd (ix2 j k))
    = Cert.Adj.leaky (Cert.Adj.degRsqrt (Cert.Adj.adj hx A) i
      * ∑ j : Fin 8192, Cert.Adj.adj hx A i j * (Cert.Adj.degRsqrt (Cert.Adj.adj hx A) j * Vv (ix2 j k)))
  congr 2
  exact Finset.sum_congr rfl fun j _ => by rw [hvd]

section Chain

variable (W0v W2v : Valuation τ sig (Elt Ideal))

/-- The feature array: the reference's feature stage of the launch contents. -/
abbrev hxAt : S8192x256.Idx → EReal :=
  Cert.ReferenceIdeal.Read.val_main_v28 (F := Ideal) (W0v (Proc.devRef .tc main_arg0)) (W0v (Proc.devRef .tc main_arg2))
    (W0v (Proc.devRef .tc main_arg3)) (W0v (Proc.devRef .tc main_arg4)) (W0v (Proc.devRef .tc main_arg5))
/-- The value array: the reference's value stage of the launch contents. -/
abbrev vAt : S8192x64.Idx → EReal :=
  Cert.ReferenceIdeal.Read.val_main_v62 (F := Ideal) (W0v (Proc.devRef .tc main_arg0)) (W0v (Proc.devRef .tc main_arg2))
    (W0v (Proc.devRef .tc main_arg3)) (W0v (Proc.devRef .tc main_arg6)) (W0v (Proc.devRef .tc main_arg7))
/-- The raw adjacency at launch. -/
abbrev aAt : S8192x8192.Idx → EReal := W0v (Proc.devRef .tc main_arg1)

/-- The host operations between the kernels do not write the adjacency array … -/
theorem after1_v34_0 : StableHlo.after (hostOps1 (F := Ideal)) W2v (Proc.devRef .tc main_v34_0) = W2v (Proc.devRef .tc main_v34_0) := by
  after_results
/-- … nor the degree factors. -/
theorem after1_v34_1 : StableHlo.after (hostOps1 (F := Ideal)) W2v (Proc.devRef .tc main_v34_1) = W2v (Proc.devRef .tc main_v34_1) := by
  after_results

/-- THE SECOND KERNEL'S RESULT over the contents the first kernel and the host operations leave: when the first
    kernel left the adjacency with self loops and its degree factors and did not touch the value array, the
    second kernel's function of what it finds is the specification's folded arrangement. -/
theorem out_assembly
    (h2a : (W2v (Proc.devRef .tc main_v34_0) : S8192x8192.Idx → EReal) = Cert.Adj.adjArr (hxAt W0v) (aAt W0v))
    (h2d : (W2v (Proc.devRef .tc main_v34_1) : S8192x1.Idx → EReal)
      = fun idx => Cert.Adj.degRsqrt (Cert.Adj.adj (hxAt W0v) (aAt W0v)) (idx 0))
    (h2v : (W2v (Proc.devRef .tc main_v32) : S8192x64.Idx → EReal) = vAt W0v) :
    G1 (StableHlo.after (hostOps1 (F := Ideal)) W2v (Proc.devRef .tc main_v34_0))
        (StableHlo.after (hostOps1 (F := Ideal)) W2v (Proc.devRef .tc main_v34_1))
        (StableHlo.after (hostOps1 (F := Ideal)) W2v (Proc.devRef .tc main_v37))
      = Cert.Adj.outFoldedArr (hxAt W0v) (aAt W0v) (vAt W0v) := by
  rw [after1_v34_0, after1_v34_1, h2a, h2d]
  refine G1_eq_outFolded (hxAt W0v) (aAt W0v) (vAt W0v) _ fun j k => ?_
  refine (Cert.Adj.Host.vd_apply W2v _ _ rfl rfl j k).trans ?_
  rw [h2d, h2v]
  rfl

end Chain

end Cert.KernelIdeal.Hand

end
-- ==== Proof.RefRead.lean ====
/-
  The reference program's two results, read stage by stage, are the specification's arrays in the
  arrangement that scales the matrix: with hx the reference's own feature stage (normalized H times W1
  plus b1) and V its value stage (normalized H times Wout plus bout), both kept as opaque stage terms,
  the second result is the adjacency max (logistic (score)) w · mask + identity, and the first is
  leaky (Σ_j ((adj i j · d i) · d j) · V j k) with d i = (Σ_j adj i j) ^ (-1/2).
-/
import proofs.«175017_j25469156065919_2_alg».proof.Proof.Gen.ReferenceIdeal.Read
import proofs.«175017_j25469156065919_2_alg».proof.Proof.AdjSpec

noncomputable section

open scoped BigOperators

namespace Cert.Adj.Ref

open Cert.ReferenceIdeal Cert.ReferenceIdeal.Read Idealize.ShloMosaic Idealize.ShloMosaic.ValueIdx

variable (x0 : (⟨S8192x128, .f32⟩ : BufTy).Contents (Elt Ideal)) (x1 : (⟨S8192x8192, .f32⟩ : BufTy).Contents (Elt Ideal))
  (x2 x3 : (⟨S128, .f32⟩ : BufTy).Contents (Elt Ideal)) (x4 : (⟨S128x256, .f32⟩ : BufTy).Contents (Elt Ideal))
  (x5 : (⟨S256, .f32⟩ : BufTy).Contents (Elt Ideal)) (x6 : (⟨S128x64, .f32⟩ : BufTy).Contents (Elt Ideal))
  (x7 : (⟨S64, .f32⟩ : BufTy).Contents (Elt Ideal))

/-- The f32 word of 1.0 denotes 1. -/
theorem one_word : Ideal.ofBits .f32 0x3F800000#32 = 1 := by
  simp [Ideal.ofBits, Ideal.ieee, -EReal.coe_mul]; norm_num

/-- The identity matrix as the reference builds it: the comparison of the row and column counters, converted. -/
theorem eye_entry (i j : Fin 8192) :
    (FloatOps.uitofp (F := Ideal) .f32 (IntOp.cmpi .eq (IntOp.addi (BitVec.ofNat 32 i.val) 0#32) (BitVec.ofNat 32 j.val)) : EReal)
      = if i = j then 1 else 0 := by
  show (((IntOp.cmpi .eq (IntOp.addi (BitVec.ofNat 32 i.val) 0#32) (BitVec.ofNat 32 j.val)).toNat : ℝ) : EReal) = _
  have hi : IntOp.addi (BitVec.ofNat 32 i.val) 0#32 = BitVec.ofNat 32 i.val := by simp [IntOp.addi]
  rw [hi]
  by_cases h : i = j
  · subst h; simp [IntOp.cmpi]
  · have hne : (BitVec.ofNat 32 i.val == BitVec.ofNat 32 j.val) = false := by
      rw [beq_eq_false_iff_ne]
      intro e
      have e' := congrArg BitVec.toNat e
      simp only [BitVec.toNat_ofNat, Nat.reducePow] at e'
      have hi := i.isLt; have hj := j.isLt
      exact h (Fin.ext (by omega))
    simp [IntOp.cmpi, hne, h]

/-- The reference's second result is the adjacency array of its own feature stage. -/
theorem adj_eq : val_main_v49 (F := Ideal) x0 x1 x2 x3 x4 x5 = adjArr (val_main_v28 (F := Ideal) x0 x2 x3 x4 x5) x1 := by
  funext idx
  obtain ⟨i, j, rfl⟩ : ∃ (i j : Fin 8192), idx = ix2 i j := ⟨idx 0, idx 1, eq_ix2 idx⟩
  have hl : ∀ k : Fin 256, lidx_main_v30 (ix2 i j) k = ix2 i k := fun k =>
    funext fun a => by match a with | ⟨0, _⟩ => rfl | ⟨1, _⟩ => rfl
  have hr : ∀ k : Fin 256, idx_main_v29 (ridx_main_v30 (ix2 i j) k) = ix2 j k := fun k =>
    funext fun a => by match a with | ⟨0, _⟩ => rfl | ⟨1, _⟩ => rfl
  rw [val_main_v49_apply, val_main_v42_apply, val_main_v41_apply, val_main_v36_apply, val_main_v35_apply,
    val_main_cst_5_apply, val_main_v34_apply, val_main_v33_apply, val_main_cst_4_apply, val_main_v32_apply,
    val_main_v31_apply, val_main_v30_apply, val_main_v40_apply, val_main_cst_7_apply, val_main_v39_apply,
    val_main_v38_apply, val_main_v37_apply, val_main_cst_6_apply, val_main_v48_apply, val_main_v47_apply,
    val_main_v46_apply, val_main_v43_apply, val_main_v45_apply, val_main_c_apply, val_main_v44_apply]
  simp only [val_main_v29_apply, hl, hr]
  rw [show ((ix2 i j : S8192x8192.Idx) 0).val = i.val from rfl, show ((ix2 i j : S8192x8192.Idx) 1).val = j.val from rfl,
    eye_entry]
  simp only [Ideal.addf_def, Ideal.mulf_def, Ideal.hostDivf_def, Ideal.hostUnary_exp_def, Ideal.hostNegf_def,
    Ideal.negf_def, Ideal.maximumf_def, Ideal.hostUnary_ceil_def, Ideal.ofBits_def, one_word]
  rfl

/-- The reference's degree factor at node `i`: its row sum to the power -1/2. -/
theorem deg_eq (i : Fin 8192) :
    val_main_v52 (F := Ideal) x0 x1 x2 x3 x4 x5 (ix1 i)
      = degPow (adj (val_main_v28 (F := Ideal) x0 x2 x3 x4 x5) x1) i := by
  have hk : ∀ k : Fin 8192, idx_main_v50 (ix1 i) k = ix2 i k := fun k =>
    funext fun a => by match a with | ⟨0, _⟩ => rfl | ⟨1, _⟩ => rfl
  rw [val_main_v52_apply, val_main_v50_apply, val_main_cst_8_apply, val_main_v51_apply, val_main_cst_9_apply, adj_eq]
  simp only [hk, Ideal.hostPowf_def, Ideal.ofBits_def, Ideal.ofBits_zero_f32, zero_add]
  rfl

/-- The reference's scaled matrix: the adjacency times the row factor, then the column factor. -/
theorem scaled_eq (i j : Fin 8192) :
    val_main_v58 (F := Ideal) x0 x1 x2 x3 x4 x5 (ix2 i j)
      = (adj (val_main_v28 (F := Ideal) x0 x2 x3 x4 x5) x1 i j
          * degPow (adj (val_main_v28 (F := Ideal) x0 x2 x3 x4 x5) x1) i)
        * degPow (adj (val_main_v28 (F := Ideal) x0 x2 x3 x4 x5) x1) j := by
  have hrow : idx_main_v53 (idx_main_v54 (ix2 i j)) = ix1 i :=
    funext fun a => by match a with | ⟨0, _⟩ => rfl
  have hcol : idx_main_v56 (idx_main_v57 (ix2 i j)) = ix1 j :=
    funext fun a => by match a with | ⟨0, _⟩ => rfl
  rw [val_main_v58_apply, val_main_v55_apply, val_main_v54_apply, val_main_v53_apply, val_main_v57_apply,
    val_main_v56_apply, hrow, hcol, deg_eq, deg_eq, adj_eq]
  rfl

/-- The reference's first result is the specification's array in the arrangement that scales the matrix. -/
theorem out_eq :
    val_main_v68 (F := Ideal) x0 x1 x2 x3 x4 x5 x6 x7
      = outScaledArr (val_main_v28 (F := Ideal) x0 x2 x3 x4 x5) x1 (val_main_v62 (F := Ideal) x0 x2 x3 x6 x7) := by
  funext idx
  obtain ⟨i, k, rfl⟩ : ∃ (i : Fin 8192) (k : Fin 64), idx = ix2 i k := ⟨idx 0, idx 1, eq_ix2 idx⟩
  have hl : ∀ j : Fin 8192, lidx_main_v63 (ix2 i k) j = ix2 i j := fun j =>
    funext fun a => by match a with | ⟨0, _⟩ => rfl | ⟨1, _⟩ => rfl
  have hr : ∀ j : Fin 8192, ridx_main_v63 (ix2 i k) j = ix2 j k := fun j =>
    funext fun a => by match a with | ⟨0, _⟩ => rfl | ⟨1, _⟩ => rfl
  have hsum : val_main_v63 (F := Ideal) x0 x1 x2 x3 x4 x5 x6 x7 (ix2 i k)
      = ∑ j : Fin 8192, ((adj (val_main_v28 (F := Ideal) x0 x2 x3 x4 x5) x1 i j
          * degPow (adj (val_main_v28 (F := Ideal) x0 x2 x3 x4 x5) x1) i)
        * degPow (adj (val_main_v28 (F := Ideal) x0 x2 x3 x4 x5) x1) j)
        * val_main_v62 (F := Ideal) x0 x2 x3 x6 x7 (ix2 j k) := by
    rw [val_main_v63_apply]
    simp only [hl, hr, scaled_eq]
  rw [val_main_v68_apply, val_main_v65_apply, val_main_v67_apply, val_main_v64_apply, val_main_cst_10_apply,
    val_main_v66_apply, val_main_cst_11_apply, hsum]
  rfl

end Cert.Adj.Ref

end
-- ==== Proof.MaskPre.lean ====
/-
  The precondition read back: besides the finiteness of every argument it says that the mask
  ceil (A · c), c the f32 nearest 1e-5, is 0 or 1 at every index — the conjunct
  all ((ceil (A · c) == 0) | (ceil (A · c) == 1)) of the precondition.
-/
import proofs.«175017_j25469156065919_2_alg».proof.Pre_finite_inputs
import proofs.«175017_j25469156065919_2_alg».proof.Proof.Gen.Pre_finite_inputs
import Idealize.ShloMosaic.Lib.ReduceAll
import Idealize.ShloMosaic.Lib.ValueIdx
import Idealize.ShloMosaic.PureOps.Ideal.Laws

noncomputable section

namespace Cert.Adj

open Idealize.ShloMosaic Idealize.ShloMosaic.ValueIdx Cert.Pre_finite_inputs

/-- The scalar shape has one index. -/
instance subsingleton_scalarIdx : Subsingleton S_.Idx := ⟨fun a b => funext fun d => d.elim0⟩

/-- The f32 word of 1.0 denotes 1. -/
theorem ofBits_one_f32 : Ideal.ofBits .f32 0x3F800000#32 = 1 := by
  simp [Ideal.ofBits, Ideal.ieee, -EReal.coe_mul]; norm_num

/-- An ordered-equal comparison that answered 1 compared equal extended reals. -/
theorem eq_of_cmp_oeq {x y : EReal} (h : Ideal.cmp .oeq x y = 1#1) : x = y := by
  by_contra hne
  simp [Ideal.cmp, hne] at h

/-- Under the precondition the mask is binary: `⌈A i j · c⌉` is 0 or 1 at every index. -/
theorem mask_binary (H : FVec Ideal S8192x128 .f32) (A : FVec Ideal S8192x8192 .f32) (g b : FVec Ideal S128 .f32)
    (W1 : FVec Ideal S128x256 .f32) (b1 : FVec Ideal S256 .f32) (Wout : FVec Ideal S128x64 .f32) (bout : FVec Ideal S64 .f32)
    (h : Cert.Pre_finite_inputs.fn (F := Ideal) H A g b W1 b1 Wout bout = (fun _ => 1#1)) (idx : S8192x8192.Idx) :
    Ideal.liftRound Int.ceil (A idx * Ideal.ofBits .f32 0x3727C5AC#32) = 0
      ∨ Ideal.liftRound Int.ceil (A idx * Ideal.ofBits .f32 0x3727C5AC#32) = 1 := by
  have h0 := congrFun h ValueIdx.ix0
  dsimp only [fn, fn_part1, fn_part2, fn_part3] at h0
  have h1 := (IntOp.andi_eq_one.1 h0).2
  have h2 := Host.reduce_andi_all _ _ _ _ _ h1 idx
  rcases IntOp.ori_eq_one.1 h2 with h3 | h3
  · left
    have h4 : Ideal.cmp .oeq (Ideal.liftRound Int.ceil (A idx * Ideal.ofBits .f32 0x3727C5AC#32))
        (Ideal.ofBits .f32 0x00000000#32) = 1#1 := h3
    rw [eq_of_cmp_oeq h4, Ideal.ofBits_zero_f32]
  · right
    have h4 : Ideal.cmp .oeq (Ideal.liftRound Int.ceil (A idx * Ideal.ofBits .f32 0x3727C5AC#32))
        (Ideal.ofBits .f32 0x3F800000#32) = 1#1 := h3
    rw [eq_of_cmp_oeq h4, ofBits_one_f32]

end Cert.Adj

end
-- ==== Proof.Bridge.lean ====
/-
  The two programs end with equal results. The kernel program's run leaves, in its two result arrays, the
  specification's arrays in the arrangement that folds the column factor into the values (the contents
  followed through the host operations, the first kernel, the host operations between, the second kernel);
  the reference's run leaves them in the arrangement that scales the matrix; under the precondition the mask
  is binary, and then the two arrangements are one array.
-/
import proofs.«175017_j25469156065919_2_alg».proof.Defs
import proofs.«175017_j25469156065919_2_alg».proof.Proof.MainRun
import proofs.«175017_j25469156065919_2_alg».proof.Proof.Value0
import proofs.«175017_j25469156065919_2_alg».proof.Proof.BridgeCore
import proofs.«175017_j25469156065919_2_alg».proof.Proof.RefRead
import proofs.«175017_j25469156065919_2_alg».proof.Proof.MaskPre

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat)

variable (m : (ℓ : Loc nD τ sig) → Buf (Elt Ideal) ℓ) (ρ : Dev nD → PrngReg)

/-! ## The contents at each boundary -/

/-- After the first host stretch the feature array is the reference's feature stage of the launch contents, -/
theorem W1_hx (c : Dev nD) : (W1 m c (Proc.devRef .tc main_v33) : S8192x256.Idx → EReal) = hxAt (W0 m c) :=
  Cert.Adj.Host.hx_stage (W0 m c)
/-- the value array its value stage, -/
theorem W1_v (c : Dev nD) : (W1 m c (Proc.devRef .tc main_v32) : S8192x64.Idx → EReal) = vAt (W0 m c) :=
  Cert.Adj.Host.v_stage (W0 m c)
/-- and the raw adjacency as launched. -/
theorem W1_a (c : Dev nD) : (W1 m c (Proc.devRef .tc main_arg1) : S8192x8192.Idx → EReal) = aAt (W0 m c) :=
  Cert.Adj.Host.a_stage (W0 m c)

/-- After the first kernel: the adjacency with self loops, -/
theorem W2_adj (c : Dev nD) :
    (W2 m c (Proc.devRef .tc main_v34_0) : S8192x8192.Idx → EReal) = Cert.Adj.adjArr (hxAt (W0 m c)) (aAt (W0 m c)) := by
  refine (W2_v34_0 m c).trans ?_
  refine (final0_3 (E1 m) c).trans ?_
  show Cert.Adj.adjArr (W1 m c (Proc.devRef .tc main_v33)) (W1 m c (Proc.devRef .tc main_arg1)) = _
  rw [W1_hx, W1_a]
/-- its degree factors, -/
theorem W2_deg (c : Dev nD) :
    (W2 m c (Proc.devRef .tc main_v34_1) : S8192x1.Idx → EReal)
      = fun idx => Cert.Adj.degRsqrt (Cert.Adj.adj (hxAt (W0 m c)) (aAt (W0 m c))) (idx 0) := by
  refine (W2_v34_1 m c).trans ?_
  refine (final0_4 (E1 m) c).trans ?_
  show (fun idx : S8192x1.Idx => Cert.Adj.degRsqrt (Cert.Adj.adj (W1 m c (Proc.devRef .tc main_v33)) (W1 m c (Proc.devRef .tc main_arg1))) (idx 0)) = _
  rw [W1_hx, W1_a]
  rfl
/-- and the value array untouched. -/
theorem W2_v (c : Dev nD) : (W2 m c (Proc.devRef .tc main_v32) : S8192x64.Idx → EReal) = vAt (W0 m c) :=
  (W2_of_ne m c main_v32 (by decide) (by decide)).trans (W1_v m c)

/-- THE KERNEL PROGRAM'S SECOND RESULT: the adjacency with self loops (the second kernel only reads it). -/
theorem kernel_adj (c : Dev nD) :
    (W4 m c (Proc.devRef .tc main_v34_0) : S8192x8192.Idx → EReal) = Cert.Adj.adjArr (hxAt (W0 m c)) (aAt (W0 m c)) := by
  refine (W4_arr m c 0).trans ?_
  refine ((dat1 (E3 m) c).arrAt_in 0 rfl _).trans ?_
  refine (A_eq1 (E3 m) c 0).trans ?_
  show StableHlo.after (hostOps1 (F := Ideal)) (W2 m c) (Proc.devRef .tc main_v34_0) = _
  exact (after1_v34_0 (W2 m c)).trans (W2_adj m c)

/-- THE KERNEL PROGRAM'S FIRST RESULT: the specification's result, column factor folded into the values. -/
theorem kernel_out (c : Dev nD) :
    (W4 m c (Proc.devRef .tc main_v38) : S8192x64.Idx → EReal)
      = Cert.Adj.outFoldedArr (hxAt (W0 m c)) (aAt (W0 m c)) (vAt (W0 m c)) := by
  refine (W4_arr m c 3).trans ?_
  refine (final1 (E3 m) c).trans ?_
  exact out_assembly (W0 m c) (W2 m c) (W2_adj m c) (W2_deg m c) (W2_v m c)

end Cert.KernelIdeal.Hand

/-! ## The claim -/

namespace Cert.Proof.Bridge

open Idealize.ShloMosaic Idealize.ShloMosaic.TcCoe Idealize.SL.Sem

/-- At the ideal values the kernel program and the reference, run from memories that agree on the arguments and
    satisfy the precondition, end with equal results and unchanged arguments. -/
theorem algebraic : Cert.algebraic_KernelIdeal_ReferenceIdeal := by
  intro m ρ m' ρ' hpre hagree
  refine ⟨fun c => Cert.Adj.outFoldedArr (Cert.KernelIdeal.Hand.hxAt (Cert.KernelIdeal.Hand.W0 m c))
      (Cert.KernelIdeal.Hand.aAt (Cert.KernelIdeal.Hand.W0 m c)) (Cert.KernelIdeal.Hand.vAt (Cert.KernelIdeal.Hand.W0 m c)),
    fun c => Cert.Adj.adjArr (Cert.KernelIdeal.Hand.hxAt (Cert.KernelIdeal.Hand.W0 m c))
      (Cert.KernelIdeal.Hand.aAt (Cert.KernelIdeal.Hand.W0 m c)), ?_, ?_⟩
  · refine (θ_run Cert.KernelIdeal.defs _ _).mono (fun r h c => ?_) (Cert.KernelIdeal.Hand.run_all m ρ)
    exact ⟨(h c _ (Cert.KernelIdeal.Hand.mem_uc Cert.KernelIdeal.main_v38 (by decide))).trans (Cert.KernelIdeal.Hand.kernel_out m c),
      (h c _ (Cert.KernelIdeal.Hand.mem_uc Cert.KernelIdeal.main_v34_0 (by decide))).trans (Cert.KernelIdeal.Hand.kernel_adj m c),
      (h c _ (Cert.KernelIdeal.Hand.mem_uc Cert.KernelIdeal.main_arg0 (by decide))).trans (Cert.KernelIdeal.Hand.W4_main_arg0 m c),
      (h c _ (Cert.KernelIdeal.Hand.mem_uc Cert.KernelIdeal.main_arg1 (by decide))).trans (Cert.KernelIdeal.Hand.W4_main_arg1 m c),
      (h c _ (Cert.KernelIdeal.Hand.mem_uc Cert.KernelIdeal.main_arg2 (by decide))).trans (Cert.KernelIdeal.Hand.W4_main_arg2 m c),
      (h c _ (Cert.KernelIdeal.Hand.mem_uc Cert.KernelIdeal.main_arg3 (by decide))).trans (Cert.KernelIdeal.Hand.W4_main_arg3 m c),
      (h c _ (Cert.KernelIdeal.Hand.mem_uc Cert.KernelIdeal.main_arg4 (by decide))).trans (Cert.KernelIdeal.Hand.W4_main_arg4 m c),
      (h c _ (Cert.KernelIdeal.Hand.mem_uc Cert.KernelIdeal.main_arg5 (by decide))).trans (Cert.KernelIdeal.Hand.W4_main_arg5 m c),
      (h c _ (Cert.KernelIdeal.Hand.mem_uc Cert.KernelIdeal.main_arg6 (by decide))).trans (Cert.KernelIdeal.Hand.W4_main_arg6 m c),
      (h c _ (Cert.KernelIdeal.Hand.mem_uc Cert.KernelIdeal.main_arg7 (by decide))).trans (Cert.KernelIdeal.Hand.W4_main_arg7 m c)⟩
  · refine (θ_run Cert.ReferenceIdeal.defs _ _).mono (fun r h c => ?_) (Cert.ReferenceIdeal.Value.run (F := Ideal) m' ρ')
    obtain ⟨a0, a1, a2, a3, a4, a5, a6, a7⟩ := hagree c
    have hmask := Cert.Adj.mask_binary _ _ _ _ _ _ _ _ (hpre c)
    refine ⟨(h c).1.trans ?_, (h c).2.1.trans ?_, (h c).2.2⟩
    · rw [Cert.ReferenceIdeal.Read.val_main_v68_eq, Cert.Adj.Ref.out_eq, a0, a1, a2, a3, a4, a5, a6, a7]
      exact (Cert.Adj.outFoldedArr_eq_outScaledArr _ _ _ hmask).symm
    · rw [Cert.ReferenceIdeal.Read.val_main_v49_eq, Cert.Adj.Ref.adj_eq, a0, a1, a2, a3, a4, a5]

end Cert.Proof.Bridge

end
-- ==== Proof.lean ====
/-
  The certificate's five claims for the graph layer kernel: batch-normalised features Hn, Hx = Hn·W1 + b1 and
  V = Hn·Wout + bout on the host; a first kernel that builds the adjacency A1 = max(σ(Hx·Hxᵀ), 0.1)·⌈A·c⌉ + I block
  by block and accumulates its row sums into the degree factors d = (row sum)^(-1/2); and a second kernel that
  accumulates A1·(d·V) block by block and finishes with d·(…) through the leaky rectifier.

  The three frames: each kernel program (as printed, and idealized) is followed through its four segments — host
  operations, the first kernel's 8×8 grid, three host operations, the second kernel's 4×8 grid — with the contents of
  every unscoped buffer named at each boundary; the reference's frame is its run. The idealization rewrote nothing,
  so preserving it is trivial. The value claim: over the extended reals both programs return the same adjacency
  entry by entry, and the kernel's d_i·∑_j A1_ij·(d_j·V_jk) equals the reference's ∑_j ((A1_ij·d_i)·d_j)·V_jk because,
  the mask ⌈A·c⌉ being 0 or 1, every adjacency entry is a real in [0, 2] with a diagonal ≥ 1, so every row sum is a
  real ≥ 1, both degree factors are one positive real, and a product with a nonnegative real distributes over any sum
  of extended reals; a block-by-block accumulation is the whole sum by associativity.
-/
import proofs.«175017_j25469156065919_2_alg».proof.Defs
import proofs.«175017_j25469156065919_2_alg».proof.Proof.Gen.Kernel
import proofs.«175017_j25469156065919_2_alg».proof.Proof.Gen.KernelIdeal
import proofs.«175017_j25469156065919_2_alg».proof.Proof.Gen.ReferenceIdeal
import proofs.«175017_j25469156065919_2_alg».proof.Proof.Gen.Pre_finite_inputs
import proofs.«175017_j25469156065919_2_alg».proof.Proof.Gen.ReferenceIdeal.Run
import proofs.«175017_j25469156065919_2_alg».proof.Proof.MainRun
import proofs.«175017_j25469156065919_2_alg».proof.Proof.KMainRun
import proofs.«175017_j25469156065919_2_alg».proof.Proof.Bridge
import Idealize.ShloMosaic.Adequacy
import Idealize.ShloMosaic.Init

noncomputable section

namespace Cert.Proof

open Idealize.ShloMosaic Idealize.SL.Sem

/-- The printed kernel program runs to the end, nothing faulting, its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Bridge.algebraic⟩

end Cert.Proof

end
